-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128 : Shape := ⟨1, ![128]⟩
abbrev S128x96 : Shape := ⟨2, ![128, 96]⟩
abbrev S96 : Shape := ⟨1, ![96]⟩
abbrev S96x64 : Shape := ⟨2, ![96, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128 : S_.BroadcastsInDim S128 (![] : Fin 0 → Fin S128.rank)
  reducesTo_S128_S_d0 : S128.ReducesTo [0] S_
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S96x64 .f32) (main_arg9 : FVec F S64 .f32) (main_v33 : IVec S_ 1) : IVec S_ 1 :=
  let main_v34 : FVec F S96x64 .f32 := Host.absf main_arg8
  let main_cst_12 : FVec F S_ .f32 := constant S_ .f32 0x7F800000#32
  let main_v35 : FVec F S96x64 .f32 := broadcastInDim S96x64 ![] bcast_S_S96x64 main_cst_12
  let main_v36 : IVec S96x64 1 := cmpf .olt main_v34 main_v35
  let main_c_13 : IVec S_ 1 := constantI S_ 1 1#1
  let main_v37 : IVec S_ 1 := (fun x v => Host.reduce IntOp.andi x v reducesTo_S96x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S96 .f32) (main_arg6 : FVec F S96 .f32) (main_arg7 : FVec F S96 .f32) (main_arg8 : FVec F S96x64 .f32) (main_arg9 : FVec F S64 .f32) (main_v13 : IVec S_ 1) (main_v16 : IVec S128x96 1) : IVec S_ 1 :=
  let main_c_5 : IVec S_ 1 := constantI S_ 1 1#1
  let main_v17 : IVec S_ 1 := (fun x v => Host.reduce IntOp.andi x v reducesTo_S128x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96 .f32 := Host.absf main_arg6
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96 .f32 := Host.absf main_arg7
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128 .f32) (main_arg3 : FVec F S128 .f32) (main_arg4 : FVec F S128x96 .f32) (main_arg5 : FVec F S96 .f32) (main_arg6 : FVec F S96 .f32) (main_arg7 : FVec F S96 .f32) (main_arg8 : FVec F S96x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x96 .f32 := Host.absf main_arg4
  let main_cst_4 : FVec F S_ .f32 := constant S_ .f32 0x7F800000#32
  let main_v15 : FVec F S128x96 .f32 := broadcastInDim S128x96 ![] bcast_S_S128x96 main_cst_4
  let main_v16 : IVec S128x96 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128 : Shape := ⟨1, ![128]⟩
abbrev S128x96 : Shape := ⟨2, ![128, 96]⟩
abbrev S96 : Shape := ⟨1, ![96]⟩
abbrev S96x64 : Shape := ⟨2, ![96, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S1x128 : Shape := ⟨2, ![1, 128]⟩
abbrev S50000x96 : Shape := ⟨2, ![50000, 96]⟩
abbrev S5000x128 : Shape := ⟨2, ![5000, 128]⟩
abbrev S5000x1 : Shape := ⟨2, ![5000, 1]⟩
abbrev S5000x96 : Shape := ⟨2, ![5000, 96]⟩
abbrev S850000x96 : Shape := ⟨2, ![850000, 96]⟩
abbrev S1x96 : Shape := ⟨2, ![1, 96]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 107
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128, .f32⟩
  | .hbm, ⟨3, _⟩ => ⟨S128, .f32⟩
  | .hbm, ⟨4, _⟩ => ⟨S128x96, .f32⟩
  | .hbm, ⟨5, _⟩ => ⟨S96, .f32⟩
  | .hbm, ⟨6, _⟩ => ⟨S96, .f32⟩
  | .hbm, ⟨7, _⟩ => ⟨S96, .f32⟩
  | .hbm, ⟨8, _⟩ => ⟨S96x64, .f32⟩
  | .hbm, ⟨9, _⟩ => ⟨S64, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S_, .f32⟩
  | .hbm, ⟨33, _⟩ => ⟨S128, .f32⟩
  | .hbm, ⟨34, _⟩ => ⟨S50000x128, .f32⟩
  | .hbm, ⟨35, _⟩ => ⟨S_, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S1x128, .f32⟩
  | .hbm, ⟨54, _⟩ => ⟨S50000x96, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x96, .f32⟩
  | .hbm, ⟨64, _⟩ => ⟨S_, .f32⟩
  | .hbm, ⟨65, _⟩ => ⟨S50000x96, .f32⟩
  | .hbm, ⟨66, _⟩ => ⟨S850000x1, .i32⟩
  | .hbm, ⟨67, _⟩ => ⟨S50000x96, .f32⟩
  | .hbm, ⟨68, _⟩ => ⟨S1x96, .f32⟩
  | .hbm, ⟨69, _⟩ => ⟨S50000x96, .f32⟩
  | .hbm, ⟨70, _⟩ => ⟨S_, .f32⟩
  | .hbm, ⟨71, _⟩ => ⟨S_, .f32⟩
  | .hbm, ⟨72, _⟩ => ⟨S50000x96, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S96, .f32⟩
  | .hbm, ⟨85, _⟩ => ⟨S96, .f32⟩
  | .hbm, ⟨86, _⟩ => ⟨S96, .f32⟩
  | .hbm, ⟨87, _⟩ => ⟨S96, .f32⟩
  | .hbm, ⟨88, _⟩ => ⟨S96, .f32⟩
  | .hbm, ⟨89, _⟩ => ⟨S1x96, .f32⟩
  | .hbm, ⟨90, _⟩ => ⟨S1x96, .f32⟩
  | .hbm, ⟨91, _⟩ => ⟨S50000x64, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000x64, .f32⟩
  | .hbm, ⟨101, _⟩ => ⟨S_, .f32⟩
  | .hbm, ⟨102, _⟩ => ⟨S50000x64, .f32⟩
  | .hbm, ⟨103, _⟩ => ⟨S850000x1, .i32⟩
  | .hbm, ⟨104, _⟩ => ⟨S50000x64, .f32⟩
  | .hbm, ⟨105, _⟩ => ⟨S1x64, .f32⟩
  | .hbm, ⟨106, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S1x128, .f32⟩
  | .local _ .vmem, ⟨4, _⟩ => ⟨S128x96, .f32⟩
  | .local _ .vmem, ⟨5, _⟩ => ⟨S5000x1, .f32⟩
  | .local _ .vmem, ⟨6, _⟩ => ⟨S5000x1, .f32⟩
  | .local _ .vmem, ⟨7, _⟩ => ⟨S5000x96, .f32⟩
  | .local _ .vmem, ⟨8, _⟩ => ⟨S5000x96, .f32⟩
  | .local _ .vmem, ⟨9, _⟩ => ⟨S5000x96, .f32⟩
  | .local _ .vmem, ⟨10, _⟩ => ⟨S5000x96, .f32⟩
  | .local _ .vmem, ⟨11, _⟩ => ⟨S5000x1, .f32⟩
  | .local _ .vmem, ⟨12, _⟩ => ⟨S5000x1, .f32⟩
  | .local _ .vmem, ⟨13, _⟩ => ⟨S1x96, .f32⟩
  | .local _ .vmem, ⟨14, _⟩ => ⟨S5000x96, .f32⟩
  | .local _ .vmem, ⟨15, _⟩ => ⟨S5000x96, .f32⟩
  | .local _ .vmem, ⟨16, _⟩ => ⟨S5000x96, .f32⟩
  | .local _ .vmem, ⟨17, _⟩ => ⟨S5000x96, .f32⟩
  | .local _ .vmem, ⟨18, _⟩ => ⟨S1x96, .f32⟩
  | .local _ .vmem, ⟨19, _⟩ => ⟨S1x96, .f32⟩
  | .local _ .vmem, ⟨20, _⟩ => ⟨S96x64, .f32⟩
  | .local _ .vmem, ⟨21, _⟩ => ⟨S5000x1, .f32⟩
  | .local _ .vmem, ⟨22, _⟩ => ⟨S5000x1, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x1, .f32⟩
  | .local _ .vmem, ⟨28, _⟩ => ⟨S5000x1, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_cst_5 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_7 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_cst_11 : Ref sig .tc := ⟨.hbm, 73, rfl⟩
abbrev main_v48 : Ref sig .tc := ⟨.hbm, 74, rfl⟩
abbrev main_cst_12 : Ref sig .tc := ⟨.hbm, 75, rfl⟩
abbrev main_v49 : Ref sig .tc := ⟨.hbm, 76, rfl⟩
abbrev main_cst_13 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_14 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_17 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem4_1 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem3_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S96x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  reducesTo_S50000x128_S128_d0 : S50000x128.ReducesTo [0] S128
  h_S_ : 0 < S_.numel
  bcast_S_S128 : S_.BroadcastsInDim S128 (![] : Fin 0 → Fin S128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x96 : S5000x1.Broadcasts S5000x96
  inb_S5000x96_S5000x96_0_0 : ∀ a, (![0, 0] : Fin 2 → Nat) a + S5000x96.size a ≤ S5000x96.size a
  h_S5000x96 : 0 < S5000x96.numel
  bcast_S_S50000x96 : S_.BroadcastsInDim S50000x96 (![] : Fin 0 → Fin S50000x96.rank)
  shapeCasts_S96_S1x96 : S96.ShapeCasts S1x96
  shapeCasts_S5000x96_S5000x96 : S5000x96.ShapeCasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  reducesTo_S50000x96_S_d0_1 : S50000x96.ReducesTo [0, 1] S_
  bcast_S_S96 : S_.BroadcastsInDim S96 (![] : Fin 0 → Fin S96.rank)
  inb_S96x64_S96x64_0_0 : ∀ a, (![0, 0] : Fin 2 → Nat) a + S96x64.size a ≤ S96x64.size a
  h_S96x64 : 0 < S96x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  dot_S5000x128_S128x96_S5000x96_1_0_0_1_n_n_wf : DotDims.WF S5000x128 S128x96 S5000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S5000x96_S96x64_S5000x64_1_0_0_1_n_n_wf : DotDims.WF S5000x96 S96x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x96.size a ≤ S128x96.size a
  hwx0_3 : ∀ i : grid0.Coords, EltTy.bits .f32 = 32 ∨ (Rect.block (s := S128x96) S128x96.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S50000x1.size a
  hwx0_4 : ∀ i : grid0.Coords, EltTy.bits .f32 = 32 ∨ (Rect.block (s := S50000x1) S5000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x96.size a ≤ S50000x96.size a
  hwx0_5 : ∀ i : grid0.Coords, EltTy.bits .f32 = 32 ∨ (Rect.block (s := S50000x96) S5000x96.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x96.size a ≤ S50000x96.size a
  hwx1_3 : ∀ i : grid1.Coords, EltTy.bits .f32 = 32 ∨ (Rect.block (s := S50000x96) S5000x96.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x96.size a ≤ S1x96.size a
  hwx2_1 : ∀ i : grid2.Coords, EltTy.bits .f32 = 32 ∨ (Rect.block (s := S1x96) S1x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x96.size a ≤ S1x96.size a
  hwx2_2 : ∀ i : grid2.Coords, EltTy.bits .f32 = 32 ∨ (Rect.block (s := S1x96) S1x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S96x64.size a ≤ S96x64.size a
  hwx2_3 : ∀ i : grid2.Coords, EltTy.bits .f32 = 32 ∨ (Rect.block (s := S96x64) S96x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S50000x1.size a
  hwx2_4 : ∀ i : grid2.Coords, EltTy.bits .f32 = 32 ∨ (Rect.block (s := S50000x1) S5000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x96_S5000x96_1_0_0_1_n_n : DotDims S5000x128 S128x96 S5000x96 where
  lhsContracting := [1]
  rhsContracting := [0]
  lhsNonContracting := [0]
  rhsNonContracting := [1]
  lhsBatch := []
  rhsBatch := []
  wf := dot_S5000x128_S128x96_S5000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v33) S5000x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S96x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S5000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v62) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v72) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v73) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128 : Shape := ⟨1, ![128]⟩
abbrev S128x96 : Shape := ⟨2, ![128, 96]⟩
abbrev S96 : Shape := ⟨1, ![96]⟩
abbrev S96x64 : Shape := ⟨2, ![96, 64]⟩
abbrev S64 : Shape := ⟨1, ![64]⟩
abbrev S_ : Shape := ⟨0, ![]⟩
abbrev S1x128 : Shape := ⟨2, ![1, 128]⟩
abbrev S50000x96 : Shape := ⟨2, ![50000, 96]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x96 : Shape := ⟨2, ![850000, 96]⟩
abbrev S1x96 : Shape := ⟨2, ![1, 96]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 190
  | .vmem => 0
  | .smem => 0
  | _ => 0

abbrev hbmTy0_0 (i : Nat) : BufTy := match i % 128 with
  | 0 => ⟨S50000x128, .f32⟩
  | 1 => ⟨S2x800000, .i32⟩
  | 2 => ⟨S128, .f32⟩
  | 3 => ⟨S128, .f32⟩
  | 4 => ⟨S128x96, .f32⟩
  | 5 => ⟨S96, .f32⟩
  | 6 => ⟨S96, .f32⟩
  | 7 => ⟨S96, .f32⟩
  | 8 => ⟨S96x64, .f32⟩
  | 9 => ⟨S64, .f32⟩
  | 10 => ⟨S_, .f32⟩
  | 11 => ⟨S128, .f32⟩
  | 12 => ⟨S_, .f32⟩
  | 13 => ⟨S128, .f32⟩
  | 14 => ⟨S128, .f32⟩
  | 15 => ⟨S1x128, .f32⟩
  | 16 => ⟨S50000x128, .f32⟩
  | 17 => ⟨S50000x128, .f32⟩
  | 18 => ⟨S50000x128, .f32⟩
  | 19 => ⟨S_, .f32⟩
  | 20 => ⟨S128, .f32⟩
  | 21 => ⟨S_, .f32⟩
  | 22 => ⟨S128, .f32⟩
  | 23 => ⟨S128, .f32⟩
  | 24 => ⟨S1x128, .f32⟩
  | 25 => ⟨S50000x128, .f32⟩
  | 26 => ⟨S50000x128, .f32⟩
  | 27 => ⟨S_, .f32⟩
  | 28 => ⟨S128, .f32⟩
  | 29 => ⟨S128, .f32⟩
  | 30 => ⟨S128, .f32⟩
  | 31 => ⟨S1x128, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S1x128, .f32⟩
  | 38 => ⟨S50000x128, .f32⟩
  | 39 => ⟨S50000x128, .f32⟩
  | 40 => ⟨S50000x96, .f32⟩
  | 41 => ⟨S50000, .i32⟩
  | 42 => ⟨S1x800000, .i32⟩
  | 43 => ⟨S800000, .i32⟩
  | 44 => ⟨S850000, .i32⟩
  | 45 => ⟨S1x800000, .i32⟩
  | 46 => ⟨S800000, .i32⟩
  | 47 => ⟨S850000, .i32⟩
  | 48 => ⟨S_, .f32⟩
  | 49 => ⟨S850000, .f32⟩
  | 50 => ⟨S_, .f32⟩
  | 51 => ⟨S50000, .f32⟩
  | 52 => ⟨S850000x1, .i32⟩
  | 53 => ⟨S50000, .f32⟩
  | 54 => ⟨S_, .f32⟩
  | 55 => ⟨S50000, .f32⟩
  | 56 => ⟨S50000, .i1⟩
  | 57 => ⟨S50000, .f32⟩
  | 58 => ⟨S_, .f32⟩
  | 59 => ⟨S_, .f32⟩
  | 60 => ⟨S50000, .f32⟩
  | 61 => ⟨S50000, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S850000, .f32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S850000, .f32⟩
  | 80 => ⟨S850000, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000x96, .f32⟩
  | 90 => ⟨S850000x1, .f32⟩
  | 91 => ⟨S850000x96, .f32⟩
  | 92 => ⟨S850000x96, .f32⟩
  | 93 => ⟨S_, .f32⟩
  | 94 => ⟨S50000x96, .f32⟩
  | 95 => ⟨S850000x1, .i32⟩
  | 96 => ⟨S50000x96, .f32⟩
  | 97 => ⟨S1x96, .f32⟩
  | 98 => ⟨S50000x96, .f32⟩
  | 99 => ⟨S50000x96, .f32⟩
  | 100 => ⟨S_, .f32⟩
  | 101 => ⟨S50000x96, .f32⟩
  | 102 => ⟨S50000x96, .f32⟩
  | 103 => ⟨S_, .f32⟩
  | 104 => ⟨S_, .f32⟩
  | 105 => ⟨S_, .f32⟩
  | 106 => ⟨S_, .f32⟩
  | 107 => ⟨S50000x96, .f32⟩
  | 108 => ⟨S50000x96, .f32⟩
  | 109 => ⟨S50000x96, .f32⟩
  | 110 => ⟨S_, .f32⟩
  | 111 => ⟨S_, .f32⟩
  | 112 => ⟨S_, .f32⟩
  | 113 => ⟨S_, .f32⟩
  | 114 => ⟨S50000x96, .f32⟩
  | 115 => ⟨S50000x96, .f32⟩
  | 116 => ⟨S_, .f32⟩
  | 117 => ⟨S_, .f32⟩
  | 118 => ⟨S_, .f32⟩
  | 119 => ⟨S50000x96, .f32⟩
  | 120 => ⟨S50000x96, .f32⟩
  | 121 => ⟨S1x96, .f32⟩
  | 122 => ⟨S50000x96, .f32⟩
  | 123 => ⟨S50000x96, .f32⟩
  | 124 => ⟨S1x96, .f32⟩
  | 125 => ⟨S50000x96, .f32⟩
  | 126 => ⟨S50000x96, .f32⟩
  | 127 => ⟨S50000x64, .f32⟩
  | _ => ⟨S50000x128, .f32⟩

abbrev hbmTy0_1 (i : Nat) : BufTy := match i % 128 with
  | 0 => ⟨S50000, .i32⟩
  | 1 => ⟨S1x800000, .i32⟩
  | 2 => ⟨S800000, .i32⟩
  | 3 => ⟨S850000, .i32⟩
  | 4 => ⟨S1x800000, .i32⟩
  | 5 => ⟨S800000, .i32⟩
  | 6 => ⟨S850000, .i32⟩
  | 7 => ⟨S_, .f32⟩
  | 8 => ⟨S850000, .f32⟩
  | 9 => ⟨S_, .f32⟩
  | 10 => ⟨S50000, .f32⟩
  | 11 => ⟨S850000x1, .i32⟩
  | 12 => ⟨S50000, .f32⟩
  | 13 => ⟨S_, .f32⟩
  | 14 => ⟨S50000, .f32⟩
  | 15 => ⟨S50000, .i1⟩
  | 16 => ⟨S50000, .f32⟩
  | 17 => ⟨S_, .f32⟩
  | 18 => ⟨S_, .f32⟩
  | 19 => ⟨S50000, .f32⟩
  | 20 => ⟨S50000, .f32⟩
  | 21 => ⟨S_, .i32⟩
  | 22 => ⟨S850000, .i32⟩
  | 23 => ⟨S850000, .i1⟩
  | 24 => ⟨S_, .i32⟩
  | 25 => ⟨S850000, .i32⟩
  | 26 => ⟨S850000, .i32⟩
  | 27 => ⟨S850000, .i32⟩
  | 28 => ⟨S850000x1, .i32⟩
  | 29 => ⟨S850000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000x64, .f32⟩
  | 49 => ⟨S850000x1, .f32⟩
  | 50 => ⟨S850000x64, .f32⟩
  | 51 => ⟨S850000x64, .f32⟩
  | 52 => ⟨S_, .f32⟩
  | 53 => ⟨S50000x64, .f32⟩
  | 54 => ⟨S850000x1, .i32⟩
  | 55 => ⟨S50000x64, .f32⟩
  | 56 => ⟨S1x64, .f32⟩
  | 57 => ⟨S50000x64, .f32⟩
  | 58 => ⟨S50000x64, .f32⟩
  | 59 => ⟨S_, .f32⟩
  | 60 => ⟨S50000x64, .f32⟩
  | 61 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_call0_v0 : Ref sig .tc := ⟨.hbm, 59, rfl⟩
abbrev main_call0_v1 : Ref sig .tc := ⟨.hbm, 60, rfl⟩
abbrev main_v40 : Ref sig .tc := ⟨.hbm, 61, rfl⟩
abbrev main_c : Ref sig .tc := ⟨.hbm, 62, rfl⟩
abbrev main_v41 : Ref sig .tc := ⟨.hbm, 63, rfl⟩
abbrev main_v42 : Ref sig .tc := ⟨.hbm, 64, rfl⟩
abbrev main_c_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_call1_cst : Ref sig .tc := ⟨.hbm, 100, rfl⟩
abbrev main_call1_v0 : Ref sig .tc := ⟨.hbm, 101, rfl⟩
abbrev main_v72 : Ref sig .tc := ⟨.hbm, 102, rfl⟩
abbrev main_cst_14 : Ref sig .tc := ⟨.hbm, 103, rfl⟩
abbrev main_v73 : Ref sig .tc := ⟨.hbm, 104, rfl⟩
abbrev main_cst_15 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_16 : Ref sig .tc := ⟨.hbm, 110, rfl⟩
abbrev main_v78 : Ref sig .tc := ⟨.hbm, 111, rfl⟩
abbrev main_cst_17 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_18 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_19 : Ref sig .tc := ⟨.hbm, 135, rfl⟩
abbrev main_v100 : Ref sig .tc := ⟨.hbm, 136, rfl⟩
abbrev main_cst_20 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_21 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_22 : Ref sig .tc := ⟨.hbm, 145, rfl⟩
abbrev main_call2_v0 : Ref sig .tc := ⟨.hbm, 146, rfl⟩
abbrev main_call2_v1 : Ref sig .tc := ⟨.hbm, 147, rfl⟩
abbrev main_v107 : Ref sig .tc := ⟨.hbm, 148, rfl⟩
abbrev main_c_23 : Ref sig .tc := ⟨.hbm, 149, rfl⟩
abbrev main_v108 : Ref sig .tc := ⟨.hbm, 150, rfl⟩
abbrev main_v109 : Ref sig .tc := ⟨.hbm, 151, rfl⟩
abbrev main_c_24 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_c_25 : Ref sig .tc := ⟨.hbm, 158, rfl⟩
abbrev main_v115 : Ref sig .tc := ⟨.hbm, 159, rfl⟩
abbrev main_v116 : Ref sig .tc := ⟨.hbm, 160, rfl⟩
abbrev main_c_26 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_c_27 : Ref sig .tc := ⟨.hbm, 168, rfl⟩
abbrev main_v123 : Ref sig .tc := ⟨.hbm, 169, rfl⟩
abbrev main_v124 : Ref sig .tc := ⟨.hbm, 170, rfl⟩
abbrev main_c_28 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_cst_29 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_call3_cst : Ref sig .tc := ⟨.hbm, 187, rfl⟩
abbrev main_call3_v0 : Ref sig .tc := ⟨.hbm, 188, rfl⟩
abbrev main_v139 : Ref sig .tc := ⟨.hbm, 189, rfl⟩

abbrev nD : Nat := 1
abbrev τ : Topo := Topo.v7x

variable {F : FTy → Type} [FloatOps F]

class Facts₀ : Prop where
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  reducesTo_S50000x96_S_d0_1 : S50000x96.ReducesTo [0, 1] S_
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x96_S50000x96_1_0_0_1_n_n_wf : DotDims.WF S50000x128 S128x96 S50000x96 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x64_S50000x64_1_0_0_1_n_n_wf : DotDims.WF S50000x96 S96x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its result array named.

  The program is four pipelined regions among stretches of host operations. The contents of every buffer at every
  boundary between them are a fold from the launch memory (the generated W0 … W10: a stretch applies its operations,
  a region replaces its arrays by what its write-backs leave). Every execution ends with every unscoped buffer at the
  last stage of that fold; read at the result buffer this names the result array, and read at an argument it gives the
  launch contents back.
-/
import proofs.«180567_j38208029065461_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    fold's last stage and the argument arrays as launched. -/
theorem run_result : θ_run defs (onTc (τ := τ) (main (F := F))) ⟨m, fun _ => 0, ρ⟩ (fun r => ∀ c : Dev nD,
      r.2.mem ((c.tc : Thread nD τ).loc main_v74) = W10 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v74 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.RunValue

end
-- ==== Proof.HostValues.lean ====
/-
  The values the kernel program's host operations compute between its four dense regions, as functions of arrays:
  the edge list's source and destination columns with the self loops appended, the in-degrees and the node factors
  1/√deg (0 where the degree is 0), the scale and shift rows of the two normalisations from the first and second
  moments, the gather-by-source / sum-by-destination of the projected rows, and the bias rows. Each stretch of host
  operations, run from ANY buffer contents V, leaves these values of V's contents in its result buffers.
-/
import proofs.«180567_j38208029065461_2_alg».proof.Proof.Gen.KernelIdeal.Launch
import Idealize.ShloMosaic.PureOps.Ideal
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

/-- The source node of every edge: row 0 of the edge list, then the self loops 0, 1, …, N − 1. -/
def srcOf (ei : IVec S2x800000 32) : IVec S850000 32 :=
  (((fun a b => concatenate S850000 0 [⟨S800000, a⟩, ⟨S50000, b⟩] concatenates_S800000_S50000_S850000_d0) : (⟨S800000, .i32⟩ : BufTy).Contents (Elt Ideal) → (⟨S50000, .i32⟩ : BufTy).Contents (Elt Ideal) → (⟨S850000, .i32⟩ : BufTy).Contents (Elt Ideal)) (shapeCast S800000 (((extractStridedSlice S1x800000 ![0, 0] · slices_S2x800000_S1x800000_0_0) : (⟨S2x800000, .i32⟩ : BufTy).Contents (Elt Ideal) → (⟨S1x800000, .i32⟩ : BufTy).Contents (Elt Ideal)) ei) shapeCasts_S1x800000_S800000) (iotaInDim S50000 32 0))

/-- The destination node of every edge: row 1 of the edge list, then the self loops. -/
def dstOf (ei : IVec S2x800000 32) : IVec S850000 32 :=
  (((fun a b => concatenate S850000 0 [⟨S800000, a⟩, ⟨S50000, b⟩] concatenates_S800000_S50000_S850000_d0) : (⟨S800000, .i32⟩ : BufTy).Contents (Elt Ideal) → (⟨S50000, .i32⟩ : BufTy).Contents (Elt Ideal) → (⟨S850000, .i32⟩ : BufTy).Contents (Elt Ideal)) (shapeCast S800000 (((extractStridedSlice S1x800000 ![1, 0] · slices_S2x800000_S1x800000_1_0) : (⟨S2x800000, .i32⟩ : BufTy).Contents (Elt Ideal) → (⟨S1x800000, .i32⟩ : BufTy).Contents (Elt Ideal)) ei) shapeCasts_S1x800000_S800000) (iotaInDim S50000 32 0))

/-- The in-degrees: the segment sum of ones over the destinations. -/
def degOf (d : IVec S850000 32) : FVec Ideal S50000 .f32 :=
  (((fun x i u => Host.scatterAdd (F := Ideal) scatter_S50000_S850000x1_S850000_n_0_0_1 x i u) : (⟨S50000, .f32⟩ : BufTy).Contents (Elt Ideal) → (⟨S850000x1, .i32⟩ : BufTy).Contents (Elt Ideal) → (⟨S850000, .f32⟩ : BufTy).Contents (Elt Ideal) → (⟨S50000, .f32⟩ : BufTy).Contents (Elt Ideal)) ((broadcastInDim S50000 ![] bcast_S_S50000 : (⟨S_, .f32⟩ : BufTy).Contents (Elt Ideal) → (⟨S50000, .f32⟩ : BufTy).Contents (Elt Ideal)) (constant (F := Ideal) S_ .f32 0x00000000#32)) ((broadcastInDim S850000x1 ![0] bcast_S850000_S850000x1_0 : (⟨S850000, .i32⟩ : BufTy).Contents (Elt Ideal) → (⟨S850000x1, .i32⟩ : BufTy).Contents (Elt Ideal)) d) ((broadcastInDim S850000 ![] bcast_S_S850000 : (⟨S_, .f32⟩ : BufTy).Contents (Elt Ideal) → (⟨S850000, .f32⟩ : BufTy).Contents (Elt Ideal)) (constant (F := Ideal) S_ .f32 0x3F800000#32)))

/-- Which degrees are positive. -/
def posOf (g : FVec Ideal S50000 .f32) : IVec S50000 1 :=
  ((cmpf (F := Ideal) .ogt : (⟨S50000, .f32⟩ : BufTy).Contents (Elt Ideal) → (⟨S50000, .f32⟩ : BufTy).Contents (Elt Ideal) → (⟨S50000, .i1⟩ : BufTy).Contents (Elt Ideal)) g ((broadcastInDim S50000 ![] bcast_S_S50000 : (⟨S_, .f32⟩ : BufTy).Contents (Elt Ideal) → (⟨S50000, .f32⟩ : BufTy).Contents (Elt Ideal)) (constant (F := Ideal) S_ .f32 0x00000000#32)))

/-- The reciprocal square roots of the degrees. -/
def rsqrtOf (g : FVec Ideal S50000 .f32) : FVec Ideal S50000 .f32 :=
  ((Host.rsqrt (F := Ideal) : (⟨S50000, .f32⟩ : BufTy).Contents (Elt Ideal) → (⟨S50000, .f32⟩ : BufTy).Contents (Elt Ideal)) g)

/-- The scalar zero. -/
def zeroScalar  : FVec Ideal S_ .f32 :=
  (constant (F := Ideal) S_ .f32 0x00000000#32)

/-- r where p holds, the scalar z elsewhere. -/
def whereOf (p : IVec S50000 1) (r : FVec Ideal S50000 .f32) (z : FVec Ideal S_ .f32) : FVec Ideal S50000 .f32 :=
  (select p r ((broadcastInDim S50000 ![] bcast_S_S50000) (id z)))

/-- A vector of node factors as the [N, 1] column. -/
def colOf (v : FVec Ideal S50000 .f32) : FVec Ideal S50000x1 .f32 :=
  (shapeCast S50000x1 v shapeCasts_S50000_S50000x1)

/-- The per-feature scale: the reciprocal root of (second moment − squared mean + ε) over the nodes, times the weight; as a [1, K] row. -/
def bnScaleRow (x : FVec Ideal S50000x128 .f32) (w : FVec Ideal S128 .f32) : FVec Ideal S1x128 .f32 :=
  (shapeCast S1x128 ((mulf (F := Ideal) : (⟨S128, .f32⟩ : BufTy).Contents (Elt Ideal) → (⟨S128, .f32⟩ : BufTy).Contents (Elt Ideal) → (⟨S128, .f32⟩ : BufTy).Contents (Elt Ideal)) ((Host.rsqrt (F := Ideal) : (⟨S128, .f32⟩ : BufTy).Contents (Elt Ideal) → (⟨S128, .f32⟩ : BufTy).Contents (Elt Ideal)) ((addf (F := Ideal) : (⟨S128, .f32⟩ : BufTy).Contents (Elt Ideal) → (⟨S128, .f32⟩ : BufTy).Contents (Elt Ideal) → (⟨S128, .f32⟩ : BufTy).Contents (Elt Ideal)) ((subf (F := Ideal) : (⟨S128, .f32⟩ : BufTy).Contents (Elt Ideal) → (⟨S128, .f32⟩ : BufTy).Contents (Elt Ideal) → (⟨S128, .f32⟩ : BufTy).Contents (Elt Ideal)) ((Host.divf (F := Ideal) : (⟨S128, .f32⟩ : BufTy).Contents (Elt Ideal) → (⟨S128, .f32⟩ : BufTy).Contents (Elt Ideal) → (⟨S128, .f32⟩ : BufTy).Contents (Elt Ideal)) (((fun x v => Host.reduceAdd (F := Ideal) x v reducesTo_S50000x128_S128_d0 h_S_) : (⟨S50000x128, .f32⟩ : BufTy).Contents (Elt Ideal) → (⟨S_, .f32⟩ : BufTy).Contents (Elt Ideal) → (⟨S128, .f32⟩ : BufTy).Contents (Elt Ideal)) ((mulf (F := Ideal) : (⟨S50000x128, .f32⟩ : BufTy).Contents (Elt Ideal) → (⟨S50000x128, .f32⟩ : BufTy).Contents (Elt Ideal) → (⟨S50000x128, .f32⟩ : BufTy).Contents (Elt Ideal)) x x) (constant (F := Ideal) S_ .f32 0x00000000#32)) ((broadcastInDim S128 ![] bcast_S_S128 : (⟨S_, .f32⟩ : BufTy).Contents (Elt Ideal) → (⟨S128, .f32⟩ : BufTy).Contents (Elt Ideal)) (constant (F := Ideal) S_ .f32 0x47435000#32))) ((mulf (F := Ideal) : (⟨S128, .f32⟩ : BufTy).Contents (Elt Ideal) → (⟨S128, .f32⟩ : BufTy).Contents (Elt Ideal) → (⟨S128, .f32⟩ : BufTy).Contents (Elt Ideal)) ((Host.divf (F := Ideal) : (⟨S128, .f32⟩ : BufTy).Contents (Elt Ideal) → (⟨S128, .f32⟩ : BufTy).Contents (Elt Ideal) → (⟨S128, .f32⟩ : BufTy).Contents (Elt Ideal)) (((fun x v => Host.reduceAdd (F := Ideal) x v reducesTo_S50000x128_S128_d0 h_S_) : (⟨S50000x128, .f32⟩ : BufTy).Contents (Elt Ideal) → (⟨S_, .f32⟩ : BufTy).Contents (Elt Ideal) → (⟨S128, .f32⟩ : BufTy).Contents (Elt Ideal)) x (constant (F := Ideal) S_ .f32 0x00000000#32)) ((broadcastInDim S128 ![] bcast_S_S128 : (⟨S_, .f32⟩ : BufTy).Contents (Elt Ideal) → (⟨S128, .f32⟩ : BufTy).Contents (Elt Ideal)) (constant (F := Ideal) S_ .f32 0x47435000#32))) ((Host.divf (F := Ideal) : (⟨S128, .f32⟩ : BufTy).Contents (Elt Ideal) → (⟨S128, .f32⟩ : BufTy).Contents (Elt Ideal) → (⟨S128, .f32⟩ : BufTy).Contents (Elt Ideal)) (((fun x v => Host.reduceAdd (F := Ideal) x v reducesTo_S50000x128_S128_d0 h_S_) : (⟨S50000x128, .f32⟩ : BufTy).Contents (Elt Ideal) → (⟨S_, .f32⟩ : BufTy).Contents (Elt Ideal) → (⟨S128, .f32⟩ : BufTy).Contents (Elt Ideal)) x (constant (F := Ideal) S_ .f32 0x00000000#32)) ((broadcastInDim S128 ![] bcast_S_S128 : (⟨S_, .f32⟩ : BufTy).Contents (Elt Ideal) → (⟨S128, .f32⟩ : BufTy).Contents (Elt Ideal)) (constant (F := Ideal) S_ .f32 0x47435000#32))))) ((broadcastInDim S128 ![] bcast_S_S128 : (⟨S_, .f32⟩ : BufTy).Contents (Elt Ideal) → (⟨S128, .f32⟩ : BufTy).Contents (Elt Ideal)) (constant (F := Ideal) S_ .f32 0x3727C5AC#32)))) w) shapeCasts_S128_S1x128)

/-- The per-feature shift: the bias minus the mean times the scale; as a [1, K] row. -/
def bnShiftRow (x : FVec Ideal S50000x128 .f32) (w : FVec Ideal S128 .f32) (b : FVec Ideal S128 .f32) : FVec Ideal S1x128 .f32 :=
  (shapeCast S1x128 ((subf (F := Ideal) : (⟨S128, .f32⟩ : BufTy).Contents (Elt Ideal) → (⟨S128, .f32⟩ : BufTy).Contents (Elt Ideal) → (⟨S128, .f32⟩ : BufTy).Contents (Elt Ideal)) b ((mulf (F := Ideal) : (⟨S128, .f32⟩ : BufTy).Contents (Elt Ideal) → (⟨S128, .f32⟩ : BufTy).Contents (Elt Ideal) → (⟨S128, .f32⟩ : BufTy).Contents (Elt Ideal)) ((Host.divf (F := Ideal) : (⟨S128, .f32⟩ : BufTy).Contents (Elt Ideal) → (⟨S128, .f32⟩ : BufTy).Contents (Elt Ideal) → (⟨S128, .f32⟩ : BufTy).Contents (Elt Ideal)) (((fun x v => Host.reduceAdd (F := Ideal) x v reducesTo_S50000x128_S128_d0 h_S_) : (⟨S50000x128, .f32⟩ : BufTy).Contents (Elt Ideal) → (⟨S_, .f32⟩ : BufTy).Contents (Elt Ideal) → (⟨S128, .f32⟩ : BufTy).Contents (Elt Ideal)) x (constant (F := Ideal) S_ .f32 0x00000000#32)) ((broadcastInDim S128 ![] bcast_S_S128 : (⟨S_, .f32⟩ : BufTy).Contents (Elt Ideal) → (⟨S128, .f32⟩ : BufTy).Contents (Elt Ideal)) (constant (F := Ideal) S_ .f32 0x47435000#32))) ((mulf (F := Ideal) : (⟨S128, .f32⟩ : BufTy).Contents (Elt Ideal) → (⟨S128, .f32⟩ : BufTy).Contents (Elt Ideal) → (⟨S128, .f32⟩ : BufTy).Contents (Elt Ideal)) ((Host.rsqrt (F := Ideal) : (⟨S128, .f32⟩ : BufTy).Contents (Elt Ideal) → (⟨S128, .f32⟩ : BufTy).Contents (Elt Ideal)) ((addf (F := Ideal) : (⟨S128, .f32⟩ : BufTy).Contents (Elt Ideal) → (⟨S128, .f32⟩ : BufTy).Contents (Elt Ideal) → (⟨S128, .f32⟩ : BufTy).Contents (Elt Ideal)) ((subf (F := Ideal) : (⟨S128, .f32⟩ : BufTy).Contents (Elt Ideal) → (⟨S128, .f32⟩ : BufTy).Contents (Elt Ideal) → (⟨S128, .f32⟩ : BufTy).Contents (Elt Ideal)) ((Host.divf (F := Ideal) : (⟨S128, .f32⟩ : BufTy).Contents (Elt Ideal) → (⟨S128, .f32⟩ : BufTy).Contents (Elt Ideal) → (⟨S128, .f32⟩ : BufTy).Contents (Elt Ideal)) (((fun x v => Host.reduceAdd (F := Ideal) x v reducesTo_S50000x128_S128_d0 h_S_) : (⟨S50000x128, .f32⟩ : BufTy).Contents (Elt Ideal) → (⟨S_, .f32⟩ : BufTy).Contents (Elt Ideal) → (⟨S128, .f32⟩ : BufTy).Contents (Elt Ideal)) ((mulf (F := Ideal) : (⟨S50000x128, .f32⟩ : BufTy).Contents (Elt Ideal) → (⟨S50000x128, .f32⟩ : BufTy).Contents (Elt Ideal) → (⟨S50000x128, .f32⟩ : BufTy).Contents (Elt Ideal)) x x) (constant (F := Ideal) S_ .f32 0x00000000#32)) ((broadcastInDim S128 ![] bcast_S_S128 : (⟨S_, .f32⟩ : BufTy).Contents (Elt Ideal) → (⟨S128, .f32⟩ : BufTy).Contents (Elt Ideal)) (constant (F := Ideal) S_ .f32 0x47435000#32))) ((mulf (F := Ideal) : (⟨S128, .f32⟩ : BufTy).Contents (Elt Ideal) → (⟨S128, .f32⟩ : BufTy).Contents (Elt Ideal) → (⟨S128, .f32⟩ : BufTy).Contents (Elt Ideal)) ((Host.divf (F := Ideal) : (⟨S128, .f32⟩ : BufTy).Contents (Elt Ideal) → (⟨S128, .f32⟩ : BufTy).Contents (Elt Ideal) → (⟨S128, .f32⟩ : BufTy).Contents (Elt Ideal)) (((fun x v => Host.reduceAdd (F := Ideal) x v reducesTo_S50000x128_S128_d0 h_S_) : (⟨S50000x128, .f32⟩ : BufTy).Contents (Elt Ideal) → (⟨S_, .f32⟩ : BufTy).Contents (Elt Ideal) → (⟨S128, .f32⟩ : BufTy).Contents (Elt Ideal)) x (constant (F := Ideal) S_ .f32 0x00000000#32)) ((broadcastInDim S128 ![] bcast_S_S128 : (⟨S_, .f32⟩ : BufTy).Contents (Elt Ideal) → (⟨S128, .f32⟩ : BufTy).Contents (Elt Ideal)) (constant (F := Ideal) S_ .f32 0x47435000#32))) ((Host.divf (F := Ideal) : (⟨S128, .f32⟩ : BufTy).Contents (Elt Ideal) → (⟨S128, .f32⟩ : BufTy).Contents (Elt Ideal) → (⟨S128, .f32⟩ : BufTy).Contents (Elt Ideal)) (((fun x v => Host.reduceAdd (F := Ideal) x v reducesTo_S50000x128_S128_d0 h_S_) : (⟨S50000x128, .f32⟩ : BufTy).Contents (Elt Ideal) → (⟨S_, .f32⟩ : BufTy).Contents (Elt Ideal) → (⟨S128, .f32⟩ : BufTy).Contents (Elt Ideal)) x (constant (F := Ideal) S_ .f32 0x00000000#32)) ((broadcastInDim S128 ![] bcast_S_S128 : (⟨S_, .f32⟩ : BufTy).Contents (Elt Ideal) → (⟨S128, .f32⟩ : BufTy).Contents (Elt Ideal)) (constant (F := Ideal) S_ .f32 0x47435000#32))))) ((broadcastInDim S128 ![] bcast_S_S128 : (⟨S_, .f32⟩ : BufTy).Contents (Elt Ideal) → (⟨S128, .f32⟩ : BufTy).Contents (Elt Ideal)) (constant (F := Ideal) S_ .f32 0x3727C5AC#32)))) w))) shapeCasts_S128_S1x128)

/-- The rows of y gathered by (wrapped) source and summed by destination, from zero. -/
def aggregate96 (y : FVec Ideal S50000x96 .f32) (s : IVec S850000 32) (d : IVec S850000 32) : FVec Ideal S50000x96 .f32 :=
  (((fun x i u => Host.scatterAdd (F := Ideal) scatter_S50000x96_S850000x1_S850000x96_1_0_0_1 x i u) : (⟨S50000x96, .f32⟩ : BufTy).Contents (Elt Ideal) → (⟨S850000x1, .i32⟩ : BufTy).Contents (Elt Ideal) → (⟨S850000x96, .f32⟩ : BufTy).Contents (Elt Ideal) → (⟨S50000x96, .f32⟩ : BufTy).Contents (Elt Ideal)) ((broadcastInDim S50000x96 ![] bcast_S_S50000x96 : (⟨S_, .f32⟩ : BufTy).Contents (Elt Ideal) → (⟨S50000x96, .f32⟩ : BufTy).Contents (Elt Ideal)) (constant (F := Ideal) S_ .f32 0x00000000#32)) ((broadcastInDim S850000x1 ![0] bcast_S850000_S850000x1_0 : (⟨S850000, .i32⟩ : BufTy).Contents (Elt Ideal) → (⟨S850000x1, .i32⟩ : BufTy).Contents (Elt Ideal)) d) (((fun x i => Host.gather gather_S50000x96_S850000x1_S850000x96_1_0_n_n_0_1_196 x i) : (⟨S50000x96, .f32⟩ : BufTy).Contents (Elt Ideal) → (⟨S850000x1, .i32⟩ : BufTy).Contents (Elt Ideal) → (⟨S850000x96, .f32⟩ : BufTy).Contents (Elt Ideal)) y ((broadcastInDim S850000x1 ![0] bcast_S850000_S850000x1_0 : (⟨S850000, .i32⟩ : BufTy).Contents (Elt Ideal) → (⟨S850000x1, .i32⟩ : BufTy).Contents (Elt Ideal)) ((select : (⟨S850000, .i1⟩ : BufTy).Contents (Elt Ideal) → (⟨S850000, .i32⟩ : BufTy).Contents (Elt Ideal) → (⟨S850000, .i32⟩ : BufTy).Contents (Elt Ideal) → (⟨S850000, .i32⟩ : BufTy).Contents (Elt Ideal)) ((cmpi .slt : (⟨S850000, .i32⟩ : BufTy).Contents (Elt Ideal) → (⟨S850000, .i32⟩ : BufTy).Contents (Elt Ideal) → (⟨S850000, .i1⟩ : BufTy).Contents (Elt Ideal)) s ((broadcastInDim S850000 ![] bcast_S_S850000 : (⟨S_, .i32⟩ : BufTy).Contents (Elt Ideal) → (⟨S850000, .i32⟩ : BufTy).Contents (Elt Ideal)) (constantI S_ 32 0#32))) ((addi : (⟨S850000, .i32⟩ : BufTy).Contents (Elt Ideal) → (⟨S850000, .i32⟩ : BufTy).Contents (Elt Ideal) → (⟨S850000, .i32⟩ : BufTy).Contents (Elt Ideal)) s ((broadcastInDim S850000 ![] bcast_S_S850000 : (⟨S_, .i32⟩ : BufTy).Contents (Elt Ideal) → (⟨S850000, .i32⟩ : BufTy).Contents (Elt Ideal)) (constantI S_ 32 50000#32))) s))))

/-- The bias as a [1, D] row. -/
def biasRow96 (b : FVec Ideal S96 .f32) : FVec Ideal S1x96 .f32 :=
  (shapeCast S1x96 b shapeCasts_S96_S1x96)

/-- The scale of the normalisation over all nodes and features at once: the reciprocal root of (second moment − squared mean + ε), times the weight; as a row. -/
def lnScaleRow (h : FVec Ideal S50000x96 .f32) (w : FVec Ideal S96 .f32) : FVec Ideal S1x96 .f32 :=
  (shapeCast S1x96 ((mulf (F := Ideal) : (⟨S96, .f32⟩ : BufTy).Contents (Elt Ideal) → (⟨S96, .f32⟩ : BufTy).Contents (Elt Ideal) → (⟨S96, .f32⟩ : BufTy).Contents (Elt Ideal)) ((broadcastInDim S96 ![] bcast_S_S96 : (⟨S_, .f32⟩ : BufTy).Contents (Elt Ideal) → (⟨S96, .f32⟩ : BufTy).Contents (Elt Ideal)) ((Host.rsqrt (F := Ideal) : (⟨S_, .f32⟩ : BufTy).Contents (Elt Ideal) → (⟨S_, .f32⟩ : BufTy).Contents (Elt Ideal)) ((addf (F := Ideal) : (⟨S_, .f32⟩ : BufTy).Contents (Elt Ideal) → (⟨S_, .f32⟩ : BufTy).Contents (Elt Ideal) → (⟨S_, .f32⟩ : BufTy).Contents (Elt Ideal)) ((subf (F := Ideal) : (⟨S_, .f32⟩ : BufTy).Contents (Elt Ideal) → (⟨S_, .f32⟩ : BufTy).Contents (Elt Ideal) → (⟨S_, .f32⟩ : BufTy).Contents (Elt Ideal)) ((Host.divf (F := Ideal) : (⟨S_, .f32⟩ : BufTy).Contents (Elt Ideal) → (⟨S_, .f32⟩ : BufTy).Contents (Elt Ideal) → (⟨S_, .f32⟩ : BufTy).Contents (Elt Ideal)) (((fun x v => Host.reduceAdd (F := Ideal) x v reducesTo_S50000x96_S_d0_1 h_S_) : (⟨S50000x96, .f32⟩ : BufTy).Contents (Elt Ideal) → (⟨S_, .f32⟩ : BufTy).Contents (Elt Ideal) → (⟨S_, .f32⟩ : BufTy).Contents (Elt Ideal)) ((mulf (F := Ideal) : (⟨S50000x96, .f32⟩ : BufTy).Contents (Elt Ideal) → (⟨S50000x96, .f32⟩ : BufTy).Contents (Elt Ideal) → (⟨S50000x96, .f32⟩ : BufTy).Contents (Elt Ideal)) h h) (constant (F := Ideal) S_ .f32 0x00000000#32)) (constant (F := Ideal) S_ .f32 0x4A927C00#32)) ((mulf (F := Ideal) : (⟨S_, .f32⟩ : BufTy).Contents (Elt Ideal) → (⟨S_, .f32⟩ : BufTy).Contents (Elt Ideal) → (⟨S_, .f32⟩ : BufTy).Contents (Elt Ideal)) ((Host.divf (F := Ideal) : (⟨S_, .f32⟩ : BufTy).Contents (Elt Ideal) → (⟨S_, .f32⟩ : BufTy).Contents (Elt Ideal) → (⟨S_, .f32⟩ : BufTy).Contents (Elt Ideal)) (((fun x v => Host.reduceAdd (F := Ideal) x v reducesTo_S50000x96_S_d0_1 h_S_) : (⟨S50000x96, .f32⟩ : BufTy).Contents (Elt Ideal) → (⟨S_, .f32⟩ : BufTy).Contents (Elt Ideal) → (⟨S_, .f32⟩ : BufTy).Contents (Elt Ideal)) h (constant (F := Ideal) S_ .f32 0x00000000#32)) (constant (F := Ideal) S_ .f32 0x4A927C00#32)) ((Host.divf (F := Ideal) : (⟨S_, .f32⟩ : BufTy).Contents (Elt Ideal) → (⟨S_, .f32⟩ : BufTy).Contents (Elt Ideal) → (⟨S_, .f32⟩ : BufTy).Contents (Elt Ideal)) (((fun x v => Host.reduceAdd (F := Ideal) x v reducesTo_S50000x96_S_d0_1 h_S_) : (⟨S50000x96, .f32⟩ : BufTy).Contents (Elt Ideal) → (⟨S_, .f32⟩ : BufTy).Contents (Elt Ideal) → (⟨S_, .f32⟩ : BufTy).Contents (Elt Ideal)) h (constant (F := Ideal) S_ .f32 0x00000000#32)) (constant (F := Ideal) S_ .f32 0x4A927C00#32)))) (constant (F := Ideal) S_ .f32 0x3727C5AC#32)))) w) shapeCasts_S96_S1x96)

/-- The shift of that normalisation: the bias minus the mean times the scale; as a row. -/
def lnShiftRow (h : FVec Ideal S50000x96 .f32) (w : FVec Ideal S96 .f32) (b : FVec Ideal S96 .f32) : FVec Ideal S1x96 .f32 :=
  (shapeCast S1x96 ((subf (F := Ideal) : (⟨S96, .f32⟩ : BufTy).Contents (Elt Ideal) → (⟨S96, .f32⟩ : BufTy).Contents (Elt Ideal) → (⟨S96, .f32⟩ : BufTy).Contents (Elt Ideal)) b ((mulf (F := Ideal) : (⟨S96, .f32⟩ : BufTy).Contents (Elt Ideal) → (⟨S96, .f32⟩ : BufTy).Contents (Elt Ideal) → (⟨S96, .f32⟩ : BufTy).Contents (Elt Ideal)) ((broadcastInDim S96 ![] bcast_S_S96 : (⟨S_, .f32⟩ : BufTy).Contents (Elt Ideal) → (⟨S96, .f32⟩ : BufTy).Contents (Elt Ideal)) ((Host.divf (F := Ideal) : (⟨S_, .f32⟩ : BufTy).Contents (Elt Ideal) → (⟨S_, .f32⟩ : BufTy).Contents (Elt Ideal) → (⟨S_, .f32⟩ : BufTy).Contents (Elt Ideal)) (((fun x v => Host.reduceAdd (F := Ideal) x v reducesTo_S50000x96_S_d0_1 h_S_) : (⟨S50000x96, .f32⟩ : BufTy).Contents (Elt Ideal) → (⟨S_, .f32⟩ : BufTy).Contents (Elt Ideal) → (⟨S_, .f32⟩ : BufTy).Contents (Elt Ideal)) h (constant (F := Ideal) S_ .f32 0x00000000#32)) (constant (F := Ideal) S_ .f32 0x4A927C00#32))) ((mulf (F := Ideal) : (⟨S96, .f32⟩ : BufTy).Contents (Elt Ideal) → (⟨S96, .f32⟩ : BufTy).Contents (Elt Ideal) → (⟨S96, .f32⟩ : BufTy).Contents (Elt Ideal)) ((broadcastInDim S96 ![] bcast_S_S96 : (⟨S_, .f32⟩ : BufTy).Contents (Elt Ideal) → (⟨S96, .f32⟩ : BufTy).Contents (Elt Ideal)) ((Host.rsqrt (F := Ideal) : (⟨S_, .f32⟩ : BufTy).Contents (Elt Ideal) → (⟨S_, .f32⟩ : BufTy).Contents (Elt Ideal)) ((addf (F := Ideal) : (⟨S_, .f32⟩ : BufTy).Contents (Elt Ideal) → (⟨S_, .f32⟩ : BufTy).Contents (Elt Ideal) → (⟨S_, .f32⟩ : BufTy).Contents (Elt Ideal)) ((subf (F := Ideal) : (⟨S_, .f32⟩ : BufTy).Contents (Elt Ideal) → (⟨S_, .f32⟩ : BufTy).Contents (Elt Ideal) → (⟨S_, .f32⟩ : BufTy).Contents (Elt Ideal)) ((Host.divf (F := Ideal) : (⟨S_, .f32⟩ : BufTy).Contents (Elt Ideal) → (⟨S_, .f32⟩ : BufTy).Contents (Elt Ideal) → (⟨S_, .f32⟩ : BufTy).Contents (Elt Ideal)) (((fun x v => Host.reduceAdd (F := Ideal) x v reducesTo_S50000x96_S_d0_1 h_S_) : (⟨S50000x96, .f32⟩ : BufTy).Contents (Elt Ideal) → (⟨S_, .f32⟩ : BufTy).Contents (Elt Ideal) → (⟨S_, .f32⟩ : BufTy).Contents (Elt Ideal)) ((mulf (F := Ideal) : (⟨S50000x96, .f32⟩ : BufTy).Contents (Elt Ideal) → (⟨S50000x96, .f32⟩ : BufTy).Contents (Elt Ideal) → (⟨S50000x96, .f32⟩ : BufTy).Contents (Elt Ideal)) h h) (constant (F := Ideal) S_ .f32 0x00000000#32)) (constant (F := Ideal) S_ .f32 0x4A927C00#32)) ((mulf (F := Ideal) : (⟨S_, .f32⟩ : BufTy).Contents (Elt Ideal) → (⟨S_, .f32⟩ : BufTy).Contents (Elt Ideal) → (⟨S_, .f32⟩ : BufTy).Contents (Elt Ideal)) ((Host.divf (F := Ideal) : (⟨S_, .f32⟩ : BufTy).Contents (Elt Ideal) → (⟨S_, .f32⟩ : BufTy).Contents (Elt Ideal) → (⟨S_, .f32⟩ : BufTy).Contents (Elt Ideal)) (((fun x v => Host.reduceAdd (F := Ideal) x v reducesTo_S50000x96_S_d0_1 h_S_) : (⟨S50000x96, .f32⟩ : BufTy).Contents (Elt Ideal) → (⟨S_, .f32⟩ : BufTy).Contents (Elt Ideal) → (⟨S_, .f32⟩ : BufTy).Contents (Elt Ideal)) h (constant (F := Ideal) S_ .f32 0x00000000#32)) (constant (F := Ideal) S_ .f32 0x4A927C00#32)) ((Host.divf (F := Ideal) : (⟨S_, .f32⟩ : BufTy).Contents (Elt Ideal) → (⟨S_, .f32⟩ : BufTy).Contents (Elt Ideal) → (⟨S_, .f32⟩ : BufTy).Contents (Elt Ideal)) (((fun x v => Host.reduceAdd (F := Ideal) x v reducesTo_S50000x96_S_d0_1 h_S_) : (⟨S50000x96, .f32⟩ : BufTy).Contents (Elt Ideal) → (⟨S_, .f32⟩ : BufTy).Contents (Elt Ideal) → (⟨S_, .f32⟩ : BufTy).Contents (Elt Ideal)) h (constant (F := Ideal) S_ .f32 0x00000000#32)) (constant (F := Ideal) S_ .f32 0x4A927C00#32)))) (constant (F := Ideal) S_ .f32 0x3727C5AC#32)))) w))) shapeCasts_S96_S1x96)

/-- The rows of y gathered by (wrapped) source and summed by destination, from zero. -/
def aggregate64 (y : FVec Ideal S50000x64 .f32) (s : IVec S850000 32) (d : IVec S850000 32) : FVec Ideal S50000x64 .f32 :=
  (((fun x i u => Host.scatterAdd (F := Ideal) scatter_S50000x64_S850000x1_S850000x64_1_0_0_1 x i u) : (⟨S50000x64, .f32⟩ : BufTy).Contents (Elt Ideal) → (⟨S850000x1, .i32⟩ : BufTy).Contents (Elt Ideal) → (⟨S850000x64, .f32⟩ : BufTy).Contents (Elt Ideal) → (⟨S50000x64, .f32⟩ : BufTy).Contents (Elt Ideal)) ((broadcastInDim S50000x64 ![] bcast_S_S50000x64 : (⟨S_, .f32⟩ : BufTy).Contents (Elt Ideal) → (⟨S50000x64, .f32⟩ : BufTy).Contents (Elt Ideal)) (constant (F := Ideal) S_ .f32 0x00000000#32)) ((broadcastInDim S850000x1 ![0] bcast_S850000_S850000x1_0 : (⟨S850000, .i32⟩ : BufTy).Contents (Elt Ideal) → (⟨S850000x1, .i32⟩ : BufTy).Contents (Elt Ideal)) d) (((fun x i => Host.gather gather_S50000x64_S850000x1_S850000x64_1_0_n_n_0_1_164 x i) : (⟨S50000x64, .f32⟩ : BufTy).Contents (Elt Ideal) → (⟨S850000x1, .i32⟩ : BufTy).Contents (Elt Ideal) → (⟨S850000x64, .f32⟩ : BufTy).Contents (Elt Ideal)) y ((broadcastInDim S850000x1 ![0] bcast_S850000_S850000x1_0 : (⟨S850000, .i32⟩ : BufTy).Contents (Elt Ideal) → (⟨S850000x1, .i32⟩ : BufTy).Contents (Elt Ideal)) ((select : (⟨S850000, .i1⟩ : BufTy).Contents (Elt Ideal) → (⟨S850000, .i32⟩ : BufTy).Contents (Elt Ideal) → (⟨S850000, .i32⟩ : BufTy).Contents (Elt Ideal) → (⟨S850000, .i32⟩ : BufTy).Contents (Elt Ideal)) ((cmpi .slt : (⟨S850000, .i32⟩ : BufTy).Contents (Elt Ideal) → (⟨S850000, .i32⟩ : BufTy).Contents (Elt Ideal) → (⟨S850000, .i1⟩ : BufTy).Contents (Elt Ideal)) s ((broadcastInDim S850000 ![] bcast_S_S850000 : (⟨S_, .i32⟩ : BufTy).Contents (Elt Ideal) → (⟨S850000, .i32⟩ : BufTy).Contents (Elt Ideal)) (constantI S_ 32 0#32))) ((addi : (⟨S850000, .i32⟩ : BufTy).Contents (Elt Ideal) → (⟨S850000, .i32⟩ : BufTy).Contents (Elt Ideal) → (⟨S850000, .i32⟩ : BufTy).Contents (Elt Ideal)) s ((broadcastInDim S850000 ![] bcast_S_S850000 : (⟨S_, .i32⟩ : BufTy).Contents (Elt Ideal) → (⟨S850000, .i32⟩ : BufTy).Contents (Elt Ideal)) (constantI S_ 32 50000#32))) s))))

/-- The bias as a [1, D] row. -/
def biasRow64 (b : FVec Ideal S64 .f32) : FVec Ideal S1x64 .f32 :=
  (shapeCast S1x64 b shapeCasts_S64_S1x64)

/-! ## What each stretch leaves, from any contents -/

set_option maxHeartbeats 4000000 in
theorem hostOps0_v3 (V : Valuation τ sig (Elt Ideal)) :
    StableHlo.after (hostOps0 (F := Ideal)) V (Proc.devRef .tc main_v3) = srcOf (V (Proc.devRef .tc main_arg1)) := by
  unfold srcOf; after_results; all_goals rfl

set_option maxHeartbeats 4000000 in
theorem hostOps0_v6 (V : Valuation τ sig (Elt Ideal)) :
    StableHlo.after (hostOps0 (F := Ideal)) V (Proc.devRef .tc main_v6) = dstOf (V (Proc.devRef .tc main_arg1)) := by
  unfold dstOf; after_results; all_goals rfl

set_option maxHeartbeats 4000000 in
theorem hostOps0_v12 (V : Valuation τ sig (Elt Ideal)) :
    StableHlo.after (hostOps0 (F := Ideal)) V (Proc.devRef .tc main_v12) = posOf (degOf (dstOf (V (Proc.devRef .tc main_arg1)))) := by
  unfold posOf degOf dstOf; after_results; all_goals rfl

set_option maxHeartbeats 4000000 in
theorem hostOps0_v13 (V : Valuation τ sig (Elt Ideal)) :
    StableHlo.after (hostOps0 (F := Ideal)) V (Proc.devRef .tc main_v13) = rsqrtOf (degOf (dstOf (V (Proc.devRef .tc main_arg1)))) := by
  unfold rsqrtOf degOf dstOf; after_results; all_goals rfl

set_option maxHeartbeats 4000000 in
theorem hostOps0_cst_2 (V : Valuation τ sig (Elt Ideal)) :
    StableHlo.after (hostOps0 (F := Ideal)) V (Proc.devRef .tc main_cst_2) = zeroScalar := by
  unfold zeroScalar; after_results; all_goals rfl

set_option maxHeartbeats 4000000 in
theorem hostOps0_1_v14 (V : Valuation τ sig (Elt Ideal)) :
    StableHlo.after (hostOps0_1 (F := Ideal)) V (Proc.devRef .tc main_v14) = whereOf (V (Proc.devRef .tc main_v12)) (V (Proc.devRef .tc main_v13)) (V (Proc.devRef .tc main_cst_2)) := by
  unfold whereOf; after_results_simp <;> rfl

set_option maxHeartbeats 4000000 in
theorem hostOps0_2_v15 (V : Valuation τ sig (Elt Ideal)) :
    StableHlo.after (hostOps0_2 (F := Ideal)) V (Proc.devRef .tc main_v15) = colOf (V (Proc.devRef .tc main_v14)) := by
  unfold colOf; after_results_simp <;> rfl

set_option maxHeartbeats 4000000 in
theorem hostOps0_2_v31 (V : Valuation τ sig (Elt Ideal)) :
    StableHlo.after (hostOps0_2 (F := Ideal)) V (Proc.devRef .tc main_v31) = bnScaleRow (V (Proc.devRef .tc main_arg0)) (V (Proc.devRef .tc main_arg2)) := by
  unfold bnScaleRow; after_results_simp <;> rfl

set_option maxHeartbeats 4000000 in
theorem hostOps0_2_v32 (V : Valuation τ sig (Elt Ideal)) :
    StableHlo.after (hostOps0_2 (F := Ideal)) V (Proc.devRef .tc main_v32) = bnShiftRow (V (Proc.devRef .tc main_arg0)) (V (Proc.devRef .tc main_arg2)) (V (Proc.devRef .tc main_arg3)) := by
  unfold bnShiftRow; after_results_simp <;> rfl

set_option maxHeartbeats 4000000 in
theorem hostOps1_v43 (V : Valuation τ sig (Elt Ideal)) :
    StableHlo.after (hostOps1 (F := Ideal)) V (Proc.devRef .tc main_v43) = aggregate96 (V (Proc.devRef .tc main_v33)) (V (Proc.devRef .tc main_v3)) (V (Proc.devRef .tc main_v6)) := by
  unfold aggregate96; after_results_simp <;> rfl

set_option maxHeartbeats 4000000 in
theorem hostOps1_v44 (V : Valuation τ sig (Elt Ideal)) :
    StableHlo.after (hostOps1 (F := Ideal)) V (Proc.devRef .tc main_v44) = biasRow96 (V (Proc.devRef .tc main_arg5)) := by
  unfold biasRow96; after_results_simp <;> rfl

set_option maxHeartbeats 4000000 in
theorem hostOps2_v60 (V : Valuation τ sig (Elt Ideal)) :
    StableHlo.after (hostOps2 (F := Ideal)) V (Proc.devRef .tc main_v60) = lnScaleRow (V (Proc.devRef .tc main_v45)) (V (Proc.devRef .tc main_arg6)) := by
  unfold lnScaleRow; after_results_simp <;> rfl

set_option maxHeartbeats 4000000 in
theorem hostOps2_v61 (V : Valuation τ sig (Elt Ideal)) :
    StableHlo.after (hostOps2 (F := Ideal)) V (Proc.devRef .tc main_v61) = lnShiftRow (V (Proc.devRef .tc main_v45)) (V (Proc.devRef .tc main_arg6)) (V (Proc.devRef .tc main_arg7)) := by
  unfold lnShiftRow; after_results_simp <;> rfl

set_option maxHeartbeats 4000000 in
theorem hostOps3_v72 (V : Valuation τ sig (Elt Ideal)) :
    StableHlo.after (hostOps3 (F := Ideal)) V (Proc.devRef .tc main_v72) = aggregate64 (V (Proc.devRef .tc main_v62)) (V (Proc.devRef .tc main_v3)) (V (Proc.devRef .tc main_v6)) := by
  unfold aggregate64; after_results_simp <;> rfl

set_option maxHeartbeats 4000000 in
theorem hostOps3_v73 (V : Valuation τ sig (Elt Ideal)) :
    StableHlo.after (hostOps3 (F := Ideal)) V (Proc.devRef .tc main_v73) = biasRow64 (V (Proc.devRef .tc main_arg9)) := by
  unfold biasRow64; after_results_simp <;> rfl

end Cert.KernelIdeal.HostValue

end
-- ==== Proof.NodeStages.lean ====
/-
  The two dense per-node stages of a normalised graph layer, as functions of whole arrays over any extents:
  N nodes, K input features, D output features.

  * the scaled projection: every row of x is scaled and shifted feature by feature (a row of scales a, a row of
    shifts b), projected by the matrix W, and the projected row of node i is multiplied by the node's factor s[i]:
        y[i, j] = (Σ_k (x[i, k] · a[k] + b[k]) · W[k, j]) · s[i];
  * the scaled, biased clip: row i of an aggregate is multiplied by the node's factor, the bias row is added, and
    negative entries are replaced by zero:
        h[i, j] = max (x[i, j] · s[i] + b[j]) 0.
  The node factors come as an [N, 1] column and the feature rows as [1, K] or [1, D] rows.
-/
import Idealize.ShloMosaic.PureOps.Ideal
import Idealize.ShloMosaic.Lib.ValueIdx

noncomputable section

namespace NodeStages

open Idealize.ShloMosaic Idealize.ShloMosaic.ValueIdx

/-- Rows scaled and shifted feature by feature, projected by W, each projected row times its node's factor. -/
def scaledProjection {N K D : ℕ} (x : FVec Ideal ⟨2, ![N, K]⟩ .f32) (a b : FVec Ideal ⟨2, ![1, K]⟩ .f32)
    (W : FVec Ideal ⟨2, ![K, D]⟩ .f32) (s : FVec Ideal ⟨2, ![N, 1]⟩ .f32) : FVec Ideal ⟨2, ![N, D]⟩ .f32 :=
  fun i => (∑ k : Fin K, (x (ix2 (i 0) k) * a (ix2 (0 : Fin 1) k) + b (ix2 (0 : Fin 1) k)) * W (ix2 k (i 1)))
    * s (ix2 (i 0) (0 : Fin 1))

/-- The scaled projection at the entry (p, q). -/
theorem scaledProjection_apply {N K D : ℕ} (x : FVec Ideal ⟨2, ![N, K]⟩ .f32) (a b : FVec Ideal ⟨2, ![1, K]⟩ .f32)
    (W : FVec Ideal ⟨2, ![K, D]⟩ .f32) (s : FVec Ideal ⟨2, ![N, 1]⟩ .f32) (p : Fin N) (q : Fin D) :
    scaledProjection x a b W s (ix2 p q)
      = (∑ k : Fin K, (x (ix2 p k) * a (ix2 (0 : Fin 1) k) + b (ix2 (0 : Fin 1) k)) * W (ix2 k q))
        * s (ix2 p (0 : Fin 1)) := rfl

/-- Each row of the aggregate times its node's factor, plus the bias row, negatives replaced by zero. -/
def scaledBiasClip {N D : ℕ} (x : FVec Ideal ⟨2, ![N, D]⟩ .f32) (s : FVec Ideal ⟨2, ![N, 1]⟩ .f32)
    (b : FVec Ideal ⟨2, ![1, D]⟩ .f32) : FVec Ideal ⟨2, ![N, D]⟩ .f32 :=
  fun i => max (x (ix2 (i 0) (i 1)) * s (ix2 (i 0) (0 : Fin 1)) + b (ix2 (0 : Fin 1) (i 1))) 0

/-- The scaled, biased clip at the entry (p, q). -/
theorem scaledBiasClip_apply {N D : ℕ} (x : FVec Ideal ⟨2, ![N, D]⟩ .f32) (s : FVec Ideal ⟨2, ![N, 1]⟩ .f32)
    (b : FVec Ideal ⟨2, ![1, D]⟩ .f32) (p : Fin N) (q : Fin D) :
    scaledBiasClip x s b (ix2 p q) = max (x (ix2 p q) * s (ix2 p (0 : Fin 1)) + b (ix2 (0 : Fin 1) q)) 0 := rfl

end NodeStages

end
-- ==== Proof.ProjRegion0.lean ====
/-
  The first projection stage as one function of whole arrays.

  The stage runs over ten blocks of 5000 rows. At each block it scales and shifts every row of the [50000, 128] input
  feature by feature (a [1, 128] row of scales, a [1, 128] row of shifts), multiplies by the [128, 96] matrix, and
  multiplies each projected row by its node's factor (a [50000, 1] column). Here: the value stored at an entry of a
  block as a sum over the 128 features (`proj96_payload`), the block a grid point writes as the same block of the
  whole-array projection `NodeStages.scaledProjection` (`proj96_flushed`), the ten blocks cover the 50000 rows
  (`proj96_cover`), hence the array after the stage is the whole-array projection of the arrays it found
  (`proj96_array`).
-/
import proofs.«180567_j38208029065461_2_alg».proof.Proof.Gen.KernelIdeal.Frame
import proofs.«180567_j38208029065461_2_alg».proof.Proof.NodeStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- A column broadcast along the rows: at (p, c) it reads the column at (p, 0). -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The zero offsets of a whole-buffer access, as the constant function. -/
private theorem zeroOffsets : (![0, 0] : Fin 2 → Nat) = fun _ => 0 := funext fun a => by fin_cases a <;> rfl

variable (V : (c : Dev nD) → (b : Ref sig .tc) → Buf (Elt Ideal) ((c : Thread nD τ).loc b))

/-! ## The first projection region: 128 features to 96 -/

/-- The left operand's index of the contraction: the output's row on axis 0 … -/
private theorem proj96_lhs0 (j : S5000x96.Idx) (k : dot_S5000x128_S128x96_S5000x96_1_0_0_1_n_n.contr.Idx) :
    (dot_S5000x128_S128x96_S5000x96_1_0_0_1_n_n.lhsIdx j k 0).val = (j 0).val := by
  unfold DotDims.lhsIdx
  rw [dif_neg (show ¬(0 : Fin S5000x128.rank) ∈ dot_S5000x128_S128x96_S5000x96_1_0_0_1_n_n.lhsBatch by decide),
    dif_pos (show (0 : Fin S5000x128.rank) ∈ dot_S5000x128_S128x96_S5000x96_1_0_0_1_n_n.lhsNonContracting by decide)]
  rfl
/-- … and the contraction position on axis 1. -/
private theorem proj96_lhs1 (j : S5000x96.Idx) (k : dot_S5000x128_S128x96_S5000x96_1_0_0_1_n_n.contr.Idx) :
    (dot_S5000x128_S128x96_S5000x96_1_0_0_1_n_n.lhsIdx j k 1).val = (k ⟨0, by decide⟩).val :=
  dot_S5000x128_S128x96_S5000x96_1_0_0_1_n_n.lhsIdx_val_of_single rfl j k
/-- The right operand's index: the contraction position on axis 0 … -/
private theorem proj96_rhs0 (j : S5000x96.Idx) (k : dot_S5000x128_S128x96_S5000x96_1_0_0_1_n_n.contr.Idx) :
    (dot_S5000x128_S128x96_S5000x96_1_0_0_1_n_n.rhsIdx j k 0).val = (k ⟨0, by decide⟩).val :=
  dot_S5000x128_S128x96_S5000x96_1_0_0_1_n_n.rhsIdx_val_of_single rfl j k
/-- … and the output's column on axis 1. -/
private theorem proj96_rhs1 (j : S5000x96.Idx) (k : dot_S5000x128_S128x96_S5000x96_1_0_0_1_n_n.contr.Idx) :
    (dot_S5000x128_S128x96_S5000x96_1_0_0_1_n_n.rhsIdx j k 1).val = (j 1).val := by
  unfold DotDims.rhsIdx
  rw [dif_neg (show ¬(1 : Fin S128x96.rank) ∈ dot_S5000x128_S128x96_S5000x96_1_0_0_1_n_n.rhsBatch by decide),
    dif_pos (show (1 : Fin S128x96.rank) ∈ dot_S5000x128_S128x96_S5000x96_1_0_0_1_n_n.rhsNonContracting by decide)]
  rfl

/-- The body's stored value at (p, q): row p scaled and shifted feature by feature, contracted with column q of the
    matrix, times the node's factor. -/
theorem proj96_payload (x0 : Vec Ideal S5000x128 .f32) (x1 x2 : Vec Ideal S1x128 .f32) (x3 : Vec Ideal S128x96 .f32)
    (x4 : Vec Ideal S5000x1 .f32) (p : Fin 5000) (q : Fin 96) :
    Gen.k0_pay1 x0 x1 x2 x3 x4 (ix2 p q)
      = (∑ k : Fin 128, (x0 (ix2 p k) * x1 (ix2 (0 : Fin 1) k) + x2 (ix2 (0 : Fin 1) k)) * x3 (ix2 k q))
        * x4 (ix2 p (0 : Fin 1)) := by
  unfold Gen.k0_pay1
  rw [mulf_apply, shapeCast_self, shapeCast_self, shapeCast_self, broadcastTo_a1_ab_apply]
  refine congrArg (· * x4 (ix2 p (0 : Fin 1))) ?_
  refine (Ideal.matmul_constant_zero_apply dot_S5000x128_S128x96_S5000x96_1_0_0_1_n_n none _ _ (ix2 p q)).trans ?_
  rw [← Equiv.sum_comp (contrEquiv1 dot_S5000x128_S128x96_S5000x96_1_0_0_1_n_n 128 rfl rfl).symm]
  refine Finset.sum_congr rfl fun k _ => ?_
  have hk := contrEquiv1_symm_val dot_S5000x128_S128x96_S5000x96_1_0_0_1_n_n 128 rfl rfl k
  have el : dot_S5000x128_S128x96_S5000x96_1_0_0_1_n_n.lhsIdx (ix2 p q)
      ((contrEquiv1 dot_S5000x128_S128x96_S5000x96_1_0_0_1_n_n 128 rfl rfl).symm k) = ix2 p k :=
    funext fun a => Fin.ext (by
      match a with
      | ⟨0, _⟩ => exact proj96_lhs0 _ _
      | ⟨1, _⟩ => exact (proj96_lhs1 _ _).trans hk)
  have er : dot_S5000x128_S128x96_S5000x96_1_0_0_1_n_n.rhsIdx (ix2 p q)
      ((contrEquiv1 dot_S5000x128_S128x96_S5000x96_1_0_0_1_n_n 128 rfl rfl).symm k) = ix2 k q :=
    funext fun a => Fin.ext (by
      match a with
      | ⟨0, _⟩ => exact (proj96_rhs0 _ _).trans hk
      | ⟨1, _⟩ => exact proj96_rhs1 _ _)
  rw [el, er, truncf_apply, truncf_apply, addf_apply, mulf_apply, broadcastTo_1b_ab_apply, broadcastTo_1b_ab_apply]

/-- The stored value at (p, q) is the whole-array projection at the array index `i`, once the five blocks read the
    arrays at `i`'s row and column. -/
theorem proj96_block (A0 : FVec Ideal S50000x128 .f32) (A1 A2 : FVec Ideal S1x128 .f32) (A3 : FVec Ideal S128x96 .f32)
    (A4 : FVec Ideal S50000x1 .f32)
    (x0 : Vec Ideal S5000x128 .f32) (x1 x2 : Vec Ideal S1x128 .f32) (x3 : Vec Ideal S128x96 .f32)
    (x4 : Vec Ideal S5000x1 .f32) (p : Fin 5000) (q : Fin 96) (i : S50000x96.Idx)
    (h0 : ∀ k : Fin 128, x0 (ix2 p k) = A0 (ix2 (i 0) k))
    (h1 : ∀ k : Fin 128, x1 (ix2 (0 : Fin 1) k) = A1 (ix2 (0 : Fin 1) k))
    (h2 : ∀ k : Fin 128, x2 (ix2 (0 : Fin 1) k) = A2 (ix2 (0 : Fin 1) k))
    (h3 : ∀ k : Fin 128, x3 (ix2 k q) = A3 (ix2 k (i 1)))
    (h4 : x4 (ix2 p (0 : Fin 1)) = A4 (ix2 (i 0) (0 : Fin 1))) :
    Gen.k0_pay1 x0 x1 x2 x3 x4 (ix2 p q) = NodeStages.scaledProjection A0 A1 A2 A3 A4 i := by
  rw [proj96_payload, h4]
  show _ = (∑ k : Fin 128, (A0 (ix2 (i 0) k) * A1 (ix2 (0 : Fin 1) k) + A2 (ix2 (0 : Fin 1) k)) * A3 (ix2 k (i 1)))
    * A4 (ix2 (i 0) (0 : Fin 1))
  refine congrArg (· * A4 (ix2 (i 0) (0 : Fin 1))) (Finset.sum_congr rfl fun k _ => ?_)
  rw [h0, h1, h2, h3]

/-- The index maps over the grid: the rows, the factor column and the result move one block of rows per point; the
    scale row, the shift row and the matrix stay. -/
theorem proj96_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the whole-array projection of the arrays the region finds. -/
theorem proj96_flushed (c : Dev nD) (t : Fin cfg0.N) :
    (dat0 (F := Ideal) V c).flushed 5 t = ((cfg0.win 5).blk t).view.read (Elt Ideal)
      (NodeStages.scaledProjection (N := 50000) (K := 128) (D := 96) (V c main_arg0) (V c main_v31) (V c main_v32)
        (V c main_arg4) (V c main_v15)) := by
  show (cfg0.win 5).cut (grid0.coords t) ((dat0 V c).after 5 t) = _
  rw [after0_5]
  unfold out0_5
  rw [View.canon_unit_zero zeroOffsets]
  simp only [View.ld_unit_zero (S := S5000x128) zeroOffsets, View.ld_unit_zero (S := S1x128) zeroOffsets,
    View.ld_unit_zero (S := S128x96) zeroOffsets, View.ld_unit_zero (S := S5000x1) zeroOffsets]
  obtain ⟨e00, e01, e10, e11, e20, e21, e30, e31, e40, e41, e50, e51⟩ := proj96_index t
  funext j
  obtain ⟨p, q, rfl⟩ : ∃ (p : Fin 5000) (q : Fin 96), j = ix2 p q := ⟨j 0, j 1, eq_ix2 j⟩
  refine proj96_block (V c main_arg0) (V c main_v31) (V c main_v32) (V c main_arg4) (V c main_v15)
    (iblk0 V c 0 t) (iblk0 V c 1 t) (iblk0 V c 2 t) (iblk0 V c 3 t) (iblk0 V c 4 t) p q
    (((cfg0.win 5).blk t).view.emb (ix2 p q)) (fun k => ?_) (fun k => ?_) (fun k => ?_) (fun k => ?_) ?_
  · show V c main_arg0 (((cfg0.win 0).blk t).view.emb (ix2 p k)) = V c main_arg0 _
    congr 1; funext a; apply Fin.ext
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  · show V c main_v31 (((cfg0.win 1).blk t).view.emb (ix2 (0 : Fin 1) k)) = V c main_v31 _
    congr 1; funext a; apply Fin.ext
    match a with
    | ⟨0, _⟩ => show win0_1.index t (0 : Fin 2) * 1 + 1 * 0 = 0; omega
    | ⟨1, _⟩ => show win0_1.index t (1 : Fin 2) * 128 + 1 * k.val = k.val; omega
  · show V c main_v32 (((cfg0.win 2).blk t).view.emb (ix2 (0 : Fin 1) k)) = V c main_v32 _
    congr 1; funext a; apply Fin.ext
    match a with
    | ⟨0, _⟩ => show win0_2.index t (0 : Fin 2) * 1 + 1 * 0 = 0; omega
    | ⟨1, _⟩ => show win0_2.index t (1 : Fin 2) * 128 + 1 * k.val = k.val; omega
  · show V c main_arg4 (((cfg0.win 3).blk t).view.emb (ix2 k q)) = V c main_arg4 _
    congr 1; funext a; apply Fin.ext
    match a with
    | ⟨0, _⟩ => show win0_3.index t (0 : Fin 2) * 128 + 1 * k.val = k.val; omega
    | ⟨1, _⟩ => show win0_3.index t (1 : Fin 2) * 96 + 1 * q.val = win0_5.index t (1 : Fin 2) * 96 + 1 * q.val; omega
  · show V c main_v15 (((cfg0.win 4).blk t).view.emb (ix2 p (0 : Fin 1))) = V c main_v15 _
    congr 1; funext a; apply Fin.ext
    match a with
    | ⟨0, _⟩ => show win0_4.index t (0 : Fin 2) * 5000 + 1 * p.val = win0_5.index t (0 : Fin 2) * 5000 + 1 * p.val; omega
    | ⟨1, _⟩ => show win0_4.index t (1 : Fin 2) * 1 + 1 * 0 = 0; omega

/-- An index of the result array is in point `t`'s block iff each coordinate is in the block's range on its axis. -/
theorem proj96_mem_blk (t : Fin cfg0.N) (i : S50000x96.Idx) :
    i ∈ ((cfg0.win 5).blk t).view.set ↔ ∀ a : Fin 2, win0_5.index t a * S5000x96.size a ≤ (i a).val
      ∧ (i a).val < win0_5.index t a * S5000x96.size a + S5000x96.size a := by
  show i ∈ ((View.whole main_v33).slice (win0_5.rect t)).set ↔ _
  rw [View.set_slice_whole, Rect.mem_set_unit]
  exact Iff.rfl

/-- Row `r` of the result is in the block of point `r / 5000`. -/
theorem proj96_cover (i : S50000x96.Idx) :
    ∃ t : Fin cfg0.N, (cfg0.win 5).flush t = true ∧ i ∈ ((cfg0.win 5).blk t).view.set := by
  have hN : cfg0.N = 10 := N_0
  have hi0 : (i 0).val < 50000 := (i 0).isLt
  have hi1 : (i 1).val < 96 := (i 1).isLt
  refine ⟨⟨(i 0).val / 5000, by rw [hN]; omega⟩, flush0_5 _, ?_⟩
  obtain ⟨-, -, -, -, -, -, -, -, -, -, e50, e51⟩ := proj96_index ⟨(i 0).val / 5000, by rw [hN]; omega⟩
  rw [proj96_mem_blk]
  intro a
  match a with
  | ⟨0, _⟩ =>
    show win0_5.index _ (0 : Fin 2) * 5000 ≤ (i 0).val ∧ (i 0).val < win0_5.index _ (0 : Fin 2) * 5000 + 5000
    rw [e50]; show (i 0).val / 5000 * 5000 ≤ (i 0).val ∧ (i 0).val < (i 0).val / 5000 * 5000 + 5000; omega
  | ⟨1, _⟩ =>
    show win0_5.index _ (1 : Fin 2) * 96 ≤ (i 1).val ∧ (i 1).val < win0_5.index _ (1 : Fin 2) * 96 + 96
    rw [e51]; omega

/-- The result array after the region: the whole-array projection of the rows, the scale and shift rows, the matrix
    and the node factors. -/
theorem proj96_array (c : Dev nD) :
    (dat0 (F := Ideal) V c).arrAt 5 cfg0.N
      = NodeStages.scaledProjection (N := 50000) (K := 128) (D := 96) (V c main_arg0) (V c main_v31) (V c main_v32)
          (V c main_arg4) (V c main_v15) :=
  (dat0 (F := Ideal) V c).arrAt_eq_of_cover 5 _ (fun t _ => proj96_flushed V c t) proj96_cover

end Cert.KernelIdeal.RegionValue

end
-- ==== Proof.ClipRegion1.lean ====
/-
  The first bias-and-clip stage as one function of whole arrays.

  The stage runs over ten blocks of 5000 rows. At each block it multiplies every row of the [50000, 96] aggregate by
  its node's factor (a [50000, 1] column), adds the [1, 96] bias row, and replaces negative entries by zero. Here:
  the value stored at an entry of a block (`clip96_payload`), the block a grid point writes as the same block of the
  whole-array clip `NodeStages.scaledBiasClip` (`clip96_flushed`), the ten blocks cover the 50000 rows
  (`clip96_cover`), hence the array after the stage is the whole-array clip of the arrays it found (`clip96_array`).
-/
import proofs.«180567_j38208029065461_2_alg».proof.Proof.Gen.KernelIdeal.Frame
import proofs.«180567_j38208029065461_2_alg».proof.Proof.NodeStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- A column broadcast along the rows: at (p, c) it reads the column at (p, 0). -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The zero offsets of a whole-buffer access, as the constant function. -/
private theorem zeroOffsets : (![0, 0] : Fin 2 → Nat) = fun _ => 0 := funext fun a => by fin_cases a <;> rfl

variable (V : (c : Dev nD) → (b : Ref sig .tc) → Buf (Elt Ideal) ((c : Thread nD τ).loc b))

/-! ## The first clip region: rows of 96 features -/

/-- The body's stored value at (p, q): the row entry times the node's factor, plus the bias entry, clipped at zero. -/
theorem clip96_payload (x0 : Vec Ideal S5000x96 .f32) (x1 : Vec Ideal S5000x1 .f32) (x2 : Vec Ideal S1x96 .f32)
    (p : Fin 5000) (q : Fin 96) :
    Gen.k1_pay1 x0 x1 x2 (ix2 p q) = max (x0 (ix2 p q) * x1 (ix2 p (0 : Fin 1)) + x2 (ix2 (0 : Fin 1) q)) 0 := by
  unfold Gen.k1_pay1
  rw [maximumf_apply, addf_apply, mulf_apply, broadcast_apply, shapeCast_self, shapeCast_self, shapeCast_self,
    broadcastTo_1b_ab_apply, broadcastTo_a1_ab_apply]
  exact congrArg _ Ideal.ofBits_zero_f32

/-- The stored value at (p, q) is the whole-array clip at the array index `i`, once the three blocks read the arrays
    at `i`'s row and column. -/
theorem clip96_block (A0 : FVec Ideal S50000x96 .f32) (A1 : FVec Ideal S50000x1 .f32) (A2 : FVec Ideal S1x96 .f32)
    (x0 : Vec Ideal S5000x96 .f32) (x1 : Vec Ideal S5000x1 .f32) (x2 : Vec Ideal S1x96 .f32)
    (p : Fin 5000) (q : Fin 96) (i : S50000x96.Idx)
    (h0 : x0 (ix2 p q) = A0 (ix2 (i 0) (i 1))) (h1 : x1 (ix2 p (0 : Fin 1)) = A1 (ix2 (i 0) (0 : Fin 1)))
    (h2 : x2 (ix2 (0 : Fin 1) q) = A2 (ix2 (0 : Fin 1) (i 1))) :
    Gen.k1_pay1 x0 x1 x2 (ix2 p q) = NodeStages.scaledBiasClip A0 A1 A2 i := by
  rw [clip96_payload, h0, h1, h2]; rfl

/-- The index maps over the grid: the aggregate, the factor column and the result move one block of rows per point;
    the bias row stays. -/
theorem clip96_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the whole-array clip of the arrays the region finds. -/
theorem clip96_flushed (c : Dev nD) (t : Fin cfg1.N) :
    (dat1 (F := Ideal) V c).flushed 3 t = ((cfg1.win 3).blk t).view.read (Elt Ideal)
      (NodeStages.scaledBiasClip (N := 50000) (D := 96) (V c main_v43) (V c main_v15) (V c main_v44)) := by
  show (cfg1.win 3).cut (grid1.coords t) ((dat1 V c).after 3 t) = _
  rw [after1_3]
  unfold out1_3
  rw [View.canon_unit_zero zeroOffsets]
  simp only [View.ld_unit_zero (S := S5000x96) zeroOffsets, View.ld_unit_zero (S := S5000x1) zeroOffsets,
    View.ld_unit_zero (S := S1x96) zeroOffsets]
  obtain ⟨e00, e01, e10, e11, e20, e21, e30, e31⟩ := clip96_index t
  funext j
  obtain ⟨p, q, rfl⟩ : ∃ (p : Fin 5000) (q : Fin 96), j = ix2 p q := ⟨j 0, j 1, eq_ix2 j⟩
  refine clip96_block (V c main_v43) (V c main_v15) (V c main_v44) (iblk1 V c 0 t) (iblk1 V c 1 t) (iblk1 V c 2 t) p q
    (((cfg1.win 3).blk t).view.emb (ix2 p q)) ?_ ?_ ?_
  · show V c main_v43 (((cfg1.win 0).blk t).view.emb (ix2 p q)) = V c main_v43 _
    congr 1; funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 96 + 1 * q.val = win1_3.index t (1 : Fin 2) * 96 + 1 * q.val; omega
  · show V c main_v15 (((cfg1.win 1).blk t).view.emb (ix2 p (0 : Fin 1))) = V c main_v15 _
    congr 1; funext a; apply Fin.ext
    match a with
    | ⟨0, _⟩ => show win1_1.index t (0 : Fin 2) * 5000 + 1 * p.val = win1_3.index t (0 : Fin 2) * 5000 + 1 * p.val; omega
    | ⟨1, _⟩ => show win1_1.index t (1 : Fin 2) * 1 + 1 * 0 = 0; omega
  · show V c main_v44 (((cfg1.win 2).blk t).view.emb (ix2 (0 : Fin 1) q)) = V c main_v44 _
    congr 1; funext a; apply Fin.ext
    match a with
    | ⟨0, _⟩ => show win1_2.index t (0 : Fin 2) * 1 + 1 * 0 = 0; omega
    | ⟨1, _⟩ => show win1_2.index t (1 : Fin 2) * 96 + 1 * q.val = win1_3.index t (1 : Fin 2) * 96 + 1 * q.val; omega

/-- An index of the result array is in point `t`'s block iff each coordinate is in the block's range on its axis. -/
theorem clip96_mem_blk (t : Fin cfg1.N) (i : S50000x96.Idx) :
    i ∈ ((cfg1.win 3).blk t).view.set ↔ ∀ a : Fin 2, win1_3.index t a * S5000x96.size a ≤ (i a).val
      ∧ (i a).val < win1_3.index t a * S5000x96.size a + S5000x96.size a := by
  show i ∈ ((View.whole main_v45).slice (win1_3.rect t)).set ↔ _
  rw [View.set_slice_whole, Rect.mem_set_unit]
  exact Iff.rfl

/-- Row `r` of the result is in the block of point `r / 5000`. -/
theorem clip96_cover (i : S50000x96.Idx) :
    ∃ t : Fin cfg1.N, (cfg1.win 3).flush t = true ∧ i ∈ ((cfg1.win 3).blk t).view.set := by
  have hN : cfg1.N = 10 := N_1
  have hi0 : (i 0).val < 50000 := (i 0).isLt
  have hi1 : (i 1).val < 96 := (i 1).isLt
  refine ⟨⟨(i 0).val / 5000, by rw [hN]; omega⟩, flush1_3 _, ?_⟩
  obtain ⟨-, -, -, -, -, -, e30, e31⟩ := clip96_index ⟨(i 0).val / 5000, by rw [hN]; omega⟩
  rw [clip96_mem_blk]
  intro a
  match a with
  | ⟨0, _⟩ =>
    show win1_3.index _ (0 : Fin 2) * 5000 ≤ (i 0).val ∧ (i 0).val < win1_3.index _ (0 : Fin 2) * 5000 + 5000
    rw [e30]; show (i 0).val / 5000 * 5000 ≤ (i 0).val ∧ (i 0).val < (i 0).val / 5000 * 5000 + 5000; omega
  | ⟨1, _⟩ =>
    show win1_3.index _ (1 : Fin 2) * 96 ≤ (i 1).val ∧ (i 1).val < win1_3.index _ (1 : Fin 2) * 96 + 96
    rw [e31]; omega

/-- The result array after the region: the whole-array clip of the aggregate, the node factors and the bias row. -/
theorem clip96_array (c : Dev nD) :
    (dat1 (F := Ideal) V c).arrAt 3 cfg1.N
      = NodeStages.scaledBiasClip (N := 50000) (D := 96) (V c main_v43) (V c main_v15) (V c main_v44) :=
  (dat1 (F := Ideal) V c).arrAt_eq_of_cover 3 _ (fun t _ => clip96_flushed V c t) clip96_cover

end Cert.KernelIdeal.RegionValue

end
-- ==== Proof.ProjRegion2.lean ====
/-
  The second projection stage as one function of whole arrays.

  The stage runs over ten blocks of 5000 rows. At each block it scales and shifts every row of the [50000, 96] input
  feature by feature (a [1, 96] row of scales, a [1, 96] row of shifts), multiplies by the [96, 64] matrix, and
  multiplies each projected row by its node's factor (a [50000, 1] column). Here: the value stored at an entry of a
  block as a sum over the 96 features (`proj64_payload`), the block a grid point writes as the same block of the
  whole-array projection `NodeStages.scaledProjection` (`proj64_flushed`), the ten blocks cover the 50000 rows
  (`proj64_cover`), hence the array after the stage is the whole-array projection of the arrays it found
  (`proj64_array`).
-/
import proofs.«180567_j38208029065461_2_alg».proof.Proof.Gen.KernelIdeal.Frame
import proofs.«180567_j38208029065461_2_alg».proof.Proof.NodeStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- A column broadcast along the rows: at (p, c) it reads the column at (p, 0). -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The zero offsets of a whole-buffer access, as the constant function. -/
private theorem zeroOffsets : (![0, 0] : Fin 2 → Nat) = fun _ => 0 := funext fun a => by fin_cases a <;> rfl

variable (V : (c : Dev nD) → (b : Ref sig .tc) → Buf (Elt Ideal) ((c : Thread nD τ).loc b))

/-! ## The second projection region: 96 features to 64 -/

/-- The left operand's index of the contraction: the output's row on axis 0 … -/
private theorem proj64_lhs0 (j : S5000x64.Idx) (k : dot_S5000x96_S96x64_S5000x64_1_0_0_1_n_n.contr.Idx) :
    (dot_S5000x96_S96x64_S5000x64_1_0_0_1_n_n.lhsIdx j k 0).val = (j 0).val := by
  unfold DotDims.lhsIdx
  rw [dif_neg (show ¬(0 : Fin S5000x96.rank) ∈ dot_S5000x96_S96x64_S5000x64_1_0_0_1_n_n.lhsBatch by decide),
    dif_pos (show (0 : Fin S5000x96.rank) ∈ dot_S5000x96_S96x64_S5000x64_1_0_0_1_n_n.lhsNonContracting by decide)]
  rfl
/-- … and the contraction position on axis 1. -/
private theorem proj64_lhs1 (j : S5000x64.Idx) (k : dot_S5000x96_S96x64_S5000x64_1_0_0_1_n_n.contr.Idx) :
    (dot_S5000x96_S96x64_S5000x64_1_0_0_1_n_n.lhsIdx j k 1).val = (k ⟨0, by decide⟩).val :=
  dot_S5000x96_S96x64_S5000x64_1_0_0_1_n_n.lhsIdx_val_of_single rfl j k
/-- The right operand's index: the contraction position on axis 0 … -/
private theorem proj64_rhs0 (j : S5000x64.Idx) (k : dot_S5000x96_S96x64_S5000x64_1_0_0_1_n_n.contr.Idx) :
    (dot_S5000x96_S96x64_S5000x64_1_0_0_1_n_n.rhsIdx j k 0).val = (k ⟨0, by decide⟩).val :=
  dot_S5000x96_S96x64_S5000x64_1_0_0_1_n_n.rhsIdx_val_of_single rfl j k
/-- … and the output's column on axis 1. -/
private theorem proj64_rhs1 (j : S5000x64.Idx) (k : dot_S5000x96_S96x64_S5000x64_1_0_0_1_n_n.contr.Idx) :
    (dot_S5000x96_S96x64_S5000x64_1_0_0_1_n_n.rhsIdx j k 1).val = (j 1).val := by
  unfold DotDims.rhsIdx
  rw [dif_neg (show ¬(1 : Fin S96x64.rank) ∈ dot_S5000x96_S96x64_S5000x64_1_0_0_1_n_n.rhsBatch by decide),
    dif_pos (show (1 : Fin S96x64.rank) ∈ dot_S5000x96_S96x64_S5000x64_1_0_0_1_n_n.rhsNonContracting by decide)]
  rfl

/-- The body's stored value at (p, q): row p scaled and shifted feature by feature, contracted with column q of the
    matrix, times the node's factor. -/
theorem proj64_payload (x0 : Vec Ideal S5000x96 .f32) (x1 x2 : Vec Ideal S1x96 .f32) (x3 : Vec Ideal S96x64 .f32)
    (x4 : Vec Ideal S5000x1 .f32) (p : Fin 5000) (q : Fin 64) :
    Gen.k2_pay1 x0 x1 x2 x3 x4 (ix2 p q)
      = (∑ k : Fin 96, (x0 (ix2 p k) * x1 (ix2 (0 : Fin 1) k) + x2 (ix2 (0 : Fin 1) k)) * x3 (ix2 k q))
        * x4 (ix2 p (0 : Fin 1)) := by
  unfold Gen.k2_pay1
  rw [mulf_apply, shapeCast_self, shapeCast_self, shapeCast_self, shapeCast_self, broadcastTo_a1_ab_apply]
  refine congrArg (· * x4 (ix2 p (0 : Fin 1))) ?_
  refine (Ideal.matmul_constant_zero_apply dot_S5000x96_S96x64_S5000x64_1_0_0_1_n_n none _ _ (ix2 p q)).trans ?_
  rw [← Equiv.sum_comp (contrEquiv1 dot_S5000x96_S96x64_S5000x64_1_0_0_1_n_n 96 rfl rfl).symm]
  refine Finset.sum_congr rfl fun k _ => ?_
  have hk := contrEquiv1_symm_val dot_S5000x96_S96x64_S5000x64_1_0_0_1_n_n 96 rfl rfl k
  have el : dot_S5000x96_S96x64_S5000x64_1_0_0_1_n_n.lhsIdx (ix2 p q)
      ((contrEquiv1 dot_S5000x96_S96x64_S5000x64_1_0_0_1_n_n 96 rfl rfl).symm k) = ix2 p k :=
    funext fun a => Fin.ext (by
      match a with
      | ⟨0, _⟩ => exact proj64_lhs0 _ _
      | ⟨1, _⟩ => exact (proj64_lhs1 _ _).trans hk)
  have er : dot_S5000x96_S96x64_S5000x64_1_0_0_1_n_n.rhsIdx (ix2 p q)
      ((contrEquiv1 dot_S5000x96_S96x64_S5000x64_1_0_0_1_n_n 96 rfl rfl).symm k) = ix2 k q :=
    funext fun a => Fin.ext (by
      match a with
      | ⟨0, _⟩ => exact (proj64_rhs0 _ _).trans hk
      | ⟨1, _⟩ => exact proj64_rhs1 _ _)
  rw [el, er, truncf_apply, truncf_apply, addf_apply, mulf_apply, broadcastTo_1b_ab_apply, broadcastTo_1b_ab_apply]

/-- The stored value at (p, q) is the whole-array projection at the array index `i`, once the five blocks read the
    arrays at `i`'s row and column. -/
theorem proj64_block (A0 : FVec Ideal S50000x96 .f32) (A1 A2 : FVec Ideal S1x96 .f32) (A3 : FVec Ideal S96x64 .f32)
    (A4 : FVec Ideal S50000x1 .f32)
    (x0 : Vec Ideal S5000x96 .f32) (x1 x2 : Vec Ideal S1x96 .f32) (x3 : Vec Ideal S96x64 .f32)
    (x4 : Vec Ideal S5000x1 .f32) (p : Fin 5000) (q : Fin 64) (i : S50000x64.Idx)
    (h0 : ∀ k : Fin 96, x0 (ix2 p k) = A0 (ix2 (i 0) k))
    (h1 : ∀ k : Fin 96, x1 (ix2 (0 : Fin 1) k) = A1 (ix2 (0 : Fin 1) k))
    (h2 : ∀ k : Fin 96, x2 (ix2 (0 : Fin 1) k) = A2 (ix2 (0 : Fin 1) k))
    (h3 : ∀ k : Fin 96, x3 (ix2 k q) = A3 (ix2 k (i 1)))
    (h4 : x4 (ix2 p (0 : Fin 1)) = A4 (ix2 (i 0) (0 : Fin 1))) :
    Gen.k2_pay1 x0 x1 x2 x3 x4 (ix2 p q) = NodeStages.scaledProjection A0 A1 A2 A3 A4 i := by
  rw [proj64_payload, h4]
  show _ = (∑ k : Fin 96, (A0 (ix2 (i 0) k) * A1 (ix2 (0 : Fin 1) k) + A2 (ix2 (0 : Fin 1) k)) * A3 (ix2 k (i 1)))
    * A4 (ix2 (i 0) (0 : Fin 1))
  refine congrArg (· * A4 (ix2 (i 0) (0 : Fin 1))) (Finset.sum_congr rfl fun k _ => ?_)
  rw [h0, h1, h2, h3]

/-- The index maps over the grid: the rows, the factor column and the result move one block of rows per point; the
    scale row, the shift row and the matrix stay. -/
theorem proj64_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

set_option maxHeartbeats 1000000 in
/-- What point `t` writes back is block `t` of the whole-array projection of the arrays the region finds. -/
theorem proj64_flushed (c : Dev nD) (t : Fin cfg2.N) :
    (dat2 (F := Ideal) V c).flushed 5 t = ((cfg2.win 5).blk t).view.read (Elt Ideal)
      (NodeStages.scaledProjection (N := 50000) (K := 96) (D := 64) (V c main_v45) (V c main_v60) (V c main_v61)
        (V c main_arg8) (V c main_v15)) := by
  show (cfg2.win 5).cut (grid2.coords t) ((dat2 V c).after 5 t) = _
  rw [after2_5]
  unfold out2_5
  rw [View.canon_unit_zero zeroOffsets]
  simp only [View.ld_unit_zero (S := S5000x96) zeroOffsets, View.ld_unit_zero (S := S1x96) zeroOffsets,
    View.ld_unit_zero (S := S96x64) zeroOffsets, View.ld_unit_zero (S := S5000x1) zeroOffsets]
  obtain ⟨e00, e01, e10, e11, e20, e21, e30, e31, e40, e41, e50, e51⟩ := proj64_index t
  funext j
  obtain ⟨p, q, rfl⟩ : ∃ (p : Fin 5000) (q : Fin 64), j = ix2 p q := ⟨j 0, j 1, eq_ix2 j⟩
  refine proj64_block (V c main_v45) (V c main_v60) (V c main_v61) (V c main_arg8) (V c main_v15)
    (iblk2 V c 0 t) (iblk2 V c 1 t) (iblk2 V c 2 t) (iblk2 V c 3 t) (iblk2 V c 4 t) p q
    (((cfg2.win 5).blk t).view.emb (ix2 p q)) (fun k => ?_) (fun k => ?_) (fun k => ?_) (fun k => ?_) ?_
  · show V c main_v45 (((cfg2.win 0).blk t).view.emb (ix2 p k)) = V c main_v45 _
    congr 1; funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 96 + 1 * k.val = k.val; omega
  · show V c main_v60 (((cfg2.win 1).blk t).view.emb (ix2 (0 : Fin 1) k)) = V c main_v60 _
    congr 1; funext a; apply Fin.ext
    match a with
    | ⟨0, _⟩ => show win2_1.index t (0 : Fin 2) * 1 + 1 * 0 = 0; omega
    | ⟨1, _⟩ => show win2_1.index t (1 : Fin 2) * 96 + 1 * k.val = k.val; omega
  · show V c main_v61 (((cfg2.win 2).blk t).view.emb (ix2 (0 : Fin 1) k)) = V c main_v61 _
    congr 1; funext a; apply Fin.ext
    match a with
    | ⟨0, _⟩ => show win2_2.index t (0 : Fin 2) * 1 + 1 * 0 = 0; omega
    | ⟨1, _⟩ => show win2_2.index t (1 : Fin 2) * 96 + 1 * k.val = k.val; omega
  · show V c main_arg8 (((cfg2.win 3).blk t).view.emb (ix2 k q)) = V c main_arg8 _
    congr 1; funext a; apply Fin.ext
    match a with
    | ⟨0, _⟩ => show win2_3.index t (0 : Fin 2) * 96 + 1 * k.val = k.val; omega
    | ⟨1, _⟩ => show win2_3.index t (1 : Fin 2) * 64 + 1 * q.val = win2_5.index t (1 : Fin 2) * 64 + 1 * q.val; omega
  · show V c main_v15 (((cfg2.win 4).blk t).view.emb (ix2 p (0 : Fin 1))) = V c main_v15 _
    congr 1; funext a; apply Fin.ext
    match a with
    | ⟨0, _⟩ => show win2_4.index t (0 : Fin 2) * 5000 + 1 * p.val = win2_5.index t (0 : Fin 2) * 5000 + 1 * p.val; omega
    | ⟨1, _⟩ => show win2_4.index t (1 : Fin 2) * 1 + 1 * 0 = 0; omega

/-- An index of the result array is in point `t`'s block iff each coordinate is in the block's range on its axis. -/
theorem proj64_mem_blk (t : Fin cfg2.N) (i : S50000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v62).slice (win2_5.rect t)).set ↔ _
  rw [View.set_slice_whole, Rect.mem_set_unit]
  exact Iff.rfl

/-- Row `r` of the result is in the block of point `r / 5000`. -/
theorem proj64_cover (i : S50000x64.Idx) :
    ∃ t : Fin cfg2.N, (cfg2.win 5).flush t = true ∧ i ∈ ((cfg2.win 5).blk t).view.set := by
  have hN : cfg2.N = 10 := N_2
  have hi0 : (i 0).val < 50000 := (i 0).isLt
  have hi1 : (i 1).val < 64 := (i 1).isLt
  refine ⟨⟨(i 0).val / 5000, by rw [hN]; omega⟩, flush2_5 _, ?_⟩
  obtain ⟨-, -, -, -, -, -, -, -, -, -, e50, e51⟩ := proj64_index ⟨(i 0).val / 5000, by rw [hN]; omega⟩
  rw [proj64_mem_blk]
  intro a
  match a with
  | ⟨0, _⟩ =>
    show win2_5.index _ (0 : Fin 2) * 5000 ≤ (i 0).val ∧ (i 0).val < win2_5.index _ (0 : Fin 2) * 5000 + 5000
    rw [e50]; show (i 0).val / 5000 * 5000 ≤ (i 0).val ∧ (i 0).val < (i 0).val / 5000 * 5000 + 5000; omega
  | ⟨1, _⟩ =>
    show win2_5.index _ (1 : Fin 2) * 64 ≤ (i 1).val ∧ (i 1).val < win2_5.index _ (1 : Fin 2) * 64 + 64
    rw [e51]; omega

/-- The result array after the region: the whole-array projection of the rows, the scale and shift rows, the matrix
    and the node factors. -/
theorem proj64_array (c : Dev nD) :
    (dat2 (F := Ideal) V c).arrAt 5 cfg2.N
      = NodeStages.scaledProjection (N := 50000) (K := 96) (D := 64) (V c main_v45) (V c main_v60) (V c main_v61)
          (V c main_arg8) (V c main_v15) :=
  (dat2 (F := Ideal) V c).arrAt_eq_of_cover 5 _ (fun t _ => proj64_flushed V c t) proj64_cover

end Cert.KernelIdeal.RegionValue

end
-- ==== Proof.ClipRegion3.lean ====
/-
  The second bias-and-clip stage as one function of whole arrays.

  The stage runs over ten blocks of 5000 rows. At each block it multiplies every row of the [50000, 64] aggregate by
  its node's factor (a [50000, 1] column), adds the [1, 64] bias row, and replaces negative entries by zero. Here:
  the value stored at an entry of a block (`clip64_payload`), the block a grid point writes as the same block of the
  whole-array clip `NodeStages.scaledBiasClip` (`clip64_flushed`), the ten blocks cover the 50000 rows
  (`clip64_cover`), hence the array after the stage is the whole-array clip of the arrays it found (`clip64_array`).
-/
import proofs.«180567_j38208029065461_2_alg».proof.Proof.Gen.KernelIdeal.Frame
import proofs.«180567_j38208029065461_2_alg».proof.Proof.NodeStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- A column broadcast along the rows: at (p, c) it reads the column at (p, 0). -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The zero offsets of a whole-buffer access, as the constant function. -/
private theorem zeroOffsets : (![0, 0] : Fin 2 → Nat) = fun _ => 0 := funext fun a => by fin_cases a <;> rfl

variable (V : (c : Dev nD) → (b : Ref sig .tc) → Buf (Elt Ideal) ((c : Thread nD τ).loc b))

/-! ## The second clip region: rows of 64 features -/

/-- The body's stored value at (p, q): the row entry times the node's factor, plus the bias entry, clipped at zero. -/
theorem clip64_payload (x0 : Vec Ideal S5000x64 .f32) (x1 : Vec Ideal S5000x1 .f32) (x2 : Vec Ideal S1x64 .f32)
    (p : Fin 5000) (q : Fin 64) :
    Gen.k3_pay1 x0 x1 x2 (ix2 p q) = max (x0 (ix2 p q) * x1 (ix2 p (0 : Fin 1)) + x2 (ix2 (0 : Fin 1) q)) 0 := by
  unfold Gen.k3_pay1
  rw [maximumf_apply, addf_apply, mulf_apply, broadcast_apply, shapeCast_self, shapeCast_self, shapeCast_self,
    broadcastTo_1b_ab_apply, broadcastTo_a1_ab_apply]
  exact congrArg _ Ideal.ofBits_zero_f32

/-- The stored value at (p, q) is the whole-array clip at the array index `i`, once the three blocks read the arrays
    at `i`'s row and column. -/
theorem clip64_block (A0 : FVec Ideal S50000x64 .f32) (A1 : FVec Ideal S50000x1 .f32) (A2 : FVec Ideal S1x64 .f32)
    (x0 : Vec Ideal S5000x64 .f32) (x1 : Vec Ideal S5000x1 .f32) (x2 : Vec Ideal S1x64 .f32)
    (p : Fin 5000) (q : Fin 64) (i : S50000x64.Idx)
    (h0 : x0 (ix2 p q) = A0 (ix2 (i 0) (i 1))) (h1 : x1 (ix2 p (0 : Fin 1)) = A1 (ix2 (i 0) (0 : Fin 1)))
    (h2 : x2 (ix2 (0 : Fin 1) q) = A2 (ix2 (0 : Fin 1) (i 1))) :
    Gen.k3_pay1 x0 x1 x2 (ix2 p q) = NodeStages.scaledBiasClip A0 A1 A2 i := by
  rw [clip64_payload, h0, h1, h2]; rfl

/-- The index maps over the grid: the aggregate, the factor column and the result move one block of rows per point;
    the bias row stays. -/
theorem clip64_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of the whole-array clip of the arrays the region finds. -/
theorem clip64_flushed (c : Dev nD) (t : Fin cfg3.N) :
    (dat3 (F := Ideal) V c).flushed 3 t = ((cfg3.win 3).blk t).view.read (Elt Ideal)
      (NodeStages.scaledBiasClip (N := 50000) (D := 64) (V c main_v72) (V c main_v15) (V c main_v73)) := by
  show (cfg3.win 3).cut (grid3.coords t) ((dat3 V c).after 3 t) = _
  rw [after3_3]
  unfold out3_3
  rw [View.canon_unit_zero zeroOffsets]
  simp only [View.ld_unit_zero (S := S5000x64) zeroOffsets, View.ld_unit_zero (S := S5000x1) zeroOffsets,
    View.ld_unit_zero (S := S1x64) zeroOffsets]
  obtain ⟨e00, e01, e10, e11, e20, e21, e30, e31⟩ := clip64_index t
  funext j
  obtain ⟨p, q, rfl⟩ : ∃ (p : Fin 5000) (q : Fin 64), j = ix2 p q := ⟨j 0, j 1, eq_ix2 j⟩
  refine clip64_block (V c main_v72) (V c main_v15) (V c main_v73) (iblk3 V c 0 t) (iblk3 V c 1 t) (iblk3 V c 2 t) p q
    (((cfg3.win 3).blk t).view.emb (ix2 p q)) ?_ ?_ ?_
  · show V c main_v72 (((cfg3.win 0).blk t).view.emb (ix2 p q)) = V c main_v72 _
    congr 1; funext a; apply Fin.ext
    match a with
    | ⟨0, _⟩ => show win3_0.index t (0 : Fin 2) * 5000 + 1 * p.val = win3_3.index t (0 : Fin 2) * 5000 + 1 * p.val; omega
    | ⟨1, _⟩ => show win3_0.index t (1 : Fin 2) * 64 + 1 * q.val = win3_3.index t (1 : Fin 2) * 64 + 1 * q.val; omega
  · show V c main_v15 (((cfg3.win 1).blk t).view.emb (ix2 p (0 : Fin 1))) = V c main_v15 _
    congr 1; funext a; apply Fin.ext
    match a with
    | ⟨0, _⟩ => show win3_1.index t (0 : Fin 2) * 5000 + 1 * p.val = win3_3.index t (0 : Fin 2) * 5000 + 1 * p.val; omega
    | ⟨1, _⟩ => show win3_1.index t (1 : Fin 2) * 1 + 1 * 0 = 0; omega
  · show V c main_v73 (((cfg3.win 2).blk t).view.emb (ix2 (0 : Fin 1) q)) = V c main_v73 _
    congr 1; funext a; apply Fin.ext
    match a with
    | ⟨0, _⟩ => show win3_2.index t (0 : Fin 2) * 1 + 1 * 0 = 0; omega
    | ⟨1, _⟩ => show win3_2.index t (1 : Fin 2) * 64 + 1 * q.val = win3_3.index t (1 : Fin 2) * 64 + 1 * q.val; omega

/-- An index of the result array is in point `t`'s block iff each coordinate is in the block's range on its axis. -/
theorem clip64_mem_blk (t : Fin cfg3.N) (i : S50000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v74).slice (win3_3.rect t)).set ↔ _
  rw [View.set_slice_whole, Rect.mem_set_unit]
  exact Iff.rfl

/-- Row `r` of the result is in the block of point `r / 5000`. -/
theorem clip64_cover (i : S50000x64.Idx) :
    ∃ t : Fin cfg3.N, (cfg3.win 3).flush t = true ∧ i ∈ ((cfg3.win 3).blk t).view.set := by
  have hN : cfg3.N = 10 := N_3
  have hi0 : (i 0).val < 50000 := (i 0).isLt
  have hi1 : (i 1).val < 64 := (i 1).isLt
  refine ⟨⟨(i 0).val / 5000, by rw [hN]; omega⟩, flush3_3 _, ?_⟩
  obtain ⟨-, -, -, -, -, -, e30, e31⟩ := clip64_index ⟨(i 0).val / 5000, by rw [hN]; omega⟩
  rw [clip64_mem_blk]
  intro a
  match a with
  | ⟨0, _⟩ =>
    show win3_3.index _ (0 : Fin 2) * 5000 ≤ (i 0).val ∧ (i 0).val < win3_3.index _ (0 : Fin 2) * 5000 + 5000
    rw [e30]; show (i 0).val / 5000 * 5000 ≤ (i 0).val ∧ (i 0).val < (i 0).val / 5000 * 5000 + 5000; omega
  | ⟨1, _⟩ =>
    show win3_3.index _ (1 : Fin 2) * 64 ≤ (i 1).val ∧ (i 1).val < win3_3.index _ (1 : Fin 2) * 64 + 64
    rw [e31]; omega

/-- The result array after the region: the whole-array clip of the aggregate, the node factors and the bias row. -/
theorem clip64_array (c : Dev nD) :
    (dat3 (F := Ideal) V c).arrAt 3 cfg3.N
      = NodeStages.scaledBiasClip (N := 50000) (D := 64) (V c main_v72) (V c main_v15) (V c main_v73) :=
  (dat3 (F := Ideal) V c).arrAt_eq_of_cover 3 _ (fun t _ => clip64_flushed V c t) clip64_cover

end Cert.KernelIdeal.RegionValue

end
-- ==== Proof.KernelFold.lean ====
/-
  The idealized kernel's result array as one function of its argument arrays.

  The run's buffer contents at the boundaries between host stretches and regions are a fold from the launch memory.
  Read at the buffers the program goes on to use, that fold is: the source and destination columns and the node factor
  column from the edge list; the first normalisation's scale and shift rows from the features; the first scaled
  projection (region 0); its rows gathered by source and summed by destination; the scaled, biased clip (region 1), which
  is the hidden layer; the second normalisation's rows from the hidden layer; the second scaled projection (region 2);
  its aggregate; and the last scaled, biased clip (region 3), the result. A buffer a stretch does not write, a region
  bypasses, or a region only reads through an input window keeps its contents across that step.
-/
import proofs.«180567_j38208029065461_2_alg».proof.Proof.Gen.KernelIdeal.Frame
import proofs.«180567_j38208029065461_2_alg».proof.Proof.HostValues
import proofs.«180567_j38208029065461_2_alg».proof.Proof.NodeStages
import proofs.«180567_j38208029065461_2_alg».proof.Proof.ProjRegion0
import proofs.«180567_j38208029065461_2_alg».proof.Proof.ClipRegion1
import proofs.«180567_j38208029065461_2_alg».proof.Proof.ProjRegion2
import proofs.«180567_j38208029065461_2_alg».proof.Proof.ClipRegion3

set_option maxRecDepth 16384

noncomputable section

namespace Cert.KernelIdeal.FoldValue

open Cert.KernelIdeal Cert.KernelIdeal.Gen Cert.KernelIdeal.HostValue
open Idealize.ShloMosaic Idealize.ShloMosaic.TcCoe Idealize.SL.Sem Idealize.ShloMosaic.StableHlo

/-! ## The network as a function of the argument arrays -/

/-- The node factors 1/√deg, 0 at a node of degree 0. -/
def nodeFactor (ei : IVec S2x800000 32) : FVec Ideal S50000 .f32 :=
  whereOf (posOf (degOf (dstOf ei))) (rsqrtOf (degOf (dstOf ei))) zeroScalar

/-- The node factors as the [N, 1] column the dense stages read. -/
def nodeCol (ei : IVec S2x800000 32) : FVec Ideal S50000x1 .f32 := colOf (nodeFactor ei)

/-- The first scaled projection: the features normalised over the nodes, projected, each row times its node's factor. -/
def proj1 (x : FVec Ideal S50000x128 .f32) (ei : IVec S2x800000 32) (w b : FVec Ideal S128 .f32)
    (W : FVec Ideal S128x96 .f32) : FVec Ideal S50000x96 .f32 :=
  NodeStages.scaledProjection (N := 50000) (K := 128) (D := 96) x (bnScaleRow x w) (bnShiftRow x w b) W (nodeCol ei)

/-- The hidden layer: the aggregate of the first projection, scaled, biased and clipped. -/
def hidden (x : FVec Ideal S50000x128 .f32) (ei : IVec S2x800000 32) (w b : FVec Ideal S128 .f32)
    (W : FVec Ideal S128x96 .f32) (b1 : FVec Ideal S96 .f32) : FVec Ideal S50000x96 .f32 :=
  NodeStages.scaledBiasClip (N := 50000) (D := 96) (aggregate96 (proj1 x ei w b W) (srcOf ei) (dstOf ei)) (nodeCol ei)
    (biasRow96 b1)

/-- The second scaled projection: the hidden layer normalised over all its entries, projected, each row times its
    node's factor. -/
def proj2 (x : FVec Ideal S50000x128 .f32) (ei : IVec S2x800000 32) (w b : FVec Ideal S128 .f32)
    (W : FVec Ideal S128x96 .f32) (b1 w2 b2 : FVec Ideal S96 .f32) (W2 : FVec Ideal S96x64 .f32) :
    FVec Ideal S50000x64 .f32 :=
  NodeStages.scaledProjection (N := 50000) (K := 96) (D := 64) (hidden x ei w b W b1)
    (lnScaleRow (hidden x ei w b W b1) w2) (lnShiftRow (hidden x ei w b W b1) w2 b2) W2 (nodeCol ei)

/-- The result: the aggregate of the second projection, scaled, biased and clipped. -/
def output (x : FVec Ideal S50000x128 .f32) (ei : IVec S2x800000 32) (w b : FVec Ideal S128 .f32)
    (W : FVec Ideal S128x96 .f32) (b1 w2 b2 : FVec Ideal S96 .f32) (W2 : FVec Ideal S96x64 .f32)
    (b3 : FVec Ideal S64 .f32) : FVec Ideal S50000x64 .f32 :=
  NodeStages.scaledBiasClip (N := 50000) (D := 64)
    (aggregate64 (proj2 x ei w b W b1 w2 b2 W2) (srcOf ei) (dstOf ei)) (nodeCol ei) (biasRow64 b3)

/-! ## The fold, read at the buffers in use -/

variable (m : (ℓ : Loc nD τ sig) → Buf (Elt Ideal) ℓ) (ρ : Dev nD → PrngReg) (c : Dev nD)

theorem X0_arg0 : W0 m ρ c (Proc.devRef .tc main_arg0) = (m ((c : Thread nD τ).loc main_arg0)) := rfl
theorem X0_arg1 : W0 m ρ c (Proc.devRef .tc main_arg1) = (m ((c : Thread nD τ).loc main_arg1)) := rfl
theorem X0_arg2 : W0 m ρ c (Proc.devRef .tc main_arg2) = (m ((c : Thread nD τ).loc main_arg2)) := rfl
theorem X0_arg3 : W0 m ρ c (Proc.devRef .tc main_arg3) = (m ((c : Thread nD τ).loc main_arg3)) := rfl
theorem X0_arg4 : W0 m ρ c (Proc.devRef .tc main_arg4) = (m ((c : Thread nD τ).loc main_arg4)) := rfl
theorem X0_arg5 : W0 m ρ c (Proc.devRef .tc main_arg5) = (m ((c : Thread nD τ).loc main_arg5)) := rfl
theorem X0_arg6 : W0 m ρ c (Proc.devRef .tc main_arg6) = (m ((c : Thread nD τ).loc main_arg6)) := rfl
theorem X0_arg7 : W0 m ρ c (Proc.devRef .tc main_arg7) = (m ((c : Thread nD τ).loc main_arg7)) := rfl
theorem X0_arg8 : W0 m ρ c (Proc.devRef .tc main_arg8) = (m ((c : Thread nD τ).loc main_arg8)) := rfl
theorem X0_arg9 : W0 m ρ c (Proc.devRef .tc main_arg9) = (m ((c : Thread nD τ).loc main_arg9)) := rfl

/-! ### Boundary 1 -/

theorem X1_v3 : W1 m ρ c (Proc.devRef .tc main_v3) = (srcOf (m ((c : Thread nD τ).loc main_arg1))) :=
  (hostOps0_v3 (W0 m ρ c)).trans (by rw [X0_arg1 m ρ c] <;> rfl)
theorem X1_v6 : W1 m ρ c (Proc.devRef .tc main_v6) = (dstOf (m ((c : Thread nD τ).loc main_arg1))) :=
  (hostOps0_v6 (W0 m ρ c)).trans (by rw [X0_arg1 m ρ c] <;> rfl)
theorem X1_v12 : W1 m ρ c (Proc.devRef .tc main_v12) = (posOf (degOf (dstOf (m ((c : Thread nD τ).loc main_arg1))))) :=
  (hostOps0_v12 (W0 m ρ c)).trans (by rw [X0_arg1 m ρ c] <;> rfl)
theorem X1_v13 : W1 m ρ c (Proc.devRef .tc main_v13) = (rsqrtOf (degOf (dstOf (m ((c : Thread nD τ).loc main_arg1))))) :=
  (hostOps0_v13 (W0 m ρ c)).trans (by rw [X0_arg1 m ρ c] <;> rfl)
theorem X1_cst_2 : W1 m ρ c (Proc.devRef .tc main_cst_2) = zeroScalar :=
  hostOps0_cst_2 (W0 m ρ c)
theorem X1_arg0 : W1 m ρ c (Proc.devRef .tc main_arg0) = (m ((c : Thread nD τ).loc main_arg0)) :=
  (show W1 m ρ c (Proc.devRef .tc main_arg0) = W0 m ρ c (Proc.devRef .tc main_arg0) from
    StableHlo.after_of_forall_not_mem (b := (Proc.devRef .tc main_arg0)) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X0_arg0 m ρ c)
theorem X1_arg2 : W1 m ρ c (Proc.devRef .tc main_arg2) = (m ((c : Thread nD τ).loc main_arg2)) :=
  (show W1 m ρ c (Proc.devRef .tc main_arg2) = W0 m ρ c (Proc.devRef .tc main_arg2) from
    StableHlo.after_of_forall_not_mem (b := (Proc.devRef .tc main_arg2)) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X0_arg2 m ρ c)
theorem X1_arg3 : W1 m ρ c (Proc.devRef .tc main_arg3) = (m ((c : Thread nD τ).loc main_arg3)) :=
  (show W1 m ρ c (Proc.devRef .tc main_arg3) = W0 m ρ c (Proc.devRef .tc main_arg3) from
    StableHlo.after_of_forall_not_mem (b := (Proc.devRef .tc main_arg3)) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X0_arg3 m ρ c)
theorem X1_arg4 : W1 m ρ c (Proc.devRef .tc main_arg4) = (m ((c : Thread nD τ).loc main_arg4)) :=
  (show W1 m ρ c (Proc.devRef .tc main_arg4) = W0 m ρ c (Proc.devRef .tc main_arg4) from
    StableHlo.after_of_forall_not_mem (b := (Proc.devRef .tc main_arg4)) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X0_arg4 m ρ c)
theorem X1_arg5 : W1 m ρ c (Proc.devRef .tc main_arg5) = (m ((c : Thread nD τ).loc main_arg5)) :=
  (show W1 m ρ c (Proc.devRef .tc main_arg5) = W0 m ρ c (Proc.devRef .tc main_arg5) from
    StableHlo.after_of_forall_not_mem (b := (Proc.devRef .tc main_arg5)) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X0_arg5 m ρ c)
theorem X1_arg6 : W1 m ρ c (Proc.devRef .tc main_arg6) = (m ((c : Thread nD τ).loc main_arg6)) :=
  (show W1 m ρ c (Proc.devRef .tc main_arg6) = W0 m ρ c (Proc.devRef .tc main_arg6) from
    StableHlo.after_of_forall_not_mem (b := (Proc.devRef .tc main_arg6)) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X0_arg6 m ρ c)
theorem X1_arg7 : W1 m ρ c (Proc.devRef .tc main_arg7) = (m ((c : Thread nD τ).loc main_arg7)) :=
  (show W1 m ρ c (Proc.devRef .tc main_arg7) = W0 m ρ c (Proc.devRef .tc main_arg7) from
    StableHlo.after_of_forall_not_mem (b := (Proc.devRef .tc main_arg7)) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X0_arg7 m ρ c)
theorem X1_arg8 : W1 m ρ c (Proc.devRef .tc main_arg8) = (m ((c : Thread nD τ).loc main_arg8)) :=
  (show W1 m ρ c (Proc.devRef .tc main_arg8) = W0 m ρ c (Proc.devRef .tc main_arg8) from
    StableHlo.after_of_forall_not_mem (b := (Proc.devRef .tc main_arg8)) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X0_arg8 m ρ c)
theorem X1_arg9 : W1 m ρ c (Proc.devRef .tc main_arg9) = (m ((c : Thread nD τ).loc main_arg9)) :=
  (show W1 m ρ c (Proc.devRef .tc main_arg9) = W0 m ρ c (Proc.devRef .tc main_arg9) from
    StableHlo.after_of_forall_not_mem (b := (Proc.devRef .tc main_arg9)) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X0_arg9 m ρ c)

/-! ### Boundary 2 -/

theorem X2_v14 : W2 m ρ c (Proc.devRef .tc main_v14) = (nodeFactor (m ((c : Thread nD τ).loc main_arg1))) :=
  (hostOps0_1_v14 (W1 m ρ c)).trans (by rw [X1_v12 m ρ c, X1_v13 m ρ c, X1_cst_2 m ρ c] <;> rfl)
theorem X2_v3 : W2 m ρ c (Proc.devRef .tc main_v3) = (srcOf (m ((c : Thread nD τ).loc main_arg1))) :=
  (show W2 m ρ c (Proc.devRef .tc main_v3) = W1 m ρ c (Proc.devRef .tc main_v3) from
    StableHlo.after_of_forall_not_mem (b := (Proc.devRef .tc main_v3)) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X1_v3 m ρ c)
theorem X2_v6 : W2 m ρ c (Proc.devRef .tc main_v6) = (dstOf (m ((c : Thread nD τ).loc main_arg1))) :=
  (show W2 m ρ c (Proc.devRef .tc main_v6) = W1 m ρ c (Proc.devRef .tc main_v6) from
    StableHlo.after_of_forall_not_mem (b := (Proc.devRef .tc main_v6)) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X1_v6 m ρ c)
theorem X2_arg0 : W2 m ρ c (Proc.devRef .tc main_arg0) = (m ((c : Thread nD τ).loc main_arg0)) :=
  (show W2 m ρ c (Proc.devRef .tc main_arg0) = W1 m ρ c (Proc.devRef .tc main_arg0) from
    StableHlo.after_of_forall_not_mem (b := (Proc.devRef .tc main_arg0)) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X1_arg0 m ρ c)
theorem X2_arg2 : W2 m ρ c (Proc.devRef .tc main_arg2) = (m ((c : Thread nD τ).loc main_arg2)) :=
  (show W2 m ρ c (Proc.devRef .tc main_arg2) = W1 m ρ c (Proc.devRef .tc main_arg2) from
    StableHlo.after_of_forall_not_mem (b := (Proc.devRef .tc main_arg2)) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X1_arg2 m ρ c)
theorem X2_arg3 : W2 m ρ c (Proc.devRef .tc main_arg3) = (m ((c : Thread nD τ).loc main_arg3)) :=
  (show W2 m ρ c (Proc.devRef .tc main_arg3) = W1 m ρ c (Proc.devRef .tc main_arg3) from
    StableHlo.after_of_forall_not_mem (b := (Proc.devRef .tc main_arg3)) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X1_arg3 m ρ c)
theorem X2_arg4 : W2 m ρ c (Proc.devRef .tc main_arg4) = (m ((c : Thread nD τ).loc main_arg4)) :=
  (show W2 m ρ c (Proc.devRef .tc main_arg4) = W1 m ρ c (Proc.devRef .tc main_arg4) from
    StableHlo.after_of_forall_not_mem (b := (Proc.devRef .tc main_arg4)) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X1_arg4 m ρ c)
theorem X2_arg5 : W2 m ρ c (Proc.devRef .tc main_arg5) = (m ((c : Thread nD τ).loc main_arg5)) :=
  (show W2 m ρ c (Proc.devRef .tc main_arg5) = W1 m ρ c (Proc.devRef .tc main_arg5) from
    StableHlo.after_of_forall_not_mem (b := (Proc.devRef .tc main_arg5)) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X1_arg5 m ρ c)
theorem X2_arg6 : W2 m ρ c (Proc.devRef .tc main_arg6) = (m ((c : Thread nD τ).loc main_arg6)) :=
  (show W2 m ρ c (Proc.devRef .tc main_arg6) = W1 m ρ c (Proc.devRef .tc main_arg6) from
    StableHlo.after_of_forall_not_mem (b := (Proc.devRef .tc main_arg6)) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X1_arg6 m ρ c)
theorem X2_arg7 : W2 m ρ c (Proc.devRef .tc main_arg7) = (m ((c : Thread nD τ).loc main_arg7)) :=
  (show W2 m ρ c (Proc.devRef .tc main_arg7) = W1 m ρ c (Proc.devRef .tc main_arg7) from
    StableHlo.after_of_forall_not_mem (b := (Proc.devRef .tc main_arg7)) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X1_arg7 m ρ c)
theorem X2_arg8 : W2 m ρ c (Proc.devRef .tc main_arg8) = (m ((c : Thread nD τ).loc main_arg8)) :=
  (show W2 m ρ c (Proc.devRef .tc main_arg8) = W1 m ρ c (Proc.devRef .tc main_arg8) from
    StableHlo.after_of_forall_not_mem (b := (Proc.devRef .tc main_arg8)) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X1_arg8 m ρ c)
theorem X2_arg9 : W2 m ρ c (Proc.devRef .tc main_arg9) = (m ((c : Thread nD τ).loc main_arg9)) :=
  (show W2 m ρ c (Proc.devRef .tc main_arg9) = W1 m ρ c (Proc.devRef .tc main_arg9) from
    StableHlo.after_of_forall_not_mem (b := (Proc.devRef .tc main_arg9)) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X1_arg9 m ρ c)

/-! ### Boundary 3 -/

theorem X3_v15 : W3 m ρ c (Proc.devRef .tc main_v15) = (nodeCol (m ((c : Thread nD τ).loc main_arg1))) :=
  (hostOps0_2_v15 (W2 m ρ c)).trans (by rw [X2_v14 m ρ c] <;> rfl)
theorem X3_v31 : W3 m ρ c (Proc.devRef .tc main_v31) = (bnScaleRow (m ((c : Thread nD τ).loc main_arg0)) (m ((c : Thread nD τ).loc main_arg2))) :=
  (hostOps0_2_v31 (W2 m ρ c)).trans (by rw [X2_arg0 m ρ c, X2_arg2 m ρ c] <;> rfl)
theorem X3_v32 : W3 m ρ c (Proc.devRef .tc main_v32) = (bnShiftRow (m ((c : Thread nD τ).loc main_arg0)) (m ((c : Thread nD τ).loc main_arg2)) (m ((c : Thread nD τ).loc main_arg3))) :=
  (hostOps0_2_v32 (W2 m ρ c)).trans (by rw [X2_arg0 m ρ c, X2_arg2 m ρ c, X2_arg3 m ρ c] <;> rfl)
theorem X3_v3 : W3 m ρ c (Proc.devRef .tc main_v3) = (srcOf (m ((c : Thread nD τ).loc main_arg1))) :=
  (show W3 m ρ c (Proc.devRef .tc main_v3) = W2 m ρ c (Proc.devRef .tc main_v3) from
    StableHlo.after_of_forall_not_mem (b := (Proc.devRef .tc main_v3)) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X2_v3 m ρ c)
theorem X3_v6 : W3 m ρ c (Proc.devRef .tc main_v6) = (dstOf (m ((c : Thread nD τ).loc main_arg1))) :=
  (show W3 m ρ c (Proc.devRef .tc main_v6) = W2 m ρ c (Proc.devRef .tc main_v6) from
    StableHlo.after_of_forall_not_mem (b := (Proc.devRef .tc main_v6)) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X2_v6 m ρ c)
theorem X3_arg0 : W3 m ρ c (Proc.devRef .tc main_arg0) = (m ((c : Thread nD τ).loc main_arg0)) :=
  (show W3 m ρ c (Proc.devRef .tc main_arg0) = W2 m ρ c (Proc.devRef .tc main_arg0) from
    StableHlo.after_of_forall_not_mem (b := (Proc.devRef .tc main_arg0)) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X2_arg0 m ρ c)
theorem X3_arg4 : W3 m ρ c (Proc.devRef .tc main_arg4) = (m ((c : Thread nD τ).loc main_arg4)) :=
  (show W3 m ρ c (Proc.devRef .tc main_arg4) = W2 m ρ c (Proc.devRef .tc main_arg4) from
    StableHlo.after_of_forall_not_mem (b := (Proc.devRef .tc main_arg4)) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X2_arg4 m ρ c)
theorem X3_arg5 : W3 m ρ c (Proc.devRef .tc main_arg5) = (m ((c : Thread nD τ).loc main_arg5)) :=
  (show W3 m ρ c (Proc.devRef .tc main_arg5) = W2 m ρ c (Proc.devRef .tc main_arg5) from
    StableHlo.after_of_forall_not_mem (b := (Proc.devRef .tc main_arg5)) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X2_arg5 m ρ c)
theorem X3_arg6 : W3 m ρ c (Proc.devRef .tc main_arg6) = (m ((c : Thread nD τ).loc main_arg6)) :=
  (show W3 m ρ c (Proc.devRef .tc main_arg6) = W2 m ρ c (Proc.devRef .tc main_arg6) from
    StableHlo.after_of_forall_not_mem (b := (Proc.devRef .tc main_arg6)) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X2_arg6 m ρ c)
theorem X3_arg7 : W3 m ρ c (Proc.devRef .tc main_arg7) = (m ((c : Thread nD τ).loc main_arg7)) :=
  (show W3 m ρ c (Proc.devRef .tc main_arg7) = W2 m ρ c (Proc.devRef .tc main_arg7) from
    StableHlo.after_of_forall_not_mem (b := (Proc.devRef .tc main_arg7)) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X2_arg7 m ρ c)
theorem X3_arg8 : W3 m ρ c (Proc.devRef .tc main_arg8) = (m ((c : Thread nD τ).loc main_arg8)) :=
  (show W3 m ρ c (Proc.devRef .tc main_arg8) = W2 m ρ c (Proc.devRef .tc main_arg8) from
    StableHlo.after_of_forall_not_mem (b := (Proc.devRef .tc main_arg8)) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X2_arg8 m ρ c)
theorem X3_arg9 : W3 m ρ c (Proc.devRef .tc main_arg9) = (m ((c : Thread nD τ).loc main_arg9)) :=
  (show W3 m ρ c (Proc.devRef .tc main_arg9) = W2 m ρ c (Proc.devRef .tc main_arg9) from
    StableHlo.after_of_forall_not_mem (b := (Proc.devRef .tc main_arg9)) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X2_arg9 m ρ c)

/-! ### Boundary 4 -/

theorem X4_v33 : W4 m ρ c (Proc.devRef .tc main_v33) = (proj1 (m ((c : Thread nD τ).loc main_arg0)) (m ((c : Thread nD τ).loc main_arg1)) (m ((c : Thread nD τ).loc main_arg2)) (m ((c : Thread nD τ).loc main_arg3)) (m ((c : Thread nD τ).loc main_arg4))) := by
  have e := RegionValue.proj96_array (V3 m ρ) c
  dsimp only [V3] at e
  rw [X3_arg0 m ρ c, X3_v31 m ρ c, X3_v32 m ρ c, X3_arg4 m ρ c, X3_v15 m ρ c] at e
  exact (W4_arr m ρ c 5).trans e
theorem X4_v15 : W4 m ρ c (Proc.devRef .tc main_v15) = (nodeCol (m ((c : Thread nD τ).loc main_arg1))) :=
  ((W4_arr m ρ c 4).trans (((dat0 (V3 m ρ) c).arrAt_in 4 rfl _).trans (A_eq0 (V3 m ρ) c 4))).trans (X3_v15 m ρ c)
theorem X4_v3 : W4 m ρ c (Proc.devRef .tc main_v3) = (srcOf (m ((c : Thread nD τ).loc main_arg1))) :=
  (W4_of_ne m ρ c main_v3 (by decide)).trans (X3_v3 m ρ c)
theorem X4_v6 : W4 m ρ c (Proc.devRef .tc main_v6) = (dstOf (m ((c : Thread nD τ).loc main_arg1))) :=
  (W4_of_ne m ρ c main_v6 (by decide)).trans (X3_v6 m ρ c)
theorem X4_arg5 : W4 m ρ c (Proc.devRef .tc main_arg5) = (m ((c : Thread nD τ).loc main_arg5)) :=
  (W4_of_ne m ρ c main_arg5 (by decide)).trans (X3_arg5 m ρ c)
theorem X4_arg6 : W4 m ρ c (Proc.devRef .tc main_arg6) = (m ((c : Thread nD τ).loc main_arg6)) :=
  (W4_of_ne m ρ c main_arg6 (by decide)).trans (X3_arg6 m ρ c)
theorem X4_arg7 : W4 m ρ c (Proc.devRef .tc main_arg7) = (m ((c : Thread nD τ).loc main_arg7)) :=
  (W4_of_ne m ρ c main_arg7 (by decide)).trans (X3_arg7 m ρ c)
theorem X4_arg8 : W4 m ρ c (Proc.devRef .tc main_arg8) = (m ((c : Thread nD τ).loc main_arg8)) :=
  (W4_of_ne m ρ c main_arg8 (by decide)).trans (X3_arg8 m ρ c)
theorem X4_arg9 : W4 m ρ c (Proc.devRef .tc main_arg9) = (m ((c : Thread nD τ).loc main_arg9)) :=
  (W4_of_ne m ρ c main_arg9 (by decide)).trans (X3_arg9 m ρ c)

/-! ### Boundary 5 -/

theorem X5_v43 : W5 m ρ c (Proc.devRef .tc main_v43) = (aggregate96 (proj1 (m ((c : Thread nD τ).loc main_arg0)) (m ((c : Thread nD τ).loc main_arg1)) (m ((c : Thread nD τ).loc main_arg2)) (m ((c : Thread nD τ).loc main_arg3)) (m ((c : Thread nD τ).loc main_arg4))) (srcOf (m ((c : Thread nD τ).loc main_arg1))) (dstOf (m ((c : Thread nD τ).loc main_arg1)))) :=
  (hostOps1_v43 (W4 m ρ c)).trans (by rw [X4_v33 m ρ c, X4_v3 m ρ c, X4_v6 m ρ c] <;> rfl)
theorem X5_v44 : W5 m ρ c (Proc.devRef .tc main_v44) = (biasRow96 (m ((c : Thread nD τ).loc main_arg5))) :=
  (hostOps1_v44 (W4 m ρ c)).trans (by rw [X4_arg5 m ρ c] <;> rfl)
theorem X5_v3 : W5 m ρ c (Proc.devRef .tc main_v3) = (srcOf (m ((c : Thread nD τ).loc main_arg1))) :=
  (show W5 m ρ c (Proc.devRef .tc main_v3) = W4 m ρ c (Proc.devRef .tc main_v3) from
    StableHlo.after_of_forall_not_mem (b := (Proc.devRef .tc main_v3)) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X4_v3 m ρ c)
theorem X5_v6 : W5 m ρ c (Proc.devRef .tc main_v6) = (dstOf (m ((c : Thread nD τ).loc main_arg1))) :=
  (show W5 m ρ c (Proc.devRef .tc main_v6) = W4 m ρ c (Proc.devRef .tc main_v6) from
    StableHlo.after_of_forall_not_mem (b := (Proc.devRef .tc main_v6)) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X4_v6 m ρ c)
theorem X5_v15 : W5 m ρ c (Proc.devRef .tc main_v15) = (nodeCol (m ((c : Thread nD τ).loc main_arg1))) :=
  (show W5 m ρ c (Proc.devRef .tc main_v15) = W4 m ρ c (Proc.devRef .tc main_v15) from
    StableHlo.after_of_forall_not_mem (b := (Proc.devRef .tc main_v15)) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X4_v15 m ρ c)
theorem X5_arg6 : W5 m ρ c (Proc.devRef .tc main_arg6) = (m ((c : Thread nD τ).loc main_arg6)) :=
  (show W5 m ρ c (Proc.devRef .tc main_arg6) = W4 m ρ c (Proc.devRef .tc main_arg6) from
    StableHlo.after_of_forall_not_mem (b := (Proc.devRef .tc main_arg6)) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X4_arg6 m ρ c)
theorem X5_arg7 : W5 m ρ c (Proc.devRef .tc main_arg7) = (m ((c : Thread nD τ).loc main_arg7)) :=
  (show W5 m ρ c (Proc.devRef .tc main_arg7) = W4 m ρ c (Proc.devRef .tc main_arg7) from
    StableHlo.after_of_forall_not_mem (b := (Proc.devRef .tc main_arg7)) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X4_arg7 m ρ c)
theorem X5_arg8 : W5 m ρ c (Proc.devRef .tc main_arg8) = (m ((c : Thread nD τ).loc main_arg8)) :=
  (show W5 m ρ c (Proc.devRef .tc main_arg8) = W4 m ρ c (Proc.devRef .tc main_arg8) from
    StableHlo.after_of_forall_not_mem (b := (Proc.devRef .tc main_arg8)) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X4_arg8 m ρ c)
theorem X5_arg9 : W5 m ρ c (Proc.devRef .tc main_arg9) = (m ((c : Thread nD τ).loc main_arg9)) :=
  (show W5 m ρ c (Proc.devRef .tc main_arg9) = W4 m ρ c (Proc.devRef .tc main_arg9) from
    StableHlo.after_of_forall_not_mem (b := (Proc.devRef .tc main_arg9)) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X4_arg9 m ρ c)

/-! ### Boundary 6 -/

theorem X6_v45 : W6 m ρ c (Proc.devRef .tc main_v45) = (hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have e := RegionValue.clip96_array (V5 m ρ) c
  dsimp only [V5] at e
  rw [X5_v43 m ρ c, X5_v15 m ρ c, X5_v44 m ρ c] at e
  exact (W6_arr m ρ c 3).trans e
theorem X6_v15 : W6 m ρ c (Proc.devRef .tc main_v15) = (nodeCol (m ((c : Thread nD τ).loc main_arg1))) :=
  ((W6_arr m ρ c 1).trans (((dat1 (V5 m ρ) c).arrAt_in 1 rfl _).trans (A_eq1 (V5 m ρ) c 1))).trans (X5_v15 m ρ c)
theorem X6_v3 : W6 m ρ c (Proc.devRef .tc main_v3) = (srcOf (m ((c : Thread nD τ).loc main_arg1))) :=
  (W6_of_ne m ρ c main_v3 (by decide)).trans (X5_v3 m ρ c)
theorem X6_v6 : W6 m ρ c (Proc.devRef .tc main_v6) = (dstOf (m ((c : Thread nD τ).loc main_arg1))) :=
  (W6_of_ne m ρ c main_v6 (by decide)).trans (X5_v6 m ρ c)
theorem X6_arg6 : W6 m ρ c (Proc.devRef .tc main_arg6) = (m ((c : Thread nD τ).loc main_arg6)) :=
  (W6_of_ne m ρ c main_arg6 (by decide)).trans (X5_arg6 m ρ c)
theorem X6_arg7 : W6 m ρ c (Proc.devRef .tc main_arg7) = (m ((c : Thread nD τ).loc main_arg7)) :=
  (W6_of_ne m ρ c main_arg7 (by decide)).trans (X5_arg7 m ρ c)
theorem X6_arg8 : W6 m ρ c (Proc.devRef .tc main_arg8) = (m ((c : Thread nD τ).loc main_arg8)) :=
  (W6_of_ne m ρ c main_arg8 (by decide)).trans (X5_arg8 m ρ c)
theorem X6_arg9 : W6 m ρ c (Proc.devRef .tc main_arg9) = (m ((c : Thread nD τ).loc main_arg9)) :=
  (W6_of_ne m ρ c main_arg9 (by decide)).trans (X5_arg9 m ρ c)

/-! ### Boundary 7 -/

theorem X7_v60 : W7 m ρ c (Proc.devRef .tc main_v60) = (lnScaleRow (hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) :=
  (hostOps2_v60 (W6 m ρ c)).trans (by rw [X6_v45 m ρ c, X6_arg6 m ρ c] <;> rfl)
theorem X7_v61 : W7 m ρ c (Proc.devRef .tc main_v61) = (lnShiftRow (hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7))) :=
  (hostOps2_v61 (W6 m ρ c)).trans (by rw [X6_v45 m ρ c, X6_arg6 m ρ c, X6_arg7 m ρ c] <;> rfl)
theorem X7_v45 : W7 m ρ c (Proc.devRef .tc main_v45) = (hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (show W7 m ρ c (Proc.devRef .tc main_v45) = W6 m ρ c (Proc.devRef .tc main_v45) from
    StableHlo.after_of_forall_not_mem (b := (Proc.devRef .tc main_v45)) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X6_v45 m ρ c)
theorem X7_v3 : W7 m ρ c (Proc.devRef .tc main_v3) = (srcOf (m ((c : Thread nD τ).loc main_arg1))) :=
  (show W7 m ρ c (Proc.devRef .tc main_v3) = W6 m ρ c (Proc.devRef .tc main_v3) from
    StableHlo.after_of_forall_not_mem (b := (Proc.devRef .tc main_v3)) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X6_v3 m ρ c)
theorem X7_v6 : W7 m ρ c (Proc.devRef .tc main_v6) = (dstOf (m ((c : Thread nD τ).loc main_arg1))) :=
  (show W7 m ρ c (Proc.devRef .tc main_v6) = W6 m ρ c (Proc.devRef .tc main_v6) from
    StableHlo.after_of_forall_not_mem (b := (Proc.devRef .tc main_v6)) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X6_v6 m ρ c)
theorem X7_v15 : W7 m ρ c (Proc.devRef .tc main_v15) = (nodeCol (m ((c : Thread nD τ).loc main_arg1))) :=
  (show W7 m ρ c (Proc.devRef .tc main_v15) = W6 m ρ c (Proc.devRef .tc main_v15) from
    StableHlo.after_of_forall_not_mem (b := (Proc.devRef .tc main_v15)) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X6_v15 m ρ c)
theorem X7_arg8 : W7 m ρ c (Proc.devRef .tc main_arg8) = (m ((c : Thread nD τ).loc main_arg8)) :=
  (show W7 m ρ c (Proc.devRef .tc main_arg8) = W6 m ρ c (Proc.devRef .tc main_arg8) from
    StableHlo.after_of_forall_not_mem (b := (Proc.devRef .tc main_arg8)) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X6_arg8 m ρ c)
theorem X7_arg9 : W7 m ρ c (Proc.devRef .tc main_arg9) = (m ((c : Thread nD τ).loc main_arg9)) :=
  (show W7 m ρ c (Proc.devRef .tc main_arg9) = W6 m ρ c (Proc.devRef .tc main_arg9) from
    StableHlo.after_of_forall_not_mem (b := (Proc.devRef .tc main_arg9)) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X6_arg9 m ρ c)

/-! ### Boundary 8 -/

theorem X8_v62 : W8 m ρ c (Proc.devRef .tc main_v62) = (proj2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  have e := RegionValue.proj64_array (V7 m ρ) c
  dsimp only [V7] at e
  rw [X7_v45 m ρ c, X7_v60 m ρ c, X7_v61 m ρ c, X7_arg8 m ρ c, X7_v15 m ρ c] at e
  exact (W8_arr m ρ c 5).trans e
theorem X8_v15 : W8 m ρ c (Proc.devRef .tc main_v15) = (nodeCol (m ((c : Thread nD τ).loc main_arg1))) :=
  ((W8_arr m ρ c 4).trans (((dat2 (V7 m ρ) c).arrAt_in 4 rfl _).trans (A_eq2 (V7 m ρ) c 4))).trans (X7_v15 m ρ c)
theorem X8_v3 : W8 m ρ c (Proc.devRef .tc main_v3) = (srcOf (m ((c : Thread nD τ).loc main_arg1))) :=
  (W8_of_ne m ρ c main_v3 (by decide)).trans (X7_v3 m ρ c)
theorem X8_v6 : W8 m ρ c (Proc.devRef .tc main_v6) = (dstOf (m ((c : Thread nD τ).loc main_arg1))) :=
  (W8_of_ne m ρ c main_v6 (by decide)).trans (X7_v6 m ρ c)
theorem X8_arg9 : W8 m ρ c (Proc.devRef .tc main_arg9) = (m ((c : Thread nD τ).loc main_arg9)) :=
  (W8_of_ne m ρ c main_arg9 (by decide)).trans (X7_arg9 m ρ c)

/-! ### Boundary 9 -/

theorem X9_v72 : W9 m ρ c (Proc.devRef .tc main_v72) = (aggregate64 (proj2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (srcOf (m ((c : Thread nD τ).loc main_arg1))) (dstOf (m ((c : Thread nD τ).loc main_arg1)))) :=
  (hostOps3_v72 (W8 m ρ c)).trans (by rw [X8_v62 m ρ c, X8_v3 m ρ c, X8_v6 m ρ c] <;> rfl)
theorem X9_v73 : W9 m ρ c (Proc.devRef .tc main_v73) = (biasRow64 (m ((c : Thread nD τ).loc main_arg9))) :=
  (hostOps3_v73 (W8 m ρ c)).trans (by rw [X8_arg9 m ρ c] <;> rfl)
theorem X9_v15 : W9 m ρ c (Proc.devRef .tc main_v15) = (nodeCol (m ((c : Thread nD τ).loc main_arg1))) :=
  (show W9 m ρ c (Proc.devRef .tc main_v15) = W8 m ρ c (Proc.devRef .tc main_v15) from
    StableHlo.after_of_forall_not_mem (b := (Proc.devRef .tc main_v15)) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (X8_v15 m ρ c)

/-! ### Boundary 10 -/

theorem X10_v74 : W10 m ρ c (Proc.devRef .tc main_v74) = (output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  have e := RegionValue.clip64_array (V9 m ρ) c
  dsimp only [V9] at e
  rw [X9_v72 m ρ c, X9_v15 m ρ c, X9_v73 m ρ c] at e
  exact (W10_arr m ρ c 3).trans e

/-- THE RESULT ARRAY: the fold's last stage at the result buffer is the network of the argument arrays. -/
theorem result_eq : W10 m ρ c (Proc.devRef .tc main_v74) = (output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := X10_v74 m ρ c

end Cert.KernelIdeal.FoldValue

end
-- ==== Proof.LibFiniteEntries.lean ====
/-
  A conjunction "every entry's absolute value is below +∞", read back at exact arithmetic.

  On the extended reals the absolute value of x is max(x, -x), and it is below +∞ exactly when x is neither infinity,
  that is, when x is (the image of) a real number: x = ↑(x.toReal). A precondition that takes the conjunction of
  |x_i| < +∞ over all entries of an array (a reduction by "and" of the one-bit comparisons into a single result, from the
  constant 1) and states that the result is 1 therefore says that the array is the image of its real parts.
  Stated for f32 arrays of any shape, the bound being any array that reads the word of +∞ (0x7F800000) everywhere.
-/
import Idealize.ShloMosaic.PureOps.Ideal
import Idealize.ShloMosaic.PureOps.Ideal.Laws
import Idealize.ShloMosaic.Lib.ReduceAll

noncomputable section

namespace LibFiniteEntries

open Idealize.ShloMosaic

/-- The word 0x7F800000 denotes +∞. -/
theorem ofBits_inf : Ideal.ofBits .f32 0x7F800000#32 = ⊤ := by
  simp [Ideal.ofBits, Ideal.ieee]

/-- An extended real whose absolute value max(x, -x) compares below +∞ is the image of its real part. -/
theorem real_of_abs_lt (x : EReal)
    (h : FloatOps.cmpf (F := Ideal) (φ := .f32) .olt (FloatOps.hostAbsf x) (Ideal.ofBits .f32 0x7F800000#32) = 1#1) :
    x = ((x.toReal : ℝ) : EReal) := by
  rw [Ideal.cmpf_def, Ideal.hostAbsf_def, Ideal.absf_def, ofBits_inf] at h
  induction x using EReal.rec with
  | bot => simp [Ideal.cmp] at h
  | top => simp [Ideal.cmp] at h
  | coe r => rfl

/-- The scalar shape has one index. -/
instance : Subsingleton (⟨0, ![]⟩ : Shape).Idx := ⟨fun a b => funext fun d => d.elim0⟩

/-- If the conjunction over ALL entries of "|x_i| < bound_i" is 1, the bound reading +∞ everywhere, then the array x is
    the image of its real parts. -/
theorem real_of_all_abs_lt {s t u : Shape} {axes : List (Fin s.rank)} [Subsingleton t.Idx] (x bound : FVec Ideal s .f32)
    (hb : ∀ i, bound i = Ideal.ofBits .f32 0x7F800000#32) (init : u.Idx → BitVec 1) (h : s.ReducesTo axes t) (hu : 0 < u.numel)
    (j : t.Idx) (e : Host.reduce IntOp.andi (cmpf .olt (Host.absf x) bound) init h hu j = 1#1) :
    x = fun i => (((x i).toReal : ℝ) : EReal) :=
  funext fun i => real_of_abs_lt (x i) (by
    have hi : FloatOps.cmpf (F := Ideal) (φ := .f32) .olt (FloatOps.hostAbsf (x i)) (bound i) = 1#1 :=
      Host.reduce_andi_all _ init h hu j e i
    rw [hb i] at hi
    exact hi)

end LibFiniteEntries

end
-- ==== Proof.LibERealMatrix.lean ====
/-
  General facts about finite sums and products of extended reals, as a matrix computation at exact
  arithmetic needs them.

  On the extended reals addition and multiplication are commutative and associative, so regrouping a
  sum (a reduction axis cut into blocks and accumulated block by block) needs no hypothesis. Distributing a
  product over a sum does need one: it fails at the infinities. A triple matrix product can therefore be
  re-associated, (sᵀ A) t = sᵀ (A t), once every entry is a real number; the proof passes to the reals, where
  it is the interchange of two finite sums.
-/
import Mathlib.Data.EReal.Operations
import Mathlib.Algebra.BigOperators.Fin
import Mathlib.Algebra.BigOperators.Ring.Finset
import Mathlib.Algebra.BigOperators.Group.Finset.Sigma
import Mathlib.Logic.Equiv.Fin.Basic
import Mathlib.Tactic.Ring

namespace LibERealMatrix

open Finset

/-- An extended real is FINITE when it is neither infinity: it is the image of a real number. -/
def Fin' (x : EReal) : Prop := x ≠ ⊤ ∧ x ≠ ⊥

theorem Fin'.coe (r : ℝ) : Fin' (r : EReal) := ⟨EReal.coe_ne_top r, EReal.coe_ne_bot r⟩

theorem Fin'.exists_real {x : EReal} (h : Fin' x) : ∃ r : ℝ, x = (r : EReal) :=
  ⟨x.toReal, (EReal.coe_toReal h.1 h.2).symm⟩

/-- A family of finite extended reals is the image of a family of reals. -/
theorem exists_real_family {ι : Type*} (f : ι → EReal) (h : ∀ i, Fin' (f i)) :
    ∃ g : ι → ℝ, ∀ i, f i = (g i : EReal) :=
  ⟨fun i => (f i).toReal, fun i => (EReal.coe_toReal (h i).1 (h i).2).symm⟩

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.add {x y : EReal} (hx : Fin' x) (hy : Fin' y) : Fin' (x + y) := by
  obtain ⟨a, rfl⟩ := hx.exists_real
  obtain ⟨b, rfl⟩ := hy.exists_real
  rw [← EReal.coe_add]; exact Fin'.coe _

theorem Fin'.mul {x y : EReal} (hx : Fin' x) (hy : Fin' y) : Fin' (x * y) := by
  obtain ⟨a, rfl⟩ := hx.exists_real
  obtain ⟨b, rfl⟩ := hy.exists_real
  rw [← EReal.coe_mul]; exact Fin'.coe _

/-- A finite sum of finite extended reals is finite. -/
theorem Fin'.sum {ι : Type*} (s : Finset ι) (f : ι → EReal) (h : ∀ i, Fin' (f i)) :
    Fin' (∑ i ∈ s, f i) := by
  obtain ⟨g, hg⟩ := exists_real_family f h
  simp only [hg]
  rw [← coe_sum]; exact Fin'.coe _

/-- A sum over `Fin (n * b)` is the sum over the `n` blocks of the sums over the `b` positions inside a
    block; the element at block `k`, position `r` is the one numbered `r + b * k`. No hypothesis: only
    commutativity and associativity of the addition are used. -/
theorem sum_fin_mul {M : Type*} [AddCommMonoid M] (n b : ℕ) (f : Fin (n * b) → M) :
    ∑ x, f x = ∑ k : Fin n, ∑ r : Fin b, f (finProdFinEquiv (k, r)) :=
  ((finProdFinEquiv (m := n) (n := b)).sum_comp f).symm.trans (Fintype.sum_prod_type _)

theorem finProdFinEquiv_val (n b : ℕ) (k : Fin n) (r : Fin b) :
    ((finProdFinEquiv (k, r) : Fin (n * b)) : ℕ) = r.val + b * k.val := rfl

/-- A scalar product whose index set is cut into `n` blocks of `b` is the sum of the `n` partial scalar
    products, whatever the entries (infinite ones included). -/
theorem dot_blocked (n b : ℕ) (u v : Fin (n * b) → EReal) :
    ∑ x, u x * v x = ∑ k : Fin n, ∑ r : Fin b, u (finProdFinEquiv (k, r)) * v (finProdFinEquiv (k, r)) :=
  sum_fin_mul n b fun x => u x * v x

/-- The same over ranges of naturals: the numbers below `n * b` are the `r + b * s` with `s < n`, `r < b`. -/
theorem sum_range_mul {M : Type*} [AddCommMonoid M] (n b : ℕ) (f : ℕ → M) :
    ∑ J ∈ range (n * b), f J = ∑ s ∈ range n, ∑ r ∈ range b, f (r + b * s) := by
  rw [← Fin.sum_univ_eq_sum_range f (n * b), sum_fin_mul n b (fun x => f x.val),
    ← Fin.sum_univ_eq_sum_range (fun s => ∑ r ∈ range b, f (r + b * s)) n]
  refine Finset.sum_congr rfl fun s _ => ?_
  rw [← Fin.sum_univ_eq_sum_range (fun r => f (r + b * s.val)) b]
  rfl

/-- An accumulator that starts at zero and takes four partial sums in turn ends at their sum. -/
theorem acc_four {M : Type*} [AddCommMonoid M] (d : Fin 4 → M) :
    (((0 + d 0) + d 1) + d 2) + d 3 = ∑ k, d k := by
  rw [Fin.sum_univ_four, zero_add]

/-- Re-association of a triple product of matrices with FINITE entries:
    `∑ j, (∑ i, s i * A i j) * t j = ∑ i, s i * ∑ j, A i j * t j`. With an infinite entry this fails
    (the product does not distribute over a sum of opposite infinities). -/
theorem sum_mul_sum_assoc {ι κ : Type*} [Fintype ι] [Fintype κ]
    (s : ι → EReal) (A : ι → κ → EReal) (t : κ → EReal)
    (hs : ∀ i, Fin' (s i)) (hA : ∀ i j, Fin' (A i j)) (ht : ∀ j, Fin' (t j)) :
    ∑ j, (∑ i, s i * A i j) * t j = ∑ i, s i * ∑ j, A i j * t j := by
  obtain ⟨s', hs'⟩ := exists_real_family s hs
  obtain ⟨A', hA'⟩ : ∃ g : ι → κ → ℝ, ∀ i j, A i j = (g i j : EReal) :=
    ⟨fun i j => (A i j).toReal, fun i j => (EReal.coe_toReal (hA i j).1 (hA i j).2).symm⟩
  obtain ⟨t', ht'⟩ := exists_real_family t ht
  have hL : ∀ j, (∑ i, s i * A i j) * t j = (((∑ i, s' i * A' i j) * t' j : ℝ) : EReal) := by
    intro j
    rw [EReal.coe_mul, coe_sum, ht']
    refine congrArg (· * (t' j : EReal)) (Finset.sum_congr rfl fun i _ => ?_)
    rw [hs', hA', EReal.coe_mul]
  have hR : ∀ i, s i * ∑ j, A i j * t j = ((s' i * ∑ j, A' i j * t' j : ℝ) : EReal) := by
    intro i
    rw [EReal.coe_mul, coe_sum, hs']
    refine congrArg ((s' i : EReal) * ·) (Finset.sum_congr rfl fun j _ => ?_)
    rw [hA', ht', EReal.coe_mul]
  simp only [hL, hR]
  rw [← coe_sum, ← coe_sum]
  refine congrArg _ ?_
  simp only [Finset.sum_mul, Finset.mul_sum]
  rw [Finset.sum_comm]
  exact Finset.sum_congr rfl fun i _ => Finset.sum_congr rfl fun j _ => by ring

end LibERealMatrix
-- ==== Proof.LibIdealFinite.lean ====
/-
  A finiteness calculus for the exact-arithmetic reading of a program's operations.

  At exact arithmetic a float value is an extended real. Sums and products of extended reals commute and
  associate, but a product distributes over a sum only away from the infinities; so a matrix computation can
  be re-associated once every entry is known to be a real number. This file proves that the operations a
  host program is made of keep entries real ("finite": neither infinity):

  * elementwise sums, differences, products and maxima of finite entries are finite;
  * a re-indexing (broadcast, transpose, slice, reshape, concatenation) only moves entries;
  * a contraction (a finite sum of products) and a sum along axes of finite entries are finite, and a sum of
    non-negative entries from zero is non-negative;
  * a quotient of a finite entry by a nonzero real is finite, and non-negative if the entry is non-negative
    and the divisor positive;
  * the reciprocal square root of a positive real is a positive real;
  * the exponential of a real is a positive real;
  * a maximum along a non-empty axis of finite entries, started from minus infinity, is finite;
  * a row of positive reals divided by its sum is a row of reals (the normalisation of a softmax).

  Nothing here mentions a particular program.
-/
import Idealize.ShloMosaic.PureOps.Ideal.Laws
import proofs.«180567_j38208029065461_2_alg».proof.Proof.LibERealMatrix

noncomputable section

namespace LibIdealFinite

open Idealize.ShloMosaic LibERealMatrix

/-! ### Finite extended reals -/

theorem fin_zero : Fin' (0 : EReal) := by
  have h := Fin'.coe 0
  rwa [EReal.coe_zero] at h

theorem fin_neg {x : EReal} (hx : Fin' x) : Fin' (-x) := by
  obtain ⟨a, rfl⟩ := hx.exists_real
  rw [← EReal.coe_neg]; exact Fin'.coe _

theorem fin_sub {x y : EReal} (hx : Fin' x) (hy : Fin' y) : Fin' (x - y) := by
  obtain ⟨a, rfl⟩ := hx.exists_real
  obtain ⟨b, rfl⟩ := hy.exists_real
  rw [← EReal.coe_sub]; exact Fin'.coe _

theorem fin_max {x y : EReal} (hx : Fin' x) (hy : Fin' y) : Fin' (max x y) := by
  rcases max_choice x y with h | h <;> rw [h] <;> assumption

theorem fin_min {x y : EReal} (hx : Fin' x) (hy : Fin' y) : Fin' (min x y) := by
  rcases min_choice x y with h | h <;> rw [h] <;> assumption

/-- A finite extended real that is positive is the image of a positive real. -/
theorem fin_exists_pos_real {x : EReal} (hx : Fin' x) (h0 : 0 < x) : ∃ r : ℝ, 0 < r ∧ x = (r : EReal) := by
  obtain ⟨a, rfl⟩ := hx.exists_real
  exact ⟨a, EReal.coe_pos.mp h0, rfl⟩

/-- A finite extended real that is non-negative is the image of a non-negative real. -/
theorem fin_exists_nonneg_real {x : EReal} (hx : Fin' x) (h0 : 0 ≤ x) : ∃ r : ℝ, 0 ≤ r ∧ x = (r : EReal) := by
  obtain ⟨a, rfl⟩ := hx.exists_real
  exact ⟨a, EReal.coe_nonneg.mp h0, rfl⟩

/-- The square of a finite extended real is non-negative. -/
theorem fin_mul_self_nonneg {x : EReal} (hx : Fin' x) : 0 ≤ x * x := by
  obtain ⟨a, rfl⟩ := hx.exists_real
  rw [← EReal.coe_mul]; exact EReal.coe_nonneg.mpr (mul_self_nonneg a)

/-- The sum of a non-negative and a positive finite extended real is positive. -/
theorem add_pos_of_nonneg_of_pos' {x y : EReal} (hx : 0 ≤ x) (hy : 0 < y) : 0 < x + y :=
  lt_of_lt_of_le hy (le_add_of_nonneg_left hx)

/-! ### Vectors with finite entries -/

/-- Every entry of the vector is a real number. -/
def AllFin {s : Shape} (v : s.Idx → EReal) : Prop := ∀ i, Fin' (v i)

section Elementwise
variable {s : Shape} {φ : FTy}

theorem allFin_addf {a b : FVec Ideal s φ} (ha : AllFin a) (hb : AllFin b) : AllFin (addf (F := Ideal) a b) :=
  fun i => (ha i).add (hb i)

theorem allFin_subf {a b : FVec Ideal s φ} (ha : AllFin a) (hb : AllFin b) : AllFin (subf (F := Ideal) a b) :=
  fun i => fin_sub (ha i) (hb i)

theorem allFin_mulf {a b : FVec Ideal s φ} (ha : AllFin a) (hb : AllFin b) : AllFin (mulf (F := Ideal) a b) :=
  fun i => (ha i).mul (hb i)

theorem allFin_maximumf {a b : FVec Ideal s φ} (ha : AllFin a) (hb : AllFin b) :
    AllFin (maximumf (F := Ideal) a b) :=
  fun i => fin_max (ha i) (hb i)

theorem allFin_minimumf {a b : FVec Ideal s φ} (ha : AllFin a) (hb : AllFin b) :
    AllFin (minimumf (F := Ideal) a b) :=
  fun i => fin_min (ha i) (hb i)

theorem allFin_negf {a : FVec Ideal s φ} (ha : AllFin a) : AllFin (negf (F := Ideal) a) :=
  fun i => fin_neg (ha i)

/-- The entries of an elementwise sum, difference, product and maximum, spelled out. -/
theorem addf_apply (a b : FVec Ideal s φ) (i : s.Idx) : addf (F := Ideal) a b i = a i + b i := rfl
theorem subf_apply (a b : FVec Ideal s φ) (i : s.Idx) : subf (F := Ideal) a b i = a i - b i := rfl
theorem mulf_apply (a b : FVec Ideal s φ) (i : s.Idx) : mulf (F := Ideal) a b i = a i * b i := rfl
theorem maximumf_apply (a b : FVec Ideal s φ) (i : s.Idx) : maximumf (F := Ideal) a b i = max (a i) (b i) := rfl

/-- A square of finite entries has non-negative entries. -/
theorem mulf_self_nonneg {d : FVec Ideal s φ} (hd : AllFin d) (i : s.Idx) : 0 ≤ mulf (F := Ideal) d d i :=
  fin_mul_self_nonneg (hd i)

/-- A maximum against a non-negative vector (a rectifier's zero) is non-negative. -/
theorem maximumf_nonneg_right (a b : FVec Ideal s φ) (hb : ∀ i, 0 ≤ b i) (i : s.Idx) :
    0 ≤ maximumf (F := Ideal) a b i :=
  le_max_of_le_right (hb i)

theorem maximumf_nonneg_left (a b : FVec Ideal s φ) (ha : ∀ i, 0 ≤ a i) (i : s.Idx) :
    0 ≤ maximumf (F := Ideal) a b i :=
  le_max_of_le_left (ha i)

end Elementwise

/-! ### Contractions and sums along axes -/

section Contract

/-- A host contraction of finite operands is finite: each entry is a finite sum of products. -/
theorem allFin_dotGeneral {sl sr so : Shape} {φ₁ φ₂ : FTy} (d : DotDims sl sr so) (prec : Option ContractPrecision)
    {l : FVec Ideal sl φ₁} {r : FVec Ideal sr φ₂} (hl : AllFin l) (hr : AllFin r) :
    AllFin (Host.dotGeneral (F := Ideal) d prec l r) := by
  intro j
  show Fin' (FloatOps.dotGeneral (F := Ideal) d prec .single l r j)
  rw [Ideal.dotGeneral_apply]
  exact Fin'.sum _ _ fun k => (hl _).mul (hr _)

/-- The same from a description of the entries as sums of products, whatever the index type of the sum. -/
theorem allFin_of_sum_mul {sl sr so : Shape} {κ : Type*} [Fintype κ] {l : sl.Idx → EReal} {r : sr.Idx → EReal}
    (res : so.Idx → EReal) (li : so.Idx → κ → sl.Idx) (ri : so.Idx → κ → sr.Idx)
    (h : ∀ i, res i = ∑ k, l (li i k) * r (ri i k)) (hl : AllFin l) (hr : AllFin r) : AllFin res := by
  intro i
  rw [h i]
  exact Fin'.sum _ _ fun k => (hl _).mul (hr _)

/-- A kernel's contraction onto a finite accumulator is finite as well. -/
theorem allFin_matmul {sl sr so : Shape} {φ₁ φ₂ : FTy} (d : DotDims sl sr so) (prec : Option ContractPrecision)
    {l : FVec Ideal sl φ₁} {r : FVec Ideal sr φ₂} {acc : FVec Ideal so .f32} (hl : AllFin l) (hr : AllFin r)
    (hacc : AllFin acc) : AllFin (matmul (F := Ideal) d prec l r acc) := by
  intro j
  show Fin' (FloatOps.matmul (F := Ideal) d prec l r acc j)
  rw [Ideal.matmul_apply]
  exact (hacc j).add (Fin'.sum _ _ fun k => (hl _).mul (hr _))

variable {s t u : Shape} {φ : FTy} {axes : List (Fin s.rank)}

/-- An entry of a host sum along axes: the initial value plus the sum of the entries that reduce to it. -/
theorem reduceAdd_apply (x : FVec Ideal s φ) (init : u.Idx → Ideal φ) (h : s.ReducesTo axes t) (hu : 0 < u.numel)
    (j : t.Idx) :
    Host.reduceAdd (F := Ideal) x init h hu j
      = init (Shape.Idx.first hu) + ∑ i ∈ Finset.univ.filter (fun i => h.drop i = j), x i := rfl

/-- A host sum along axes of finite entries, from a finite initial value, is finite. -/
theorem allFin_reduceAdd {x : FVec Ideal s φ} {init : u.Idx → Ideal φ} (h : s.ReducesTo axes t) (hu : 0 < u.numel)
    (hx : AllFin x) (hinit : Fin' (init (Shape.Idx.first hu))) :
    AllFin (Host.reduceAdd (F := Ideal) x init h hu) := by
  intro j
  rw [reduceAdd_apply]
  exact hinit.add (Fin'.sum _ _ fun i => hx i)

/-- A host sum along axes of non-negative entries, from zero, is non-negative. -/
theorem reduceAdd_nonneg {x : FVec Ideal s φ} {init : u.Idx → Ideal φ} (h : s.ReducesTo axes t) (hu : 0 < u.numel)
    (hx : ∀ i, 0 ≤ x i) (hinit : init (Shape.Idx.first hu) = 0) (j : t.Idx) :
    0 ≤ Host.reduceAdd (F := Ideal) x init h hu j := by
  rw [reduceAdd_apply, hinit, zero_add]
  exact Finset.sum_nonneg fun i _ => hx i

/-- A host sum along axes of positive entries, from zero, is positive wherever some entry reduces to the index. -/
theorem reduceAdd_pos {x : FVec Ideal s φ} {init : u.Idx → Ideal φ} (h : s.ReducesTo axes t) (hu : 0 < u.numel)
    (hx : ∀ i, 0 < x i) (hinit : init (Shape.Idx.first hu) = 0) (j : t.Idx) (hj : ∃ i, h.drop i = j) :
    0 < Host.reduceAdd (F := Ideal) x init h hu j := by
  rw [reduceAdd_apply, hinit, zero_add]
  obtain ⟨i₀, hi₀⟩ := hj
  have hmem : i₀ ∈ Finset.univ.filter (fun i => h.drop i = j) := Finset.mem_filter.2 ⟨Finset.mem_univ _, hi₀⟩
  rw [← Finset.add_sum_erase _ _ hmem]
  exact lt_of_lt_of_le (hx i₀) (le_add_of_nonneg_right (Finset.sum_nonneg fun i _ => (hx i).le))

/-- Along ONE axis of positive extent every result index has an entry reducing to it. -/
theorem exists_drop_eq {a : Fin s.rank} (h' : s.ReducesTo [a] t) (h : s.Reduces [a] t) (ha : 0 < s.size a) (j : t.Idx) :
    ∃ i, h'.drop i = j :=
  ⟨h.lift j ⟨0, ha⟩, by rw [Shape.ReducesTo.drop_eq_drop h' h]; exact h.drop_lift j _⟩

end Contract

/-! ### Re-indexings: the entries of the result are entries of the operand -/

section Reindex

/-- Every entry of `b` is an entry of `w`. What a broadcast, a transpose, a slice or a reshape does. -/
def EntriesOf {ι κ α : Type*} (b : ι → α) (w : κ → α) : Prop := ∀ i, ∃ j, b i = w j

theorem EntriesOf.refl {ι α : Type*} (w : ι → α) : EntriesOf w w := fun i => ⟨i, rfl⟩

theorem EntriesOf.trans {ι κ μ α : Type*} {a : ι → α} {b : κ → α} {c : μ → α} (hab : EntriesOf a b)
    (hbc : EntriesOf b c) : EntriesOf a c := fun i => by
  obtain ⟨j, hj⟩ := hab i
  obtain ⟨k, hk⟩ := hbc j
  exact ⟨k, hj.trans hk⟩

/-- Any property of single entries passes from the operand to the result. -/
theorem EntriesOf.forall {ι κ α : Type*} {b : ι → α} {w : κ → α} (h : EntriesOf b w) (P : α → Prop)
    (hw : ∀ j, P (w j)) (i : ι) : P (b i) := by
  obtain ⟨j, hj⟩ := h i
  rw [hj]; exact hw j

variable {s t : Shape} {α : Type}

theorem entriesOf_broadcastInDim (t : Shape) (dims : Fin s.rank → Fin t.rank) (h : s.BroadcastsInDim t dims)
    (x : s.Idx → α) : EntriesOf (broadcastInDim t dims h x) x := fun _ => ⟨_, rfl⟩

theorem entriesOf_broadcastTo (t : Shape) (x : s.Idx → α) (h : s.Broadcasts t) : EntriesOf (broadcastTo t x h) x :=
  fun _ => ⟨_, rfl⟩

theorem entriesOf_transpose (t : Shape) (perm : List (Fin s.rank)) (x : s.Idx → α) (h : s.Transposes perm t) :
    EntriesOf (transpose t perm x h) x := fun _ => ⟨_, rfl⟩

theorem entriesOf_shapeCast (t : Shape) (x : s.Idx → α) (h : s.ShapeCasts t) : EntriesOf (shapeCast t x h) x :=
  fun _ => ⟨_, rfl⟩

theorem entriesOf_extractStridedSlice (t : Shape) (off : Fin s.rank → Nat) (x : s.Idx → α) (h : s.Slices off t) :
    EntriesOf (extractStridedSlice t off x h) x := fun _ => ⟨_, rfl⟩

theorem entriesOf_hostSlice (t : Shape) (start strides : Fin s.rank → Nat) (x : s.Idx → α)
    (h : s.SlicesBy start strides t) : EntriesOf (Host.slice t start strides x h) x := fun _ => ⟨_, rfl⟩

/-- Every entry of a concatenation is an entry of one of the pieces. -/
theorem concatenate_entry (t : Shape) (a : Fin t.rank) (xs : List ((s : Shape) × (s.Idx → α)))
    (h : Shape.Concatenates (xs.map (·.1)) t a) (j : t.Idx) : ∃ p ∈ xs, ∃ i, concatenate t a xs h j = p.2 i := by
  unfold concatenate
  exact ⟨_, List.getElem_mem _, _, rfl⟩

theorem allFin_of_entriesOf {ι : Type*} {b : s.Idx → EReal} {w : ι → EReal} (h : EntriesOf b w)
    (hw : ∀ j, Fin' (w j)) : AllFin b := h.forall Fin' hw

theorem allFin_broadcastInDim (t : Shape) (dims : Fin s.rank → Fin t.rank) (h : s.BroadcastsInDim t dims)
    {x : s.Idx → EReal} (hx : AllFin x) : AllFin (broadcastInDim t dims h x) := fun _ => hx _

theorem allFin_broadcastTo (t : Shape) {x : s.Idx → EReal} (h : s.Broadcasts t) (hx : AllFin x) :
    AllFin (broadcastTo t x h) := fun _ => hx _

theorem allFin_transpose (t : Shape) (perm : List (Fin s.rank)) {x : s.Idx → EReal} (h : s.Transposes perm t)
    (hx : AllFin x) : AllFin (transpose t perm x h) := fun _ => hx _

theorem allFin_shapeCast (t : Shape) {x : s.Idx → EReal} (h : s.ShapeCasts t) (hx : AllFin x) :
    AllFin (shapeCast t x h) := fun _ => hx _

theorem allFin_extractStridedSlice (t : Shape) (off : Fin s.rank → Nat) {x : s.Idx → EReal} (h : s.Slices off t)
    (hx : AllFin x) : AllFin (extractStridedSlice t off x h) := fun _ => hx _

theorem allFin_hostSlice (t : Shape) (start strides : Fin s.rank → Nat) {x : s.Idx → EReal}
    (h : s.SlicesBy start strides t) (hx : AllFin x) : AllFin (Host.slice t start strides x h) := fun _ => hx _

/-- A concatenation of vectors with finite entries has finite entries. -/
theorem allFin_concatenate (t : Shape) (a : Fin t.rank) (xs : List ((s : Shape) × (s.Idx → EReal)))
    (h : Shape.Concatenates (xs.map (·.1)) t a) (hxs : ∀ p ∈ xs, AllFin p.2) : AllFin (concatenate t a xs h) := by
  intro j
  obtain ⟨p, hp, i, hi⟩ := concatenate_entry t a xs h j
  rw [hi]; exact hxs p hp i

/-- The concatenation of two pieces. -/
theorem allFin_concatenate₂ (t : Shape) (a : Fin t.rank) {s₁ s₂ : Shape} {x₁ : s₁.Idx → EReal} {x₂ : s₂.Idx → EReal}
    (h : Shape.Concatenates (([⟨s₁, x₁⟩, ⟨s₂, x₂⟩] : List ((s : Shape) × (s.Idx → EReal))).map (·.1)) t a)
    (h₁ : AllFin x₁) (h₂ : AllFin x₂) : AllFin (concatenate t a [⟨s₁, x₁⟩, ⟨s₂, x₂⟩] h) := by
  refine allFin_concatenate t a _ h fun p hp => ?_
  rcases List.mem_cons.1 hp with rfl | hp
  · exact h₁
  · rcases List.mem_cons.1 hp with rfl | hp
    · exact h₂
    · exact absurd hp (List.not_mem_nil)

/-- Positivity, non-negativity and being nonzero pass through a broadcast as well. -/
theorem broadcastInDim_pos (t : Shape) (dims : Fin s.rank → Fin t.rank) (h : s.BroadcastsInDim t dims)
    {x : s.Idx → EReal} (hx : ∀ i, 0 < x i) (j : t.Idx) : 0 < broadcastInDim t dims h x j := hx _

theorem broadcastInDim_nonneg (t : Shape) (dims : Fin s.rank → Fin t.rank) (h : s.BroadcastsInDim t dims)
    {x : s.Idx → EReal} (hx : ∀ i, 0 ≤ x i) (j : t.Idx) : 0 ≤ broadcastInDim t dims h x j := hx _

theorem broadcastInDim_ne_zero (t : Shape) (dims : Fin s.rank → Fin t.rank) (h : s.BroadcastsInDim t dims)
    {x : s.Idx → EReal} (hx : ∀ i, x i ≠ 0) (j : t.Idx) : broadcastInDim t dims h x j ≠ 0 := hx _

/-- A broadcast of a vector all of whose entries are one value has that value everywhere. -/
theorem broadcastInDim_eq_const (t : Shape) (dims : Fin s.rank → Fin t.rank) (h : s.BroadcastsInDim t dims)
    {x : s.Idx → α} {c : α} (hx : ∀ i, x i = c) (j : t.Idx) : broadcastInDim t dims h x j = c := hx _

end Reindex

/-! ### Quotients, reciprocal square roots, exponentials -/

section Scalars

/-- The quotient of a finite extended real by a nonzero finite one is finite. -/
theorem fin_div {x y : EReal} (hx : Fin' x) (hy : Fin' y) (h0 : y ≠ 0) : Fin' (Ideal.div x y) := by
  obtain ⟨a, rfl⟩ := hx.exists_real
  obtain ⟨b, rfl⟩ := hy.exists_real
  have hb : b ≠ 0 := fun h => h0 (by rw [h, EReal.coe_zero])
  rw [Ideal.div_coe hb, ← EReal.coe_mul]; exact Fin'.coe _

/-- The quotient of a real by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem div_nonneg_of_fin {x y : EReal} (hx : Fin' x) (hy : Fin' y) (hx0 : 0 ≤ x) (hy0 : 0 < y) :
    0 ≤ Ideal.div x y := by
  obtain ⟨a, ha, rfl⟩ := fin_exists_nonneg_real hx hx0
  obtain ⟨b, hb, rfl⟩ := fin_exists_pos_real hy hy0
  rw [div_coe_coe a hb.ne']
  exact EReal.coe_nonneg.mpr (div_nonneg ha hb.le)

theorem div_pos_of_fin {x y : EReal} (hx : Fin' x) (hy : Fin' y) (hx0 : 0 < x) (hy0 : 0 < y) :
    0 < Ideal.div x y := by
  obtain ⟨a, ha, rfl⟩ := fin_exists_pos_real hx hx0
  obtain ⟨b, hb, rfl⟩ := fin_exists_pos_real hy hy0
  rw [div_coe_coe a hb.ne']
  exact EReal.coe_pos.mpr (div_pos ha hb)

/-- The reciprocal square root of a positive real is a positive real. -/
theorem fin_rsqrt {x : EReal} (hx : Fin' x) (h0 : 0 < x) : Fin' (Ideal.rsqrt x) ∧ 0 < Ideal.rsqrt x := by
  obtain ⟨r, hr, rfl⟩ := fin_exists_pos_real hx h0
  rw [Ideal.rsqrt_coe, if_neg (not_lt.mpr hr.le), if_neg hr.ne']
  exact ⟨Fin'.coe _, EReal.coe_pos.mpr (inv_pos.mpr (Real.sqrt_pos.mpr hr))⟩

/-- The exponential of a real is a positive real. -/
theorem fin_exp {x : EReal} (hx : Fin' x) : Fin' (Ideal.exp x) ∧ 0 < Ideal.exp x := by
  obtain ⟨r, rfl⟩ := hx.exists_real
  rw [Ideal.exp_coe]
  exact ⟨Fin'.coe _, EReal.coe_pos.mpr (Real.exp_pos r)⟩

end Scalars

section Unary
variable {s : Shape} {φ : FTy}

theorem hostDivf_apply (a b : FVec Ideal s φ) (i : s.Idx) : Host.divf (F := Ideal) a b i = Ideal.div (a i) (b i) := rfl
theorem hostRsqrt_apply (v : FVec Ideal s φ) (i : s.Idx) : Host.rsqrt (F := Ideal) v i = Ideal.rsqrt (v i) := rfl
theorem hostExp_apply (v : FVec Ideal s φ) (i : s.Idx) : Host.exp (F := Ideal) v i = Ideal.exp (v i) := rfl

/-- A host quotient of finite entries by finite nonzero entries is finite. -/
theorem allFin_hostDivf {a b : FVec Ideal s φ} (ha : AllFin a) (hb : AllFin b) (hb0 : ∀ i, b i ≠ 0) :
    AllFin (Host.divf (F := Ideal) a b) := fun i => fin_div (ha i) (hb i) (hb0 i)

/-- A host quotient by a vector all of whose entries are one nonzero real (the broadcast of a constant). -/
theorem allFin_hostDivf_const {a b : FVec Ideal s φ} {c : ℝ} (ha : AllFin a) (hb : ∀ i, b i = (c : EReal))
    (hc : c ≠ 0) : AllFin (Host.divf (F := Ideal) a b) := fun i =>
  fin_div (ha i) (by rw [hb i]; exact Fin'.coe c) (by rw [hb i]; exact_mod_cast hc)

theorem hostDivf_nonneg {a b : FVec Ideal s φ} (ha : AllFin a) (hb : AllFin b) (ha0 : ∀ i, 0 ≤ a i)
    (hb0 : ∀ i, 0 < b i) (i : s.Idx) : 0 ≤ Host.divf (F := Ideal) a b i :=
  div_nonneg_of_fin (ha i) (hb i) (ha0 i) (hb0 i)

theorem hostDivf_pos {a b : FVec Ideal s φ} (ha : AllFin a) (hb : AllFin b) (ha0 : ∀ i, 0 < a i)
    (hb0 : ∀ i, 0 < b i) (i : s.Idx) : 0 < Host.divf (F := Ideal) a b i :=
  div_pos_of_fin (ha i) (hb i) (ha0 i) (hb0 i)

/-- Non-negative finite entries divided by one positive real stay non-negative. -/
theorem hostDivf_const_nonneg {a b : FVec Ideal s φ} {c : ℝ} (ha : AllFin a) (ha0 : ∀ i, 0 ≤ a i)
    (hb : ∀ i, b i = (c : EReal)) (hc : 0 < c) (i : s.Idx) : 0 ≤ Host.divf (F := Ideal) a b i :=
  div_nonneg_of_fin (ha i) (by rw [hb i]; exact Fin'.coe c) (ha0 i) (by rw [hb i]; exact EReal.coe_pos.mpr hc)

/-- The host's reciprocal square root of positive reals: positive reals. -/
theorem allFin_hostRsqrt {v : FVec Ideal s φ} (hv : AllFin v) (h0 : ∀ i, 0 < v i) : AllFin (Host.rsqrt (F := Ideal) v) :=
  fun i => (fin_rsqrt (hv i) (h0 i)).1

theorem hostRsqrt_pos {v : FVec Ideal s φ} (hv : AllFin v) (h0 : ∀ i, 0 < v i) (i : s.Idx) :
    0 < Host.rsqrt (F := Ideal) v i := (fin_rsqrt (hv i) (h0 i)).2

/-- The host's exponential of reals: positive reals. -/
theorem allFin_hostExp {v : FVec Ideal s φ} (hv : AllFin v) : AllFin (Host.exp (F := Ideal) v) :=
  fun i => (fin_exp (hv i)).1

theorem hostExp_pos {v : FVec Ideal s φ} (hv : AllFin v) (i : s.Idx) : 0 < Host.exp (F := Ideal) v i :=
  (fin_exp (hv i)).2

/-- A sum of a non-negative and a positive vector (a variance plus a positive constant) is positive. -/
theorem addf_pos_of_nonneg_of_pos {a b : FVec Ideal s φ} (ha : ∀ i, 0 ≤ a i) (hb : ∀ i, 0 < b i) (i : s.Idx) :
    0 < addf (F := Ideal) a b i := add_pos_of_nonneg_of_pos' (ha i) (hb i)

end Unary

/-! ### A maximum along axes -/

section ReduceMax
variable {s t u : Shape} {φ : FTy} {axes : List (Fin s.rank)}

/-- An entry of a host maximum along axes: the maximum, from the initial value, over the entries that reduce
    to it, in any order. -/
theorem reduceMax_apply (x : FVec Ideal s φ) (init : u.Idx → Ideal φ) (h : s.ReducesTo axes t) (hu : 0 < u.numel)
    (j : t.Idx) :
    Host.reduce (FloatOps.maximumf (F := Ideal) (φ := φ)) x init h hu j
      = (Finset.univ.filter fun i => h.drop i = j).fold max (init (Shape.Idx.first hu)) x :=
  Host.reduce_eq_fold _ x init h hu j

/-- A host maximum along axes of finite entries, from an initial value that is not plus infinity (minus
    infinity, usually), is finite wherever some entry reduces to the index. -/
theorem allFin_reduceMax {x : FVec Ideal s φ} {init : u.Idx → Ideal φ} (h : s.ReducesTo axes t) (hu : 0 < u.numel)
    (hx : AllFin x) (hinit : init (Shape.Idx.first hu) ≠ ⊤) (hsurj : ∀ j, ∃ i, h.drop i = j) :
    AllFin (Host.reduce (FloatOps.maximumf (F := Ideal) (φ := φ)) x init h hu) := by
  intro j
  rw [reduceMax_apply]
  constructor
  · refine ne_of_lt ((Finset.fold_max_lt _).2 ⟨lt_top_iff_ne_top.mpr hinit, fun i _ => lt_top_iff_ne_top.mpr (hx i).1⟩)
  · obtain ⟨i, hi⟩ := hsurj j
    exact ne_of_gt ((Finset.lt_fold_max _).2 (Or.inr ⟨i, Finset.mem_filter.2 ⟨Finset.mem_univ _, hi⟩,
      bot_lt_iff_ne_bot.mpr (hx i).2⟩))

/-- The same along ONE axis of positive extent. -/
theorem allFin_reduceMax_single {a : Fin s.rank} {x : FVec Ideal s φ} {init : u.Idx → Ideal φ}
    (h' : s.ReducesTo [a] t) (h : s.Reduces [a] t) (ha : 0 < s.size a) (hu : 0 < u.numel) (hx : AllFin x)
    (hinit : init (Shape.Idx.first hu) ≠ ⊤) :
    AllFin (Host.reduce (FloatOps.maximumf (F := Ideal) (φ := φ)) x init h' hu) :=
  allFin_reduceMax h' hu hx hinit (exists_drop_eq h' h ha)

/-- Every entry that reduces to an index is at most the maximum there. -/
theorem le_reduceMax (x : FVec Ideal s φ) (init : u.Idx → Ideal φ) (h : s.ReducesTo axes t) (hu : 0 < u.numel)
    (i : s.Idx) : x i ≤ Host.reduce (FloatOps.maximumf (F := Ideal) (φ := φ)) x init h hu (h.drop i) := by
  rw [reduceMax_apply]
  exact (Finset.le_fold_max _).2 (Or.inr ⟨i, Finset.mem_filter.2 ⟨Finset.mem_univ _, rfl⟩, le_rfl⟩)

/-- A maximum against a vector of minus infinities is the other operand. -/
theorem maximumf_bot_left {b w : FVec Ideal s φ} (hb : ∀ i, b i = ⊥) : maximumf (F := Ideal) b w = w :=
  funext fun i => by
    show max (b i) (w i) = w i
    rw [hb i]; exact max_bot_left _

theorem maximumf_bot_right {b w : FVec Ideal s φ} (hb : ∀ i, b i = ⊥) : maximumf (F := Ideal) w b = w :=
  funext fun i => by
    show max (w i) (b i) = w i
    rw [hb i]; exact max_bot_right _

end ReduceMax

/-! ### The normalisation of a row of positive reals by its sum -/

section Normalise
variable {s t u : Shape} {φ : FTy} {axes : List (Fin s.rank)}

/-- The sum along axes, from zero, of positive reals is a vector of positive reals, provided every result
    index has some entry reducing to it. -/
theorem reduceAdd_pos_fin {e : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j) :
    AllFin (Host.reduceAdd (F := Ideal) e init h hu) ∧ ∀ j, 0 < Host.reduceAdd (F := Ideal) e init h hu j :=
  ⟨allFin_reduceAdd h hu he (by rw [hinit]; exact fin_zero), fun j => reduceAdd_pos h hu hpos hinit j (hsurj j)⟩

/-- Positive reals divided by (a re-indexing of) their sums along axes: real, and positive. `b` is the
    divisor as the program builds it; all that is used of it is that each of its entries is an entry of the
    vector of sums. -/
theorem normalise_fin_pos {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) :
    AllFin (Host.divf (F := Ideal) e b) ∧ ∀ i, 0 < Host.divf (F := Ideal) e b i := by
  obtain ⟨hS, hS0⟩ := reduceAdd_pos_fin h hu he hpos hinit hsurj
  have hbF : AllFin b := hb.forall Fin' hS
  have hb0 : ∀ i, 0 < b i := hb.forall (fun y => 0 < y) hS0
  exact ⟨allFin_hostDivf he hbF fun i => (hb0 i).ne', hostDivf_pos he hbF hpos hb0⟩

/-- The normalised row has real entries. -/
theorem allFin_normalise {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) : AllFin (Host.divf (F := Ideal) e b) :=
  (normalise_fin_pos h hu he hpos hinit hsurj hb).1

/-- The normalised row has positive entries. -/
theorem normalise_pos {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) (i : s.Idx) : 0 < Host.divf (F := Ideal) e b i :=
  (normalise_fin_pos h hu he hpos hinit hsurj hb).2 i

/-- An entry of a normalised row is that entry over the sum it reduces to, when the divisor reads at each
    entry the sum of its own row (`hb`). -/
theorem normalise_entry {e b : FVec Ideal s φ} {init : u.Idx → Ideal φ} (h : s.ReducesTo axes t) (hu : 0 < u.numel)
    (hb : ∀ i, b i = Host.reduceAdd (F := Ideal) e init h hu (h.drop i)) (i : s.Idx) :
    Host.divf (F := Ideal) e b i = Ideal.div (e i) (Host.reduceAdd (F := Ideal) e init h hu (h.drop i)) := by
  rw [hostDivf_apply, hb i]

end Normalise

/-! ### Constants -/

section Constants

theorem constant_apply (s : Shape) (φ : FTy) (w : BitVec φ.bits) (i : s.Idx) :
    constant (F := Ideal) s φ w i = Ideal.ofBits φ w := rfl

/-- A constant whose word denotes a real has finite entries. -/
theorem allFin_constant (s : Shape) {φ : FTy} {w : BitVec φ.bits} {c : ℝ} (hc : Ideal.ofBits φ w = (c : EReal)) :
    AllFin (constant (F := Ideal) s φ w) := fun _ => by
  show Fin' (Ideal.ofBits φ w)
  rw [hc]; exact Fin'.coe c

/-- The word of `0.0` denotes zero. -/
theorem ofBits_zero : Ideal.ofBits .f32 0x00000000#32 = 0 := Ideal.ofBits_zero_f32

theorem ofBits_zero_coe : Ideal.ofBits .f32 0x00000000#32 = ((0 : ℝ) : EReal) := by
  rw [ofBits_zero, EReal.coe_zero]

/-- The word of `8192.0` denotes the real 8192. -/
theorem ofBits_8192 : Ideal.ofBits .f32 0x46000000#32 = ((8192 : ℝ) : EReal) := by
  simp [Ideal.ofBits, Ideal.ieee, -EReal.coe_mul]; norm_num

/-- The word of `20.0` denotes the real 20. -/
theorem ofBits_20 : Ideal.ofBits .f32 0x41A00000#32 = ((20 : ℝ) : EReal) := by
  simp [Ideal.ofBits, Ideal.ieee, -EReal.coe_mul]; norm_num

/-- The single-precision number nearest to one hundred-thousandth is `10995116 · 2⁻⁴⁰`. -/
theorem ofBits_1em5 : Ideal.ofBits .f32 0x3727C5AC#32 = ((10995116 * (2 : ℝ) ^ (-40 : Int) : ℝ) : EReal) := by
  simp [Ideal.ofBits, Ideal.ieee, -EReal.coe_mul]

theorem ofBits_1em5_pos : ∃ r : ℝ, 0 < r ∧ Ideal.ofBits .f32 0x3727C5AC#32 = (r : EReal) :=
  ⟨_, by positivity, ofBits_1em5⟩

/-- The word of minus infinity denotes it. -/
theorem ofBits_neg_inf : Ideal.ofBits .f32 0xFF800000#32 = ⊥ := by
  simp [Ideal.ofBits, Ideal.ieee]

theorem constant_neg_inf_apply (s : Shape) (i : s.Idx) : constant (F := Ideal) s .f32 0xFF800000#32 i = ⊥ :=
  ofBits_neg_inf

theorem constant_zero_apply (s : Shape) (i : s.Idx) : constant (F := Ideal) s .f32 0x00000000#32 i = 0 :=
  ofBits_zero

theorem constant_8192_apply (s : Shape) (i : s.Idx) :
    constant (F := Ideal) s .f32 0x46000000#32 i = ((8192 : ℝ) : EReal) := ofBits_8192

theorem constant_20_apply (s : Shape) (i : s.Idx) :
    constant (F := Ideal) s .f32 0x41A00000#32 i = ((20 : ℝ) : EReal) := ofBits_20

/-- A signed integer read as a float is a real number; the integer zero reads as zero. -/
theorem allFin_sitofp {s : Shape} {w : Nat} (φ : FTy) (x : IVec s w) : AllFin (sitofp (F := Ideal) φ x) :=
  fun _ => Fin'.coe _

theorem sitofp_zero_apply {s : Shape} (φ : FTy) (x : IVec s 32) (i : s.Idx) (hx : x i = 0#32) :
    sitofp (F := Ideal) φ x i = ((0 : ℝ) : EReal) := by
  show (((x i).toInt : ℝ) : EReal) = ((0 : ℝ) : EReal)
  rw [hx]; simp

/-- A selection between two vectors with finite entries has finite entries. -/
theorem allFin_select {s : Shape} (c : IVec s 1) {a b : s.Idx → EReal} (ha : AllFin a) (hb : AllFin b) :
    AllFin (select c a b) := fun i => by
  show Fin' (if c i = 1 then a i else b i)
  split <;> [exact ha i; exact hb i]

/-- Where the condition holds a selection is its first operand, whatever the second. -/
theorem select_of_true {s : Shape} {α : Type} (c : IVec s 1) (a b : s.Idx → α) (hc : ∀ i, c i = 1) : select c a b = a :=
  funext fun i => by
    show (if c i = 1 then a i else b i) = a i
    rw [if_pos (hc i)]

end Constants

/-! ### The same facts on the shapes a printed program writes

A proof about a printed program meets these operations applied to broadcasts of constants; stated on that
shape the lemmas apply without unfolding anything. -/

section Printed

/-- The maximum against a broadcast of the constant minus infinity is the other operand. -/
theorem maximumf_bcast_neg_inf_left {s t : Shape} (dims : Fin s.rank → Fin t.rank) (h : s.BroadcastsInDim t dims)
    (w : FVec Ideal t .f32) :
    maximumf (F := Ideal) (broadcastInDim t dims h (constant (F := Ideal) s .f32 0xFF800000#32)) w = w :=
  maximumf_bot_left fun _ => ofBits_neg_inf

theorem maximumf_bcast_neg_inf_right {s t : Shape} (dims : Fin s.rank → Fin t.rank) (h : s.BroadcastsInDim t dims)
    (w : FVec Ideal t .f32) :
    maximumf (F := Ideal) w (broadcastInDim t dims h (constant (F := Ideal) s .f32 0xFF800000#32)) = w :=
  maximumf_bot_right fun _ => ofBits_neg_inf

/-- A rectifier: the maximum against a broadcast of the constant zero keeps finite entries finite and is
    non-negative. -/
theorem allFin_maximumf_bcast_zero {s t : Shape} (dims : Fin s.rank → Fin t.rank) (h : s.BroadcastsInDim t dims)
    {w : FVec Ideal t .f32} (hw : AllFin w) :
    AllFin (maximumf (F := Ideal) w (broadcastInDim t dims h (constant (F := Ideal) s .f32 0x00000000#32))) :=
  allFin_maximumf hw fun _ => by
    show Fin' (Ideal.ofBits .f32 0x00000000#32)
    rw [ofBits_zero]; exact fin_zero

theorem maximumf_bcast_zero_nonneg {s t : Shape} (dims : Fin s.rank → Fin t.rank) (h : s.BroadcastsInDim t dims)
    (w : FVec Ideal t .f32) (i : t.Idx) :
    0 ≤ maximumf (F := Ideal) w (broadcastInDim t dims h (constant (F := Ideal) s .f32 0x00000000#32)) i :=
  maximumf_nonneg_right _ _ (fun _ => by
    show 0 ≤ Ideal.ofBits .f32 0x00000000#32
    rw [ofBits_zero]) i

/-- A host quotient by a broadcast of a constant that denotes a nonzero real. -/
theorem allFin_hostDivf_bcast_constant {s t : Shape} {φ : FTy} (dims : Fin s.rank → Fin t.rank)
    (h : s.BroadcastsInDim t dims) {w : BitVec φ.bits} {c : ℝ} (hw : Ideal.ofBits φ w = (c : EReal)) (hc : c ≠ 0)
    {a : FVec Ideal t φ} (ha : AllFin a) :
    AllFin (Host.divf (F := Ideal) a (broadcastInDim t dims h (constant (F := Ideal) s φ w))) :=
  allFin_hostDivf_const ha (fun _ => hw) hc

/-- ... and it is non-negative when the entries are and the real is positive. -/
theorem hostDivf_bcast_constant_nonneg {s t : Shape} {φ : FTy} (dims : Fin s.rank → Fin t.rank)
    (h : s.BroadcastsInDim t dims) {w : BitVec φ.bits} {c : ℝ} (hw : Ideal.ofBits φ w = (c : EReal)) (hc : 0 < c)
    {a : FVec Ideal t φ} (ha : AllFin a) (ha0 : ∀ i, 0 ≤ a i) (i : t.Idx) :
    0 ≤ Host.divf (F := Ideal) a (broadcastInDim t dims h (constant (F := Ideal) s φ w)) i :=
  hostDivf_const_nonneg ha ha0 (fun _ => hw) hc i

/-- A sum with a broadcast of a constant that denotes a positive real, of non-negative entries, is positive. -/
theorem addf_bcast_constant_pos {s t : Shape} {φ : FTy} (dims : Fin s.rank → Fin t.rank)
    (h : s.BroadcastsInDim t dims) {w : BitVec φ.bits} {c : ℝ} (hw : Ideal.ofBits φ w = (c : EReal)) (hc : 0 < c)
    {a : FVec Ideal t φ} (ha0 : ∀ i, 0 ≤ a i) (i : t.Idx) :
    0 < addf (F := Ideal) a (broadcastInDim t dims h (constant (F := Ideal) s φ w)) i :=
  addf_pos_of_nonneg_of_pos ha0 (fun _ => by
    show 0 < Ideal.ofBits φ w
    rw [hw]; exact EReal.coe_pos.mpr hc) i

theorem allFin_bcast_constant {s t : Shape} {φ : FTy} (dims : Fin s.rank → Fin t.rank)
    (h : s.BroadcastsInDim t dims) {w : BitVec φ.bits} {c : ℝ} (hw : Ideal.ofBits φ w = (c : EReal)) :
    AllFin (broadcastInDim t dims h (constant (F := Ideal) s φ w)) :=
  allFin_broadcastInDim t dims h (allFin_constant s hw)

/-- A constant minus the integer zero read as a float: the constant. (A count `n - 0` of a variance.) -/
theorem subf_constant_sitofp_zero_apply (s : Shape) {w : BitVec 32} {c : ℝ} (hw : Ideal.ofBits .f32 w = (c : EReal))
    (i : s.Idx) :
    subf (F := Ideal) (constant (F := Ideal) s .f32 w) (sitofp (F := Ideal) .f32 (constantI s 32 0#32)) i = (c : EReal) := by
  show Ideal.ofBits .f32 w - ((((0#32 : BitVec 32).toInt : ℝ)) : EReal) = (c : EReal)
  rw [hw]; simp

/-- The comparison "greater than" answers one where it holds. -/
theorem cmpf_ogt_eq_one {s : Shape} {φ : FTy} (x y : FVec Ideal s φ) (i : s.Idx) (h : y i < x i) :
    cmpf (F := Ideal) .ogt x y i = 1#1 := by
  show BitVec.ofBool (decide (y i < x i)) = 1#1
  rw [decide_eq_true h]; rfl

end Printed

end LibIdealFinite

end
-- ==== Proof.FiniteArgs.lean ====
/-
  The precondition "every float argument has finite entries", read back at exact arithmetic.

  The precondition is one bit: the conjunction, over the nine float arguments, of the conjunction over all entries of an
  argument of "the entry's absolute value is below +∞". When that bit is 1 each of the nine conjunctions is 1, and a
  conjunction of |x_i| < +∞ over all entries says that x is the image of its real parts, so no entry is an infinity.
-/
import proofs.«180567_j38208029065461_2_alg».proof.Pre_finite_inputs
import proofs.«180567_j38208029065461_2_alg».proof.Proof.LibFiniteEntries
import proofs.«180567_j38208029065461_2_alg».proof.Proof.LibIdealFinite

noncomputable section

namespace Cert.FiniteArgs

open Idealize.ShloMosaic Cert.Pre_finite_inputs

/-- A one-bit conjunction is 1 exactly when both bits are. -/
theorem and_one : ∀ a b : BitVec 1, IntOp.andi a b = 1#1 ↔ a = 1#1 ∧ b = 1#1 := by decide

/-- An array that is the image of its real parts has no infinite entry. -/
theorem allFin_of_real {s : Shape} (x : FVec Ideal s .f32) (h : x = fun i => (((x i).toReal : ℝ) : EReal)) :
    LibIdealFinite.AllFin x := fun i => by
  rw [congrFun h i]; exact LibERealMatrix.Fin'.coe _

/-- One conjunct: the conjunction over all entries of |x_i| < +∞ being 1, no entry of x is an infinity. -/
theorem allFin_of_all_abs_lt {s : Shape} {axes : List (Fin s.rank)} (x : FVec Ideal s .f32)
    (hb : S_.BroadcastsInDim s (![] : Fin 0 → Fin s.rank)) (h : s.ReducesTo axes S_) (hu : 0 < S_.numel) (j : S_.Idx)
    (e : Host.reduce IntOp.andi
        (cmpf .olt (Host.absf x) (broadcastInDim s ![] hb (constant (F := Ideal) S_ .f32 0x7F800000#32)))
        (constantI S_ 1 1#1) h hu j = 1#1) :
    LibIdealFinite.AllFin x :=
  allFin_of_real x (LibFiniteEntries.real_of_all_abs_lt x _ (fun _ => rfl) _ h hu j e)

/-- The precondition's bit being 1, each of the nine float arguments has only real entries. -/
theorem real_entries [Cert.Pre_finite_inputs.Facts] (a0 : FVec Ideal S50000x128 .f32) (a1 : IVec S2x800000 32)
    (a2 a3 : FVec Ideal S128 .f32) (a4 : FVec Ideal S128x96 .f32) (a5 a6 a7 : FVec Ideal S96 .f32)
    (a8 : FVec Ideal S96x64 .f32) (a9 : FVec Ideal S64 .f32)
    (h : Cert.Pre_finite_inputs.fn (F := Ideal) a0 a1 a2 a3 a4 a5 a6 a7 a8 a9 = fun _ => 1#1) :
    LibIdealFinite.AllFin a0 ∧ LibIdealFinite.AllFin a2 ∧ LibIdealFinite.AllFin a3 ∧ LibIdealFinite.AllFin a4
      ∧ LibIdealFinite.AllFin a5 ∧ LibIdealFinite.AllFin a6 ∧ LibIdealFinite.AllFin a7 ∧ LibIdealFinite.AllFin a8
      ∧ LibIdealFinite.AllFin a9 := by
  have h0 := congrFun h (fun a => a.elim0)
  unfold fn fn_part1 fn_part2 at h0
  obtain ⟨h8, c9⟩ := (and_one _ _).mp h0
  obtain ⟨h7, c8⟩ := (and_one _ _).mp h8
  obtain ⟨h6, c7⟩ := (and_one _ _).mp h7
  obtain ⟨h5, c6⟩ := (and_one _ _).mp h6
  obtain ⟨h4, c5⟩ := (and_one _ _).mp h5
  obtain ⟨h3, c4⟩ := (and_one _ _).mp h4
  obtain ⟨h2, c3⟩ := (and_one _ _).mp h3
  obtain ⟨c0, c2⟩ := (and_one _ _).mp h2
  exact ⟨allFin_of_all_abs_lt a0 _ _ _ _ c0, allFin_of_all_abs_lt a2 _ _ _ _ c2, allFin_of_all_abs_lt a3 _ _ _ _ c3,
    allFin_of_all_abs_lt a4 _ _ _ _ c4, allFin_of_all_abs_lt a5 _ _ _ _ c5, allFin_of_all_abs_lt a6 _ _ _ _ c6,
    allFin_of_all_abs_lt a7 _ _ _ _ c7, allFin_of_all_abs_lt a8 _ _ _ _ c8, allFin_of_all_abs_lt a9 _ _ _ _ c9⟩

end Cert.FiniteArgs

end
-- ==== Proof.LibMatIdx.lean ====
/-
  A host product of two matrices at exact arithmetic, read at an entry: the sum over the contracted axis of the
  products of the left factor's row entries with the right factor's column entries. Stated for any contraction
  record between two-axis shapes whose operand indices are "row of the result, contracted position" and "contracted
  position, column of the result" — facts that hold by computation for the records a product of two matrices prints.
-/
import Idealize.ShloMosaic.Lib.ValueIdx
import Idealize.ShloMosaic.PureOps.Ideal.Laws

noncomputable section

namespace LibMatIdx

open Idealize.ShloMosaic Idealize.ShloMosaic.ValueIdx

theorem dot2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) D prec l r j = ∑ k : Fin K, l (ix2 (n0 := M) (n1 := K) (j 0) k) * r (ix2 (n0 := K) (n1 := N) k (j 1)) := by
  show FloatOps.dotGeneral (F := Ideal) D prec .single l r j = _
  rw [Ideal.dotGeneral_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatIdx

end
-- ==== Proof.LibRowGather.lean ====
/-
  A row gather read at an entry.  For a matrix `x : [N, D]` and a column of start indices `idx : [E, 1]`,
  `x[idx]` (offset axis 1, collapsed axis 0, start index map [0], slices of one whole row) has at entry (e, j)
  the matrix entry (r, j), where the row r is the e-th start index read as a signed integer and clamped into
  [0, N - 1].  The column j is untouched, so a gather of rows commutes with anything that acts column by column.
-/
import Idealize.ShloMosaic.Lib.ValueIdx

noncomputable section

namespace LibRowGather

open Idealize.ShloMosaic Idealize.ShloMosaic.ValueIdx

/-- The dimension numbers of a gather of whole rows: operand `[N, D]`, start indices `[E, 1]`, result `[E, D]`. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index selects: the word read signed, clamped into `[0, N - 1]`. -/
def clampRow (N : Nat) (hN : 0 < N) {w : Nat} (v : BitVec w) : Fin N := ⟨min v.toInt.toNat (N - 1), by omega⟩

/-- THE ROW GATHER AT `(e, j)`: the operand's entry at the clamped row `idx[e, 0]` and the same column `j`. -/
theorem gather_rows_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowDims N D E wf) x idx (ix2 e j)
      = x (ix2 (clampRow N hN (idx (ix2 e (0 : Fin 1)))) j) := by
  unfold Host.gather
  refine congrArg x (funext fun a => Fin.ext ?_)
  match a with
  | ⟨0, _⟩ =>
    show (rowDims N D E wf).start (ix2 e j) idx 0 + (rowDims N D E wf).batchCoord (ix2 e j) 0
      + (rowDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e j) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N D E wf).start (ix2 e j) idx 1 + (rowDims N D E wf).batchCoord (ix2 e j) 1
      + (rowDims N D E wf).offCoord (ix2 e j) 1 = j.val
    rw [GatherDims.batchCoord_eq_zero _ _ _ List.not_mem_nil]
    unfold GatherDims.start
    rw [dif_neg (show ¬ (1 : Fin 2) ∈ (rowDims N D E wf).startIndexMap by
      show ¬ (1 : Fin 2) ∈ ([0] : List (Fin 2)); decide)]
    simp only [Nat.add_zero, Nat.zero_add]
    unfold GatherDims.offCoord
    rw [dif_pos ((GatherDims.mem_sKept _ _).mpr ⟨by show ¬ (1 : Fin 2) ∈ ([0] : List (Fin 2)); decide, List.not_mem_nil⟩)]
    rfl

end LibRowGather

end
-- ==== Proof.LibRowScatter.lean ====
/-
  An accumulating scatter of whole rows, read at an entry.

  Update rows upd : [E, D] are summed into the rows of a matrix x : [N, D] that an integer column idx : [E, 1]
  names (a segment sum of rows).  Entry (e, d) of the updates lands on entry (i, j) of the result exactly when
  the e-th index, read as a signed integer and NOT clamped, equals i, and d = j; an index outside [0, N) lands
  nowhere.  Hence, at exact arithmetic, entry (i, j) of the scattered sum is the operand's entry plus the sum
  over all e of "upd (e, j) if the e-th index equals i, else 0".
-/
import Idealize.ShloMosaic.Lib.ValueIdx
import Idealize.ShloMosaic.PureOps.Ideal.Laws

noncomputable section

open scoped BigOperators

namespace LibRowScatter

open Idealize.ShloMosaic Idealize.ShloMosaic.ValueIdx

/-- The dimension numbers of a segment sum of rows into a matrix `[N, D]`: updates `[E, D]`, index column `[E, 1]`. -/
abbrev addRowsDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Update entry `(e, d)` lands on entry `(i, j)` exactly when the `e`-th index, read signed, is `i` and `d = j`. -/
theorem resultIdx?_rows_iff {N D E w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx) :
    (addRowsDims N D E wf).resultIdx? j idx = some i
      ↔ (idx (ix2 (j 0) (0 : Fin 1))).toInt = ((i 0).val : ℤ) ∧ (j 1).val = (i 1).val := by
  have hi0 : (i 0).val < N := idx2_lt0 i
  have hi1 : (i 1).val < D := idx2_lt1 i
  have hj1 : (j 1).val < D := idx2_lt1 j
  have hstart0 : (addRowsDims N D E wf).start j idx 0 = (idx (ix2 (j 0) (0 : Fin 1))).toInt := by
    unfold ScatterDims.start
    rw [dif_pos (show (0 : Fin 2) ∈ (addRowsDims N D E wf).scatterDimsToOperandDims from List.mem_singleton.mpr rfl)]
    have hsi : (addRowsDims N D E wf).siIdx j ⟨List.idxOf (0 : Fin 2) (addRowsDims N D E wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin0 : (addRowsDims N D E wf).window j 0 = 0 := by
    unfold ScatterDims.window
    rw [dif_neg (by simp [ScatterDims.sKept, Shape.kept])]
  have hstart1 : (addRowsDims N D E wf).start j idx 1 = 0 := by
    unfold ScatterDims.start
    rw [dif_neg (by simp [ScatterDims.sKept, Shape.kept])]
  have hwin1 : (addRowsDims N D E wf).window j 1 = (j 1).val := by
    unfold ScatterDims.window
    rw [dif_pos (by simp [ScatterDims.sKept, Shape.kept])]
    rfl
  unfold ScatterDims.resultIdx?
  split
  · rename_i h
    rw [Option.some_inj]
    constructor
    · intro he
      have h0 := congrArg (fun f => (f 0).val) he
      have h1 := congrArg (fun f => (f 1).val) he
      have hh := h 0
      simp only [hstart0, hwin0] at h0 hh
      simp only [hstart1, hwin1] at h1
      constructor
      · omega
      · omega
    · rintro ⟨he, hd⟩
      funext a
      refine Fin.ext ?_
      match a with
      | ⟨0, _⟩ =>
        show ((addRowsDims N D E wf).start j idx 0 + ((addRowsDims N D E wf).window j 0 : ℕ)).toNat = (i 0).val
        rw [hstart0, hwin0]
        omega
      | ⟨1, _⟩ =>
        show ((addRowsDims N D E wf).start j idx 1 + ((addRowsDims N D E wf).window j 1 : ℕ)).toNat = (i 1).val
        rw [hstart1, hwin1]
        omega
  · rename_i h
    constructor
    · intro he; exact absurd he (by simp)
    · rintro ⟨he, hd⟩
      exfalso
      apply h
      intro a
      match a with
      | ⟨0, _⟩ =>
        show 0 ≤ (addRowsDims N D E wf).start j idx 0 + ((addRowsDims N D E wf).window j 0 : ℕ)
          ∧ (addRowsDims N D E wf).start j idx 0 + ((addRowsDims N D E wf).window j 0 : ℕ) < (N : ℤ)
        rw [hstart0, hwin0]
        omega
      | ⟨1, _⟩ =>
        show 0 ≤ (addRowsDims N D E wf).start j idx 1 + ((addRowsDims N D E wf).window j 1 : ℕ)
          ∧ (addRowsDims N D E wf).start j idx 1 + ((addRowsDims N D E wf).window j 1 : ℕ) < ((D : ℕ) : ℤ)
        rw [hstart1, hwin1]
        omega

/-- At exact arithmetic, entry `(i, j)` of the segment sum of rows is the operand's entry plus the sum over all
    `e` of "update entry `(e, j)` if the `e`-th index is `i`, else 0". -/
theorem scatterAdd_rows_apply {N D E w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (i : Fin N) (j : Fin D) :
    Host.scatterAdd (addRowsDims N D E wf) x idx upd (ix2 i j)
      = x (ix2 i j) + ∑ e : Fin E, if (idx (ix2 e (0 : Fin 1))).toInt = ((i : ℕ) : ℤ) then upd (ix2 e j) else 0 := by
  show Ideal.hostScatterAdd (addRowsDims N D E wf) x idx upd (ix2 i j) = _
  unfold Ideal.hostScatterAdd
  congr 1
  rw [Finset.sum_filter, sum_idx2]
  refine Finset.sum_congr rfl (fun e _ => ?_)
  have hcond : ∀ d : Fin D, ((addRowsDims N D E wf).resultIdx? (ix2 e d) idx = some (ix2 i j))
      ↔ ((idx (ix2 e (0 : Fin 1))).toInt = ((i : ℕ) : ℤ) ∧ d = j) := by
    intro d
    rw [resultIdx?_rows_iff wf idx (ix2 e d) (ix2 i j)]
    exact and_congr Iff.rfl ⟨fun h => Fin.ext h, fun h => congrArg Fin.val h⟩
  by_cases hP : (idx (ix2 e (0 : Fin 1))).toInt = ((i : ℕ) : ℤ)
  · rw [if_pos hP]
    rw [Finset.sum_congr rfl (fun d _ => if_congr ((hcond d).trans (and_iff_right hP)) rfl rfl)]
    rw [Finset.sum_ite_eq' Finset.univ j (fun d => upd (ix2 e d))]
    simp
  · rw [if_neg hP]
    refine Finset.sum_eq_zero (fun d _ => ?_)
    rw [if_neg]
    intro h
    exact hP ((hcond d).mp h).1

end LibRowScatter

end
-- ==== Proof.LibSegmentIdx.lean ====
/-
  Gathers and accumulating scatters along the leading axis, read at an index.

  Indexing a table by an integer column, `x[idx]`, and summing update rows into the rows an integer column names
  (a segment sum) are the two halves of message passing on a graph. With the index column of shape [E, 1]:

  * a gather from a vector x : [N], or from a one-column matrix x : [N, 1], reads at position e the entry of x at
    the e-th index, read as a signed integer and clamped into [0, N − 1];
  * an accumulating scatter into a vector [N], or into a one-column matrix [N, 1], lands update e on row i exactly
    when the e-th index, read as a signed integer and NOT clamped, equals i; an index outside [0, N) lands nowhere;
  * hence, at exact arithmetic, row i of the scattered sum is the operand's row i plus the sum over all e of
    "update e if the e-th index equals i, else 0".
-/
import Idealize.ShloMosaic.Lib.ValueIdx
import Idealize.ShloMosaic.PureOps.Ideal.Laws

noncomputable section

open scoped BigOperators

namespace LibSegmentIdx

open Idealize.ShloMosaic Idealize.ShloMosaic.ValueIdx

/-! ## Gathers -/

section Gather
variable {α : Type}

/-- The dimension numbers of `x[idx]` for a vector `x : [N]` and an index column `idx : [E, 1]`, result `[E]`. -/
abbrev takeVecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of `x[idx]` is `x` at the `e`-th index, read signed and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (takeVecDims N E wf) x idx j
      = x (ix1 ⟨min (idx (ix2 (j 0) (0 : Fin 1))).toInt.toNat (N - 1), by omega⟩) := by
  unfold Host.gather
  congr 1
  funext a
  obtain rfl : a = 0 := Subsingleton.elim _ _
  refine Fin.ext ?_
  show (takeVecDims N E wf).start j idx 0 + (takeVecDims N E wf).batchCoord j 0 + (takeVecDims N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeVecDims N E wf).startIndexMap from List.mem_singleton.mpr rfl)]
  have hsi : (takeVecDims N E wf).siIdx j ⟨List.idxOf (0 : Fin 1) (takeVecDims N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The dimension numbers of `x[idx]` for a one-column matrix `x : [N, 1]` and `idx : [E, 1]`, result `[E, 1]`. -/
abbrev takeRowDims (N E : Nat) (wf : GatherDims.WF ⟨2, ![N, 1]⟩ ⟨2, ![E, 1]⟩ ⟨2, ![E, 1]⟩ [1] [0] [] [0] [] 1 ![1, 1]) :
    GatherDims ⟨2, ![N, 1]⟩ ⟨2, ![E, 1]⟩ ⟨2, ![E, 1]⟩ where
  offsetDims := [1]
  collapsedSliceDims := [0]
  operandBatchingDims := []
  startIndicesBatchingDims := []
  startIndexMap := [0]
  indexVectorDim := 1
  sliceSizes := ![1, 1]
  wf := wf

/-- Row `e` of `x[idx]` is the row of `x` at the `e`-th index, read signed and clamped into `[0, N − 1]`. -/
theorem gather_row_apply {N E w : Nat} (hN : 0 < N)
    (wf : GatherDims.WF ⟨2, ![N, 1]⟩ ⟨2, ![E, 1]⟩ ⟨2, ![E, 1]⟩ [1] [0] [] [0] [] 1 ![1, 1])
    (x : (⟨2, ![N, 1]⟩ : Shape).Idx → α) (idx : IVec ⟨2, ![E, 1]⟩ w) (j : (⟨2, ![E, 1]⟩ : Shape).Idx) :
    Host.gather (takeRowDims N E wf) x idx j
      = x (ix2 ⟨min (idx (ix2 (j 0) (0 : Fin 1))).toInt.toNat (N - 1), by omega⟩ (0 : Fin 1)) := by
  unfold Host.gather
  congr 1
  funext a
  refine Fin.ext ?_
  match a with
  | ⟨0, _⟩ =>
    show (takeRowDims N E wf).start j idx 0 + (takeRowDims N E wf).batchCoord j 0 + (takeRowDims N E wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowDims N E wf).startIndexMap from List.mem_singleton.mpr rfl)]
    have hsi : (takeRowDims N E wf).siIdx j ⟨List.idxOf (0 : Fin 2) (takeRowDims N E wf).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    have h1 := (takeRowDims N E wf).lt j idx 1
    have : (⟨2, ![N, 1]⟩ : Shape).size 1 = 1 := rfl
    show (takeRowDims N E wf).start j idx 1 + (takeRowDims N E wf).batchCoord j 1 + (takeRowDims N E wf).offCoord j 1 = 0
    omega

end Gather

/-! ## Accumulating scatters -/

section Scatter

/-- A rank-1 index set is its one coordinate's range. -/
def idxEquiv1 {n : Nat} : (⟨1, ![n]⟩ : Shape).Idx ≃ Fin n where
  toFun i := i 0
  invFun e := ix1 e
  left_inv i := (eq_ix1 i).symm
  right_inv _ := rfl

/-- A column's index set `[n, 1]` is its row coordinate's range. -/
def idxEquivCol {n : Nat} : (⟨2, ![n, 1]⟩ : Shape).Idx ≃ Fin n where
  toFun i := i 0
  invFun e := ix2 e (0 : Fin 1)
  left_inv i := funext fun a => match a with
    | ⟨0, _⟩ => rfl
    | ⟨1, _⟩ => Fin.ext (by have := idx2_lt1 i; show (0 : ℕ) = (i 1).val; omega)
  right_inv _ := rfl

/-- The dimension numbers of a segment sum into a vector `[N]`: updates `[E]`, index column `[E, 1]`. -/
abbrev addVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on entry `i` exactly when the `e`-th index, read signed, is `i`. -/
theorem resultIdx?_vec_iff {N E w : Nat} (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : (⟨1, ![N]⟩ : Shape).Idx) :
    (addVecDims N E wf).resultIdx? j idx = some i ↔ (idx (ix2 (j 0) (0 : Fin 1))).toInt = ((i 0).val : ℤ) := by
  have hi : (i 0).val < N := (i 0).isLt
  have hstart : (addVecDims N E wf).start j idx 0 = (idx (ix2 (j 0) (0 : Fin 1))).toInt := by
    unfold ScatterDims.start
    rw [dif_pos (show (0 : Fin 1) ∈ (addVecDims N E wf).scatterDimsToOperandDims from List.mem_singleton.mpr rfl)]
    have hsi : (addVecDims N E wf).siIdx j ⟨List.idxOf (0 : Fin 1) (addVecDims N E wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin : (addVecDims N E wf).window j 0 = 0 := by
    unfold ScatterDims.window
    rw [dif_neg (by simp [ScatterDims.sKept, Shape.kept])]
  unfold ScatterDims.resultIdx?
  split
  · rename_i h
    rw [Option.some_inj]
    constructor
    · intro he
      have h0 := congrArg (fun f => (f 0).val) he
      have hh := h 0
      simp only [hstart, hwin] at h0 hh
      omega
    · intro he
      funext a
      obtain rfl : a = 0 := Subsingleton.elim _ _
      refine Fin.ext ?_
      show ((addVecDims N E wf).start j idx 0 + ((addVecDims N E wf).window j 0 : ℕ)).toNat = (i 0).val
      rw [hstart, hwin]
      omega
  · rename_i h
    constructor
    · intro he; exact absurd he (by simp)
    · intro he
      exfalso
      apply h
      intro a
      obtain rfl : a = 0 := Subsingleton.elim _ _
      rw [hstart, hwin]
      have : (⟨1, ![N]⟩ : Shape).size 0 = N := rfl
      omega

/-- At exact arithmetic, entry `i` of the segment sum into a vector is the operand's entry plus the sum over all
    `e` of "update `e` if the `e`-th index is `i`, else 0". -/
theorem scatterAdd_vec_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (i : (⟨1, ![N]⟩ : Shape).Idx) :
    Host.scatterAdd (addVecDims N E wf) x idx upd i
      = x i + ∑ e : Fin E, if (idx (ix2 e (0 : Fin 1))).toInt = ((i 0).val : ℤ) then upd (ix1 e) else 0 := by
  show Ideal.hostScatterAdd (addVecDims N E wf) x idx upd i = _
  unfold Ideal.hostScatterAdd
  congr 1
  rw [Finset.sum_filter]
  refine Fintype.sum_equiv idxEquiv1 _ _ (fun j => ?_)
  obtain ⟨e, rfl⟩ : ∃ e, j = ix1 e := ⟨j 0, eq_ix1 j⟩
  exact if_congr (resultIdx?_vec_iff wf idx (ix1 e) i) rfl rfl

/-- The dimension numbers of a segment sum into a one-column matrix `[N, 1]`: updates `[E, 1]`, index column `[E, 1]`. -/
abbrev addRowDims (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

/-- Update row `e` lands on row `i` exactly when the `e`-th index, read signed, is `i`'s row. -/
theorem resultIdx?_row_iff {N E w : Nat} (wf : ScatterDims.WF ⟨2, ![N, 1]⟩ ⟨2, ![E, 1]⟩ ⟨2, ![E, 1]⟩ [1] [0] [0] 1)
    (idx : IVec ⟨2, ![E, 1]⟩ w) (j : (⟨2, ![E, 1]⟩ : Shape).Idx) (i : (⟨2, ![N, 1]⟩ : Shape).Idx) :
    (addRowDims N E wf).resultIdx? j idx = some i ↔ (idx (ix2 (j 0) (0 : Fin 1))).toInt = ((i 0).val : ℤ) := by
  have hi0 : (i 0).val < N := idx2_lt0 i
  have hi1 : (i 1).val < 1 := idx2_lt1 i
  have hj1 : (j 1).val < 1 := idx2_lt1 j
  have hstart0 : (addRowDims N E wf).start j idx 0 = (idx (ix2 (j 0) (0 : Fin 1))).toInt := by
    unfold ScatterDims.start
    rw [dif_pos (show (0 : Fin 2) ∈ (addRowDims N E wf).scatterDimsToOperandDims from List.mem_singleton.mpr rfl)]
    have hsi : (addRowDims N E wf).siIdx j ⟨List.idxOf (0 : Fin 2) (addRowDims N E wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin0 : (addRowDims N E wf).window j 0 = 0 := by
    unfold ScatterDims.window
    rw [dif_neg (by simp [ScatterDims.sKept, Shape.kept])]
  have hstart1 : (addRowDims N E wf).start j idx 1 = 0 := by
    unfold ScatterDims.start
    rw [dif_neg (by simp [ScatterDims.sKept, Shape.kept])]
  have hwin1 : (addRowDims N E wf).window j 1 = (j 1).val := by
    unfold ScatterDims.window
    rw [dif_pos (by simp [ScatterDims.sKept, Shape.kept])]
    rfl
  unfold ScatterDims.resultIdx?
  split
  · rename_i h
    rw [Option.some_inj]
    constructor
    · intro he
      have h0 := congrArg (fun f => (f 0).val) he
      have hh := h 0
      simp only [hstart0, hwin0] at h0 hh
      omega
    · intro he
      funext a
      refine Fin.ext ?_
      match a with
      | ⟨0, _⟩ =>
        show ((addRowDims N E wf).start j idx 0 + ((addRowDims N E wf).window j 0 : ℕ)).toNat = (i 0).val
        rw [hstart0, hwin0]
        omega
      | ⟨1, _⟩ =>
        show ((addRowDims N E wf).start j idx 1 + ((addRowDims N E wf).window j 1 : ℕ)).toNat = (i 1).val
        rw [hstart1, hwin1]
        omega
  · rename_i h
    constructor
    · intro he; exact absurd he (by simp)
    · intro he
      exfalso
      apply h
      intro a
      match a with
      | ⟨0, _⟩ =>
        show 0 ≤ (addRowDims N E wf).start j idx 0 + ((addRowDims N E wf).window j 0 : ℕ)
          ∧ (addRowDims N E wf).start j idx 0 + ((addRowDims N E wf).window j 0 : ℕ) < (N : ℤ)
        rw [hstart0, hwin0]
        omega
      | ⟨1, _⟩ =>
        show 0 ≤ (addRowDims N E wf).start j idx 1 + ((addRowDims N E wf).window j 1 : ℕ)
          ∧ (addRowDims N E wf).start j idx 1 + ((addRowDims N E wf).window j 1 : ℕ) < ((1 : ℕ) : ℤ)
        rw [hstart1, hwin1]
        omega

/-- At exact arithmetic, row `i` of the segment sum into a one-column matrix is the operand's row plus the sum over
    all `e` of "update row `e` if the `e`-th index is `i`'s row, else 0". -/
theorem scatterAdd_row_apply {N E w : Nat} {φ : FTy} (wf : ScatterDims.WF ⟨2, ![N, 1]⟩ ⟨2, ![E, 1]⟩ ⟨2, ![E, 1]⟩ [1] [0] [0] 1)
    (x : FVec Ideal ⟨2, ![N, 1]⟩ φ) (idx : IVec ⟨2, ![E, 1]⟩ w) (upd : FVec Ideal ⟨2, ![E, 1]⟩ φ)
    (i : (⟨2, ![N, 1]⟩ : Shape).Idx) :
    Host.scatterAdd (addRowDims N E wf) x idx upd i
      = x i + ∑ e : Fin E, if (idx (ix2 e (0 : Fin 1))).toInt = ((i 0).val : ℤ) then upd (ix2 e (0 : Fin 1)) else 0 := by
  show Ideal.hostScatterAdd (addRowDims N E wf) x idx upd i = _
  unfold Ideal.hostScatterAdd
  congr 1
  rw [Finset.sum_filter]
  refine Fintype.sum_equiv idxEquivCol _ _ (fun j => ?_)
  obtain ⟨e, rfl⟩ : ∃ e, j = ix2 e (0 : Fin 1) := ⟨j 0, funext fun a => match a with
    | ⟨0, _⟩ => rfl
    | ⟨1, _⟩ => Fin.ext (by have := idx2_lt1 j; show (j 1).val = 0; omega)⟩
  exact if_congr (resultIdx?_row_iff wf idx (ix2 e (0 : Fin 1)) i) rfl rfl

end Scatter

end LibSegmentIdx

end
-- ==== Proof.LibMaskSums.lean ====
/-
  Sums over a finite index set restricted by a mask, as a pairwise ranking loss needs them.

  * A double sum of products u i · v j over the pairs with p i and q j factors into the product of the two
    masked single sums (any commutative semiring): this is what turns a sum over all (positive, negative)
    pairs into a product of two row sums.
  * On the extended reals, multiplying a finite sum by a non-negative REAL constant distributes over the sum,
    whatever the summands (infinite ones included).
  * A one-bit word is 0 or 1; widened to 32 bits it is the natural number 0 or 1, and a natural number below
    2^31 read back from its 32-bit word as a signed integer is itself: so a wrapping 32-bit count of at most
    2^31 - 1 mask bits is the true count.
-/
import Mathlib.Data.EReal.Operations
import Mathlib.Data.BitVec
import Mathlib.Algebra.BigOperators.Ring.Finset
import Mathlib.Algebra.Order.BigOperators.Group.Finset

namespace LibMaskSums

open Finset

/-- The sum of u i · v j over the pairs (i, j) with p i and q j is the product of the sum of the u i with p i
    and the sum of the v j with q j. -/
theorem sum_mask_mul {R : Type*} [CommSemiring R] {ι κ : Type*} [Fintype ι] [Fintype κ] (p : ι → Prop) (q : κ → Prop)
    [DecidablePred p] [DecidablePred q] (u : ι → R) (v : κ → R) :
    ∑ i, ∑ j, (if p i ∧ q j then u i * v j else 0) = (∑ i, if p i then u i else 0) * (∑ j, if q j then v j else 0) := by
  rw [Finset.sum_mul_sum]
  refine Finset.sum_congr rfl fun i _ => Finset.sum_congr rfl fun j _ => ?_
  by_cases hp : p i <;> by_cases hq : q j <;> simp [hp, hq]

/-- A non-negative real factor distributes over a finite sum of extended reals. -/
theorem sum_mul_coe_of_nonneg {ι : Type*} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- A one-bit word is 0 or 1. -/
theorem bit_cases (c : BitVec 1) : c = 0#1 ∨ c = 1#1 := by
  by_cases h : c = 1#1
  · exact Or.inr h
  · left
    have := c.isLt
    apply BitVec.eq_of_toNat_eq
    have h' : c.toNat ≠ 1 := fun e => h (BitVec.eq_of_toNat_eq (by simpa using e))
    simp; omega

/-- Flipping a bit (exclusive or with 1) sets it exactly when it was clear. -/
theorem xor_one_eq_one_iff (c : BitVec 1) : c ^^^ 1#1 = 1#1 ↔ ¬ c = 1#1 := by
  rcases bit_cases c with rfl | rfl <;> decide

/-- The complement of a bit is set exactly when the bit was clear. -/
theorem not_eq_one_iff (c : BitVec 1) : ~~~c = 1#1 ↔ ¬ c = 1#1 := by
  rcases bit_cases c with rfl | rfl <;> decide

/-- The conjunction of two bits is set exactly when both are. -/
theorem and_eq_one_iff (c d : BitVec 1) : c &&& d = 1#1 ↔ c = 1#1 ∧ d = 1#1 := by
  rcases bit_cases c with rfl | rfl <;> rcases bit_cases d with rfl | rfl <;> decide

/-- A bit widened to 32 bits is the natural number 0 or 1 as a word. -/
theorem setWidth_bit (c : BitVec 1) : c.setWidth 32 = ((if c = 1#1 then 1 else 0 : ℕ) : BitVec 32) := by
  rcases bit_cases c with rfl | rfl <;> decide

/-- A bit widened to 32 bits and read as a signed integer is 0 or 1. -/
theorem toInt_setWidth_bit (c : BitVec 1) : (c.setWidth 32).toInt = if c = 1#1 then 1 else 0 := by
  rcases bit_cases c with rfl | rfl <;> decide

/-- A natural number below 2^31, stored in a 32-bit word and read back signed, is itself. -/
theorem toInt_natCast_of_lt (n : ℕ) (h : n < 2 ^ 31) : ((n : BitVec 32)).toInt = (n : ℤ) := by
  have hn : ((n : BitVec 32)).toNat = n := by
    rw [BitVec.natCast_eq_ofNat, BitVec.toNat_ofNat]; omega
  rw [BitVec.toInt_eq_toNat_of_lt (by rw [hn]; omega), hn]

/-- The wrapping 32-bit sum, from zero, of the words 0 or 1 marking the pairs (i, j) with p i and q j, read back
    signed, is the number of marked i times the number of marked j, provided the index sets together hold fewer
    than 2^31 pairs. -/
theorem toInt_pair_count {ι κ : Type*} [Fintype ι] [Fintype κ] (p : ι → Prop) (q : κ → Prop)
    [DecidablePred p] [DecidablePred q] (hcard : Fintype.card ι * Fintype.card κ < 2 ^ 31) :
    ((0#32 + ∑ i, ∑ j, ((if p i ∧ q j then 1 else 0 : ℕ) : BitVec 32)).toInt : ℝ)
      = (∑ i, if p i then (1 : ℝ) else 0) * (∑ j, if q j then (1 : ℝ) else 0) := by
  have hb : ∑ i : ι, ∑ j : κ, (if p i ∧ q j then 1 else 0 : ℕ) < 2 ^ 31 := by
    refine lt_of_le_of_lt ?_ hcard
    calc ∑ i : ι, ∑ j : κ, (if p i ∧ q j then 1 else 0 : ℕ)
        ≤ ∑ _i : ι, ∑ _j : κ, 1 :=
          Finset.sum_le_sum fun i _ => Finset.sum_le_sum fun j _ => by split <;> omega
      _ = Fintype.card ι * Fintype.card κ := by simp
  have hw : (0#32 + ∑ i, ∑ j, ((if p i ∧ q j then 1 else 0 : ℕ) : BitVec 32))
      = ((∑ i : ι, ∑ j : κ, (if p i ∧ q j then 1 else 0 : ℕ) : ℕ) : BitVec 32) := by
    rw [show (0#32 : BitVec 32) = 0 from rfl, zero_add]
    push_cast
    rfl
  rw [hw, toInt_natCast_of_lt _ hb]
  have := sum_mask_mul (R := ℝ) p q (fun _ => 1) (fun _ => 1)
  simp only [mul_one] at this
  rw [← this]
  push_cast
  rfl

end LibMaskSums
-- ==== Proof.LibGcnLaw.lean ====
/-
  The algebra of a graph-convolution layer with symmetric degree normalisation, on the extended reals.

  A layer sends node features h to  out[i] = Σ_{e : dst e = i} h[src e] · (s[src e] · s[dst e]) + b,  where s[i] is the
  reciprocal square root of the in-degree of node i. Because every edge summed into row i has dst e = i, the factor
  s[dst e] is the same number t = s[i] for all of them, and it can be taken out of the sum:
      Σ_e a_e · (u_e · t) = (Σ_e a_e · u_e) · t.
  On the extended reals this needs t to be a non-negative REAL (a product with +∞ does not distribute over a sum of mixed
  signs), and nothing of the summands: they may be infinite. When no edge enters row i both sums are empty and both
  sides are 0, whatever t is. When some edge enters row i the degree is a count that is at least 1, and its reciprocal
  square root is a positive real.
-/
import Mathlib.Data.EReal.Operations
import Idealize.ShloMosaic.PureOps.Ideal.Laws
import proofs.«180567_j38208029065461_2_alg».proof.Proof.LibMaskSums

noncomputable section

namespace GcnLaw

open Idealize.ShloMosaic

/-- A sum of ones over the entries that satisfy `P` is a real number, non-negative, and at least 1 as soon as one entry
    satisfies `P`. -/
theorem count_real {ι : Type*} (s : Finset ι) (P : ι → Prop) [DecidablePred P] :
    ∃ r : ℝ, (∑ e ∈ s, if P e then (1 : EReal) else 0) = (r : EReal) ∧ 0 ≤ r ∧ ((∃ e ∈ s, P e) → 1 ≤ r) := by
  classical
  induction s using Finset.induction_on with
  | empty => exact ⟨0, by simp, le_refl _, fun ⟨e, he, _⟩ => absurd he (Finset.notMem_empty e)⟩
  | insert a s ha ih =>
    obtain ⟨r, hr, hr0, hr1⟩ := ih
    rw [Finset.sum_insert ha, hr]
    by_cases hp : P a
    · refine ⟨1 + r, ?_, by linarith, fun _ => by linarith⟩
      rw [if_pos hp, EReal.coe_add, EReal.coe_one]
    · refine ⟨r, ?_, hr0, fun ⟨e, he, hpe⟩ => ?_⟩
      · rw [if_neg hp, zero_add]
      · rcases Finset.mem_insert.mp he with rfl | hs
        · exact absurd hpe hp
        · exact hr1 ⟨e, hs, hpe⟩

/-- The reciprocal square root of a degree that counts at least one edge is a non-negative real. -/
theorem rsqrt_count {ι : Type*} [Fintype ι] (P : ι → Prop) [DecidablePred P] (hex : ∃ e, P e) :
    ∃ c : ℝ, 0 ≤ c ∧ Ideal.rsqrt (0 + ∑ e, if P e then (1 : EReal) else 0) = (c : EReal) := by
  obtain ⟨r, hr, _, hr1⟩ := count_real Finset.univ P
  obtain ⟨e, he⟩ := hex
  have h1 : 1 ≤ r := hr1 ⟨e, Finset.mem_univ e, he⟩
  refine ⟨(Real.sqrt r)⁻¹, inv_nonneg.mpr (Real.sqrt_nonneg r), ?_⟩
  rw [hr, zero_add, Ideal.rsqrt_coe, if_neg (by linarith), if_neg (by linarith)]

/-- THE LAYER LAW. The common factor `t` of the edges summed into one row comes out of the sum: it is a non-negative
    real as soon as the sum has a term, and an empty sum is 0 on both sides. -/
theorem layer_law {ι : Type*} [Fintype ι] (P : ι → Prop) [DecidablePred P] (a u v : ι → EReal) (t b : EReal)
    (hv : ∀ e, P e → v e = t) (ht : (∃ e, P e) → ∃ c : ℝ, 0 ≤ c ∧ t = (c : EReal)) :
    (0 + ∑ e, if P e then a e * u e else 0) * t + b = (0 + ∑ e, if P e then a e * (u e * v e) else 0) + b := by
  congr 1
  rw [zero_add, zero_add]
  by_cases hex : ∃ e, P e
  · obtain ⟨c, hc, rfl⟩ := ht hex
    rw [← LibMaskSums.sum_mul_coe_of_nonneg _ _ c hc]
    refine Finset.sum_congr rfl fun e _ => ?_
    by_cases hp : P e
    · rw [if_pos hp, if_pos hp, hv e hp, mul_assoc]
    · rw [if_neg hp, if_neg hp, zero_mul]
  · have h0 : ∀ e, ¬ P e := fun e hp => hex ⟨e, hp⟩
    rw [Finset.sum_eq_zero (fun e _ => if_neg (h0 e)), Finset.sum_eq_zero (fun e _ => if_neg (h0 e)), zero_mul]

end GcnLaw

end
-- ==== Proof.LibGcnLayer.lean ====
/-
  One graph-convolution layer, in the two arrangements a program may spell it, as functions of whole arrays over any
  extents: N nodes, D features, E edges (self loops included).

  Both take the projected features, gather the row of each edge's source node, and sum the gathered rows into the row of
  the edge's destination node; s is the vector of reciprocal square roots of the in-degrees.
    * the edge-scaled form multiplies each gathered row by the edge's own norm s[src e] · s[dst e] before the sum;
    * the node-scaled form takes features that were already multiplied, row by row, by s (the prescale), sums the
      gathered rows with no per-edge factor, and multiplies row i of the sum by s[i] afterwards (the postscale).
  They agree entry by entry by the layer law (GcnLaw.layer_law): every edge summed into row i has destination i, so the
  destination's factor is the common factor s[i], a non-negative real whenever row i receives an edge at all.
  What the law asks about the index columns and about s is stated as two hypotheses, which a program's own index
  arithmetic and degree computation discharge.
-/
import Idealize.ShloMosaic.Lib.ValueIdx
import Idealize.ShloMosaic.Lib.Pipeline.Value
import Idealize.ShloMosaic.PureOps.Ideal.Laws
import proofs.«180567_j38208029065461_2_alg».proof.Proof.LibRowGather
import proofs.«180567_j38208029065461_2_alg».proof.Proof.LibRowScatter
import proofs.«180567_j38208029065461_2_alg».proof.Proof.LibSegmentIdx
import proofs.«180567_j38208029065461_2_alg».proof.Proof.LibGcnLaw

noncomputable section

namespace GcnLayer

open Idealize.ShloMosaic Idealize.ShloMosaic.ValueIdx

/-! ## Broadcasts along named axes, read at an entry -/

section Layouts

variable {α : Type}

/-- A vector of length n placed as the [n, 1] column reads, at (e, 0), the vector at e. -/
theorem col_of_vec_apply {n : ℕ} (h : (⟨1, ![n]⟩ : Shape).BroadcastsInDim ⟨2, ![n, 1]⟩ (![0] : Fin 1 → Fin 2))
    (x : (⟨1, ![n]⟩ : Shape).Idx → α) (e : Fin n) (z : Fin 1) :
    broadcastInDim ⟨2, ![n, 1]⟩ (![0] : Fin 1 → Fin 2) h x (ix2 e z) = x (ix1 e) := by
  refine broadcastInDim_apply _ h x _ _ fun a => ?_
  match a with
  | ⟨0, _⟩ =>
    show e.val = if n = 1 then 0 else e.val
    split
    · have := e.isLt; omega
    · rfl

/-- An [a, 1] column stretched to [a, b] reads, at (p, q), the column at p. -/
theorem mat_of_col_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ (![0, 1] : Fin 2 → Fin 2) h x (ix2 p q) = x (ix2 p (0 : Fin 1)) := by
  refine broadcastInDim_apply _ h x _ _ fun ax => ?_
  match ax with
  | ⟨0, _⟩ =>
    show p.val = if a = 1 then 0 else p.val
    split
    · have := p.isLt; omega
    · rfl
  | ⟨1, _⟩ => rfl

/-- A vector of length b placed as the [1, b] row reads, at (0, q), the vector at q. -/
theorem row_of_vec_apply {b : ℕ} (h : (⟨1, ![b]⟩ : Shape).BroadcastsInDim ⟨2, ![1, b]⟩ (![1] : Fin 1 → Fin 2))
    (x : (⟨1, ![b]⟩ : Shape).Idx → α) (z : Fin 1) (q : Fin b) :
    broadcastInDim ⟨2, ![1, b]⟩ (![1] : Fin 1 → Fin 2) h x (ix2 z q) = x (ix1 q) := by
  refine broadcastInDim_apply _ h x _ _ fun a => ?_
  match a with
  | ⟨0, _⟩ =>
    show q.val = if b = 1 then 0 else q.val
    split
    · have := q.isLt; omega
    · rfl

/-- A [1, b] row stretched to [a, b] reads, at (p, q), the row at q. -/
theorem mat_of_row_apply {a b : ℕ} (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ (![0, 1] : Fin 2 → Fin 2) h x (ix2 p q) = x (ix2 (0 : Fin 1) q) := by
  refine broadcastInDim_apply _ h x _ _ fun ax => ?_
  match ax with
  | ⟨0, _⟩ => rfl
  | ⟨1, _⟩ =>
    show q.val = if b = 1 then 0 else q.val
    split
    · have := q.isLt; omega
    · rfl

/-- A scalar stretched to any shape reads the scalar everywhere. -/
theorem splat_apply {t : Shape} (h : (⟨0, ![]⟩ : Shape).BroadcastsInDim t (![] : Fin 0 → Fin t.rank))
    (x : (⟨0, ![]⟩ : Shape).Idx → α) (j : t.Idx) :
    broadcastInDim t (![] : Fin 0 → Fin t.rank) h x j = x (fun a => a.elim0) :=
  broadcastInDim_apply _ h x j _ fun a => a.elim0

end Layouts

/-! ## The two arrangements of a layer -/

/-- The shape relations the operations of a layer ask of its extents. -/
structure Extents (N D E : ℕ) : Prop where
  hN : 0 < N
  wfG : GatherDims.WF ⟨2, ![N, D]⟩ ⟨2, ![E, 1]⟩ ⟨2, ![E, D]⟩ [1] [0] [] [0] [] 1 ![1, D]
  wfS : ScatterDims.WF ⟨2, ![N, D]⟩ ⟨2, ![E, 1]⟩ ⟨2, ![E, D]⟩ [1] [0] [0] 1
  wfV : GatherDims.WF ⟨1, ![N]⟩ ⟨2, ![E, 1]⟩ ⟨1, ![E]⟩ [] [0] [] [0] [] 1 ![1]
  b0 : (⟨0, ![]⟩ : Shape).BroadcastsInDim ⟨2, ![N, D]⟩ (![] : Fin 0 → Fin 2)
  bNcol : (⟨1, ![N]⟩ : Shape).BroadcastsInDim ⟨2, ![N, 1]⟩ (![0] : Fin 1 → Fin 2)
  bNmat : (⟨2, ![N, 1]⟩ : Shape).BroadcastsInDim ⟨2, ![N, D]⟩ (![0, 1] : Fin 2 → Fin 2)
  bEcol : (⟨1, ![E]⟩ : Shape).BroadcastsInDim ⟨2, ![E, 1]⟩ (![0] : Fin 1 → Fin 2)
  bEmat : (⟨2, ![E, 1]⟩ : Shape).BroadcastsInDim ⟨2, ![E, D]⟩ (![0, 1] : Fin 2 → Fin 2)
  bDrow : (⟨1, ![D]⟩ : Shape).BroadcastsInDim ⟨2, ![1, D]⟩ (![1] : Fin 1 → Fin 2)
  bDmat : (⟨2, ![1, D]⟩ : Shape).BroadcastsInDim ⟨2, ![N, D]⟩ (![0, 1] : Fin 2 → Fin 2)

variable {N D E : ℕ}

/-- The bias vector as the [N, D] matrix of its copies. -/
def biasMat (f : Extents N D E) (b : FVec Ideal ⟨1, ![D]⟩ .f32) : FVec Ideal ⟨2, ![N, D]⟩ .f32 :=
  broadcastInDim ⟨2, ![N, D]⟩ (![0, 1] : Fin 2 → Fin 2) f.bDmat (broadcastInDim ⟨2, ![1, D]⟩ (![1] : Fin 1 → Fin 2) f.bDrow b)

/-- The zero matrix the segment sum starts from. -/
def zeroMat (f : Extents N D E) : FVec Ideal ⟨2, ![N, D]⟩ .f32 :=
  broadcastInDim ⟨2, ![N, D]⟩ (![] : Fin 0 → Fin 2) f.b0 (constant (F := Ideal) ⟨0, ![]⟩ .f32 0x00000000#32)

/-- THE NODE-SCALED FORM: prescaled features `hs`, gathered by source, summed by destination, then each row times s. -/
def nodeScaled (f : Extents N D E) (hs : FVec Ideal ⟨2, ![N, D]⟩ .f32) (sv : FVec Ideal ⟨1, ![N]⟩ .f32)
    (idxS idxD : IVec ⟨2, ![E, 1]⟩ 32) (b : FVec Ideal ⟨1, ![D]⟩ .f32) : FVec Ideal ⟨2, ![N, D]⟩ .f32 :=
  addf (mulf (Host.scatterAdd (LibRowScatter.addRowsDims N D E f.wfS) (zeroMat f) idxD
        (Host.gather (LibRowGather.rowDims N D E f.wfG) hs idxS))
      (broadcastInDim ⟨2, ![N, D]⟩ (![0, 1] : Fin 2 → Fin 2) f.bNmat
        (broadcastInDim ⟨2, ![N, 1]⟩ (![0] : Fin 1 → Fin 2) f.bNcol sv)))
    (biasMat f b)

/-- THE EDGE-SCALED FORM: features `h`, gathered by source, each gathered row times its edge's norm
    s[src e] · s[dst e], summed by destination. -/
def edgeScaled (f : Extents N D E) (h : FVec Ideal ⟨2, ![N, D]⟩ .f32) (sv : FVec Ideal ⟨1, ![N]⟩ .f32)
    (idxS idxD idxND : IVec ⟨2, ![E, 1]⟩ 32) (b : FVec Ideal ⟨1, ![D]⟩ .f32) : FVec Ideal ⟨2, ![N, D]⟩ .f32 :=
  addf (Host.scatterAdd (LibRowScatter.addRowsDims N D E f.wfS) (zeroMat f) idxD
      (mulf (Host.gather (LibRowGather.rowDims N D E f.wfG) h idxS)
        (broadcastInDim ⟨2, ![E, D]⟩ (![0, 1] : Fin 2 → Fin 2) f.bEmat
          (broadcastInDim ⟨2, ![E, 1]⟩ (![0] : Fin 1 → Fin 2) f.bEcol
            (mulf (Host.gather (LibSegmentIdx.takeVecDims N E f.wfV) sv idxS)
              (Host.gather (LibSegmentIdx.takeVecDims N E f.wfV) sv idxND))))))
    (biasMat f b)

/-- THE TWO FORMS AGREE, given that the prescaled features are the features times s row by row (`hhs`), that an edge
    summed into row i gathers its destination's factor at row i (`hA`: the index column the sum reads and the one the
    factor is gathered by name the same node), and that s at a row receiving an edge is a non-negative real (`hB`). -/
theorem nodeScaled_eq_edgeScaled (f : Extents N D E) (h hs : FVec Ideal ⟨2, ![N, D]⟩ .f32) (sv : FVec Ideal ⟨1, ![N]⟩ .f32)
    (idxS idxD idxND : IVec ⟨2, ![E, 1]⟩ 32) (b : FVec Ideal ⟨1, ![D]⟩ .f32)
    (hhs : ∀ (i : Fin N) (j : Fin D), hs (ix2 i j) = h (ix2 i j) * sv (ix1 i))
    (hA : ∀ (e : Fin E) (i : Fin N), (idxD (ix2 e (0 : Fin 1))).toInt = ((i : ℕ) : ℤ) →
      LibRowGather.clampRow N f.hN (idxND (ix2 e (0 : Fin 1))) = i)
    (hB : ∀ i : Fin N, (∃ e : Fin E, (idxD (ix2 e (0 : Fin 1))).toInt = ((i : ℕ) : ℤ)) →
      ∃ c : ℝ, 0 ≤ c ∧ sv (ix1 i) = (c : EReal)) :
    nodeScaled f hs sv idxS idxD b = edgeScaled f h sv idxS idxD idxND b := by
  funext idx
  obtain ⟨i, j, rfl⟩ : ∃ (i : Fin N) (j : Fin D), idx = ix2 i j := ⟨idx 0, idx 1, eq_ix2 idx⟩
  unfold nodeScaled edgeScaled
  rw [addf_apply, addf_apply, mulf_apply, LibRowScatter.scatterAdd_rows_apply, LibRowScatter.scatterAdd_rows_apply,
    mat_of_col_apply, col_of_vec_apply]
  have hz : zeroMat f (ix2 i j) = 0 := by
    unfold zeroMat
    rw [splat_apply, constant_apply, Ideal.ofBits_zero_f32]
  have hL : ∀ e : Fin E, Host.gather (LibRowGather.rowDims N D E f.wfG) hs idxS (ix2 e j)
      = h (ix2 (LibRowGather.clampRow N f.hN (idxS (ix2 e (0 : Fin 1)))) j)
        * sv (ix1 (LibRowGather.clampRow N f.hN (idxS (ix2 e (0 : Fin 1))))) := fun e => by
    rw [LibRowGather.gather_rows_apply f.hN, hhs]
  have hR : ∀ e : Fin E, (mulf (Host.gather (LibRowGather.rowDims N D E f.wfG) h idxS)
        (broadcastInDim ⟨2, ![E, D]⟩ (![0, 1] : Fin 2 → Fin 2) f.bEmat
          (broadcastInDim ⟨2, ![E, 1]⟩ (![0] : Fin 1 → Fin 2) f.bEcol
            (mulf (Host.gather (LibSegmentIdx.takeVecDims N E f.wfV) sv idxS)
              (Host.gather (LibSegmentIdx.takeVecDims N E f.wfV) sv idxND))))) (ix2 e j)
      = h (ix2 (LibRowGather.clampRow N f.hN (idxS (ix2 e (0 : Fin 1)))) j)
        * (sv (ix1 (LibRowGather.clampRow N f.hN (idxS (ix2 e (0 : Fin 1)))))
          * sv (ix1 (LibRowGather.clampRow N f.hN (idxND (ix2 e (0 : Fin 1)))))) := fun e => by
    rw [mulf_apply, LibRowGather.gather_rows_apply f.hN, mat_of_col_apply, col_of_vec_apply, mulf_apply,
      LibSegmentIdx.gather_vec_apply f.hN, LibSegmentIdx.gather_vec_apply f.hN]
    rfl
  rw [hz]
  simp only [hL, hR]
  exact GcnLaw.layer_law (fun e : Fin E => (idxD (ix2 e (0 : Fin 1))).toInt = ((i : ℕ) : ℤ))
    (fun e => h (ix2 (LibRowGather.clampRow N f.hN (idxS (ix2 e (0 : Fin 1)))) j))
    (fun e => sv (ix1 (LibRowGather.clampRow N f.hN (idxS (ix2 e (0 : Fin 1))))))
    (fun e => sv (ix1 (LibRowGather.clampRow N f.hN (idxND (ix2 e (0 : Fin 1))))))
    (sv (ix1 i)) (biasMat f b (ix2 i j))
    (fun e he => by rw [hA e i he]) (hB i)

end GcnLayer

end
-- ==== Proof.LibScaledLayer.lean ====
/-
  A normalised graph layer in the arrangement that keeps every per-edge factor out of the edge sum, over any extents:
  N nodes, K input features, D output features, E edges (self loops included).

  The dense stage before the edge sum computes, for node i,  y[i, j] = (Σ_k (x[i, k] · a[k] + b[k]) · W[k, j]) · s[i]:
  the rows of x scaled and shifted feature by feature, projected, and already multiplied by the node's factor s[i].
  The edge sum then adds the gathered rows with no factor of its own, and the dense stage after it multiplies row i by
  s[i] once more, adds the bias and replaces negative entries by zero.

  The textbook arrangement projects the already normalised features xr = x · a + b, multiplies every gathered row by
  its edge's factor s[src e] · s[dst e] inside the sum, adds the bias and clips. The two agree entry by entry: the
  prescaled features are the projected features times s row by row, and the factor of an edge's destination is the
  common factor s[i] of all the edges summed into row i (GcnLayer.nodeScaled_eq_edgeScaled), so it may wait until after
  the sum. What this asks of the index columns and of s is carried as the same two hypotheses.
-/
import Idealize.ShloMosaic.Lib.ValueIdx
import Idealize.ShloMosaic.Lib.Pipeline.Value
import Idealize.ShloMosaic.PureOps.Ideal.Laws
import proofs.«180567_j38208029065461_2_alg».proof.Proof.NodeStages
import proofs.«180567_j38208029065461_2_alg».proof.Proof.LibMatIdx
import proofs.«180567_j38208029065461_2_alg».proof.Proof.LibGcnLayer

noncomputable section

namespace ScaledLayer

open Idealize.ShloMosaic Idealize.ShloMosaic.ValueIdx

variable {N K D E : ℕ}

/-- The node-scaled layer at the entry (i, j): the plain segment sum of the gathered rows, times the node's factor,
    plus the bias. -/
theorem nodeScaled_apply (f : GcnLayer.Extents N D E) (hs : FVec Ideal ⟨2, ![N, D]⟩ .f32)
    (sv : FVec Ideal ⟨1, ![N]⟩ .f32) (idxS idxD : IVec ⟨2, ![E, 1]⟩ 32) (b : FVec Ideal ⟨1, ![D]⟩ .f32)
    (i : Fin N) (j : Fin D) :
    GcnLayer.nodeScaled f hs sv idxS idxD b (ix2 i j)
      = Host.scatterAdd (LibRowScatter.addRowsDims N D E f.wfS) (GcnLayer.zeroMat f) idxD
          (Host.gather (LibRowGather.rowDims N D E f.wfG) hs idxS) (ix2 i j) * sv (ix1 i) + b (ix1 j) := by
  unfold GcnLayer.nodeScaled GcnLayer.biasMat
  rw [addf_apply, mulf_apply, GcnLayer.mat_of_col_apply, GcnLayer.col_of_vec_apply, GcnLayer.mat_of_row_apply,
    GcnLayer.row_of_vec_apply]

/-- THE TWO ARRANGEMENTS OF A NORMALISED LAYER AGREE. The features come as x with a row of scales a and a row of shifts
    b on one side and already normalised, xr, on the other (`hx`); the node factors as a column on one side and a vector
    on the other (`hsc`), the bias as a row and as a vector (`hb`); `zero` is the matrix of zeros the clip compares
    with. `hA` and `hB` are the two hypotheses of the layer law. -/
theorem clip_prescaled_eq_clip_edgeScaled (f : GcnLayer.Extents N D E)
    (Dd : DotDims ⟨2, ![N, K]⟩ ⟨2, ![K, D]⟩ ⟨2, ![N, D]⟩)
    (hr : Dd.contr.rank = 1) (hs : Dd.contr.size ⟨0, by omega⟩ = K)
    (hl0 : ∀ j k, (Dd.lhsIdx j k 0).val = (j 0).val) (hl1 : ∀ j k, (Dd.lhsIdx j k 1).val = (k ⟨0, by omega⟩).val)
    (hr0 : ∀ j k, (Dd.rhsIdx j k 0).val = (k ⟨0, by omega⟩).val) (hr1 : ∀ j k, (Dd.rhsIdx j k 1).val = (j 1).val)
    (x xr : FVec Ideal ⟨2, ![N, K]⟩ .f32) (a b : FVec Ideal ⟨2, ![1, K]⟩ .f32) (W : FVec Ideal ⟨2, ![K, D]⟩ .f32)
    (sv : FVec Ideal ⟨1, ![N]⟩ .f32) (scol : FVec Ideal ⟨2, ![N, 1]⟩ .f32)
    (bv : FVec Ideal ⟨1, ![D]⟩ .f32) (brow : FVec Ideal ⟨2, ![1, D]⟩ .f32)
    (idxS idxD idxND : IVec ⟨2, ![E, 1]⟩ 32) (zero : FVec Ideal ⟨2, ![N, D]⟩ .f32)
    (hx : ∀ (i : Fin N) (k : Fin K), x (ix2 i k) * a (ix2 (0 : Fin 1) k) + b (ix2 (0 : Fin 1) k) = xr (ix2 i k))
    (hsc : ∀ i : Fin N, scol (ix2 i (0 : Fin 1)) = sv (ix1 i))
    (hb : ∀ j : Fin D, brow (ix2 (0 : Fin 1) j) = bv (ix1 j))
    (hzero : ∀ idx, zero idx = 0)
    (hA : ∀ (e : Fin E) (i : Fin N), (idxD (ix2 e (0 : Fin 1))).toInt = ((i : ℕ) : ℤ) →
      LibRowGather.clampRow N f.hN (idxND (ix2 e (0 : Fin 1))) = i)
    (hB : ∀ i : Fin N, (∃ e : Fin E, (idxD (ix2 e (0 : Fin 1))).toInt = ((i : ℕ) : ℤ)) →
      ∃ c : ℝ, 0 ≤ c ∧ sv (ix1 i) = (c : EReal)) :
    NodeStages.scaledBiasClip
        (Host.scatterAdd (LibRowScatter.addRowsDims N D E f.wfS) (GcnLayer.zeroMat f) idxD
          (Host.gather (LibRowGather.rowDims N D E f.wfG) (NodeStages.scaledProjection x a b W scol) idxS))
        scol brow
      = maximumf (GcnLayer.edgeScaled f (Host.dotGeneral (F := Ideal) Dd none xr W) sv idxS idxD idxND bv) zero := by
  funext idx
  obtain ⟨i, j, rfl⟩ : ∃ (i : Fin N) (j : Fin D), idx = ix2 i j := ⟨idx 0, idx 1, eq_ix2 idx⟩
  rw [NodeStages.scaledBiasClip_apply, maximumf_apply, hzero, hsc, hb]
  congr 1
  rw [← nodeScaled_apply f _ sv idxS idxD bv i j]
  refine congrFun (GcnLayer.nodeScaled_eq_edgeScaled f _ _ sv idxS idxD idxND bv (fun i j => ?_) hA hB) (ix2 i j)
  rw [NodeStages.scaledProjection_apply, hsc, LibMatIdx.dot2_apply Dd hr hs hl0 hl1 hr0 hr1]
  congr 1
  exact Finset.sum_congr rfl fun k _ => by rw [hx]; rfl

end ScaledLayer

end
-- ==== Proof.LibReciprocalScale.lean ====
/-
  A product with a reciprocal against a quotient, on the extended reals.

  At exact arithmetic a quotient a / d by d ≠ 0 is a · d⁻¹, and 1 / d is d⁻¹, so a · (1 / d) = a / d for EVERY extended
  real a, the infinities included: no finiteness is needed, only d ≠ 0. A maximum with the value of the f32 word
  0x3F800000 (the real 1) is at least 1, hence never 0: a degree clamped below at 1 can always be divided by.
-/
import Idealize.ShloMosaic.PureOps.Ideal.Laws

noncomputable section

namespace LibReciprocalScale

open Idealize.ShloMosaic

/-- The f32 word 0x3F800000 denotes the real 1. -/
theorem ofBits_one_f32 : Ideal.ofBits .f32 0x3F800000#32 = 1 := by
  simp [Ideal.ofBits, Ideal.ieee, -EReal.coe_mul]; norm_num

/-- A maximum with the word 0x3F800000's value is not 0. -/
theorem max_one_ne_zero (x : EReal) : max x (Ideal.ofBits .f32 0x3F800000#32) ≠ 0 := by
  rw [ofBits_one_f32]
  exact ne_of_gt (lt_of_lt_of_le zero_lt_one (le_max_right x 1))

/-- Off zero, the product with the reciprocal is the quotient, on every extended real. -/
theorem mul_one_div (a d : EReal) (hd : d ≠ 0) : a * Ideal.div 1 d = Ideal.div a d := by
  unfold Ideal.div
  rw [if_neg hd, if_neg hd, one_mul]

end LibReciprocalScale

end
-- ==== Proof.LibGcnIndex.lean ====
/-
  The graph's index columns and degrees, over any extents: N nodes, E edges (self loops included).

  A program spells a node index three ways: the raw signed word the segment sum reads (a word outside [0, N) lands
  nowhere), the word with a negative value wrapped by + N, and that word clamped into [0, N − 1] by the gather. For an
  edge that the segment sum adds into row i the raw word IS i, with 0 ≤ i < N, so the wrap leaves it alone and the clamp
  leaves it alone: the gathered factor of the edge's destination is the factor of row i.

  The in-degree of node i is the segment sum of ones over the destination column, a count of edges, and the node's
  factor is its reciprocal square root. At a node that some edge enters the count is at least 1 and the factor is a
  non-negative real number.
-/
import Idealize.ShloMosaic.Lib.ValueIdx
import Idealize.ShloMosaic.Lib.Pipeline.Value
import Idealize.ShloMosaic.PureOps.Ideal.Laws
import proofs.«180567_j38208029065461_2_alg».proof.Proof.LibRowGather
import proofs.«180567_j38208029065461_2_alg».proof.Proof.LibSegmentIdx
import proofs.«180567_j38208029065461_2_alg».proof.Proof.LibReciprocalScale
import proofs.«180567_j38208029065461_2_alg».proof.Proof.LibGcnLaw
import proofs.«180567_j38208029065461_2_alg».proof.Proof.LibGcnLayer

noncomputable section

namespace GcnIndex

open Idealize.ShloMosaic Idealize.ShloMosaic.ValueIdx

/-- The shape relations the index and degree operations ask of the extents. -/
structure Extents (N E : ℕ) : Prop where
  hN : 0 < N
  bE0 : (⟨0, ![]⟩ : Shape).BroadcastsInDim ⟨1, ![E]⟩ (![] : Fin 0 → Fin 1)
  bN0 : (⟨0, ![]⟩ : Shape).BroadcastsInDim ⟨1, ![N]⟩ (![] : Fin 0 → Fin 1)
  bEcol : (⟨1, ![E]⟩ : Shape).BroadcastsInDim ⟨2, ![E, 1]⟩ (![0] : Fin 1 → Fin 2)
  wfSV : ScatterDims.WF ⟨1, ![N]⟩ ⟨2, ![E, 1]⟩ ⟨1, ![E]⟩ [] [0] [0] 1

variable {N E : ℕ}

/-- A vector of node indices as the [E, 1] index column. -/
def col (f : Extents N E) (v : IVec ⟨1, ![E]⟩ 32) : IVec ⟨2, ![E, 1]⟩ 32 :=
  broadcastInDim ⟨2, ![E, 1]⟩ (![0] : Fin 1 → Fin 2) f.bEcol v

/-- A vector of node indices with negative entries wrapped by adding the word `nw` (the node count). -/
def wrap (f : Extents N E) (nw : BitVec 32) (v : IVec ⟨1, ![E]⟩ 32) : IVec ⟨1, ![E]⟩ 32 :=
  select (cmpi .slt v (broadcastInDim ⟨1, ![E]⟩ (![] : Fin 0 → Fin 1) f.bE0 (constantI ⟨0, ![]⟩ 32 0#32)))
    (addi v (broadcastInDim ⟨1, ![E]⟩ (![] : Fin 0 → Fin 1) f.bE0 (constantI ⟨0, ![]⟩ 32 nw))) v

/-- The in-degrees: the segment sum of ones over the destination column, from zero. -/
def deg (f : Extents N E) (d : IVec ⟨1, ![E]⟩ 32) : FVec Ideal ⟨1, ![N]⟩ .f32 :=
  Host.scatterAdd (F := Ideal) (LibSegmentIdx.addVecDims N E f.wfSV)
    (broadcastInDim ⟨1, ![N]⟩ (![] : Fin 0 → Fin 1) f.bN0 (constant (F := Ideal) ⟨0, ![]⟩ .f32 0x00000000#32))
    (col f d)
    (broadcastInDim ⟨1, ![E]⟩ (![] : Fin 0 → Fin 1) f.bE0 (constant (F := Ideal) ⟨0, ![]⟩ .f32 0x3F800000#32))

/-- The nodes' factors: the reciprocal square roots of the in-degrees. -/
def invSqrtDeg (f : Extents N E) (d : IVec ⟨1, ![E]⟩ 32) : FVec Ideal ⟨1, ![N]⟩ .f32 :=
  Host.rsqrt (F := Ideal) (deg f d)

/-- A word whose signed value is not negative is left alone by the wrap. -/
theorem wrap_apply_of_nonneg (f : Extents N E) (nw : BitVec 32) (d : IVec ⟨1, ![E]⟩ 32) (e : Fin E)
    (h : 0 ≤ (d (ix1 e)).toInt) : wrap f nw d (ix1 e) = d (ix1 e) := by
  unfold wrap
  show Scalar.select (IntOp.cmpi .slt (d (ix1 e))
      (broadcastInDim ⟨1, ![E]⟩ (![] : Fin 0 → Fin 1) f.bE0 (constantI ⟨0, ![]⟩ 32 0#32) (ix1 e))) _ (d (ix1 e)) = d (ix1 e)
  rw [GcnLayer.splat_apply]
  show Scalar.select (BitVec.ofBool ((d (ix1 e)).slt 0#32)) _ (d (ix1 e)) = d (ix1 e)
  have hs : (d (ix1 e)).slt 0#32 = false := by
    unfold BitVec.slt
    simp only [BitVec.toInt_zero, decide_eq_false_iff_not, not_lt]
    exact h
  rw [hs]
  rfl

/-- THE DESTINATION'S ROW: for an edge the segment sum adds into row i, the wrapped and clamped destination is i. -/
theorem wrap_clamp (f : Extents N E) (nw : BitVec 32) (d : IVec ⟨1, ![E]⟩ 32) (e : Fin E) (i : Fin N)
    (h : (col f d (ix2 e (0 : Fin 1))).toInt = ((i : ℕ) : ℤ)) :
    LibRowGather.clampRow N f.hN (col f (wrap f nw d) (ix2 e (0 : Fin 1))) = i := by
  unfold col at h ⊢
  rw [GcnLayer.col_of_vec_apply] at h ⊢
  rw [wrap_apply_of_nonneg f nw d e (by rw [h]; exact Int.natCast_nonneg _)]
  apply Fin.ext
  show min (d (ix1 e)).toInt.toNat (N - 1) = i.val
  rw [h, Int.toNat_natCast]
  have := i.isLt
  omega

/-- THE FACTOR IS REAL at a node that some edge enters. -/
theorem invSqrtDeg_real (f : Extents N E) (d : IVec ⟨1, ![E]⟩ 32) (i : Fin N)
    (hex : ∃ e : Fin E, (col f d (ix2 e (0 : Fin 1))).toInt = ((i : ℕ) : ℤ)) :
    ∃ c : ℝ, 0 ≤ c ∧ invSqrtDeg f d (ix1 i) = (c : EReal) := by
  obtain ⟨c, hc, hcv⟩ := GcnLaw.rsqrt_count (fun e : Fin E => (col f d (ix2 e (0 : Fin 1))).toInt = ((i : ℕ) : ℤ)) hex
  refine ⟨c, hc, ?_⟩
  rw [← hcv]
  show Ideal.rsqrt (deg f d (ix1 i)) = _
  congr 1
  unfold deg
  rw [LibSegmentIdx.scatterAdd_vec_apply, GcnLayer.splat_apply, constant_apply, Ideal.ofBits_zero_f32]
  congr 1
  refine Finset.sum_congr rfl fun e _ => ?_
  rw [GcnLayer.splat_apply, constant_apply, LibReciprocalScale.ofBits_one_f32]
  rfl

end GcnIndex

end
-- ==== Proof.LibNodeFactor.lean ====
/-
  The node factor of a symmetrically normalised graph layer, guarded against isolated nodes, over any extents:
  N nodes, E edges.

  The in-degree of node i is the segment sum of ones over the destination column: the number of edges whose destination
  word, read signed, is i. It is a real number and it is not negative. The factor is 1/√deg where the degree is
  positive and the given fill value (zero) elsewhere, so it is a non-negative real at EVERY node: where the guard holds
  the degree is a positive real and its reciprocal root is a positive real, and where it fails the fill value is 0.
  Also here: a vector of length n cast into the [n, 1] column, read at (p, 0), is the vector at p.
-/
import Idealize.ShloMosaic.Lib.ValueIdx
import Idealize.ShloMosaic.Lib.Pipeline.Value
import Idealize.ShloMosaic.PureOps.Ideal.Laws
import proofs.«180567_j38208029065461_2_alg».proof.Proof.LibSegmentIdx
import proofs.«180567_j38208029065461_2_alg».proof.Proof.LibReciprocalScale
import proofs.«180567_j38208029065461_2_alg».proof.Proof.LibGcnLaw
import proofs.«180567_j38208029065461_2_alg».proof.Proof.LibGcnLayer
import proofs.«180567_j38208029065461_2_alg».proof.Proof.LibGcnIndex

noncomputable section

namespace NodeFactor

open Idealize.ShloMosaic Idealize.ShloMosaic.ValueIdx

/-- A vector of length n cast into the [n, 1] column, read at (p, z): the vector at p. -/
theorem shapeCast_col_apply {α : Type} {n : ℕ} (x : (⟨1, ![n]⟩ : Shape).Idx → α)
    (h : (⟨1, ![n]⟩ : Shape).ShapeCasts ⟨2, ![n, 1]⟩) (p : Fin n) (z : Fin 1) :
    shapeCast ⟨2, ![n, 1]⟩ x h (ix2 p z) = x (ix1 p) := by
  refine shapeCast_apply x h _ _ ?_
  rw [Shape.rowMajor_val_one, Shape.rowMajor_val_two]
  show p.val = p.val * 1 + z.val
  have := z.isLt
  omega

variable {N E : ℕ}

/-- THE DEGREE IS A COUNT: entry i of the segment sum of ones is the number of edges whose destination is i. -/
theorem deg_count (f : GcnIndex.Extents N E) (d : IVec ⟨1, ![E]⟩ 32) (i : Fin N) :
    GcnIndex.deg f d (ix1 i)
      = 0 + ∑ e : Fin E, if (GcnIndex.col f d (ix2 e (0 : Fin 1))).toInt = ((i : ℕ) : ℤ) then (1 : EReal) else 0 := by
  unfold GcnIndex.deg
  rw [LibSegmentIdx.scatterAdd_vec_apply, GcnLayer.splat_apply, constant_apply, Ideal.ofBits_zero_f32]
  congr 1
  refine Finset.sum_congr rfl fun e _ => ?_
  rw [GcnLayer.splat_apply, constant_apply, LibReciprocalScale.ofBits_one_f32]
  rfl

/-- The degree is a non-negative real. -/
theorem deg_real (f : GcnIndex.Extents N E) (d : IVec ⟨1, ![E]⟩ 32) (i : Fin N) :
    ∃ r : ℝ, 0 ≤ r ∧ GcnIndex.deg f d (ix1 i) = (r : EReal) := by
  obtain ⟨r, hr, hr0, _⟩ := GcnLaw.count_real Finset.univ
    (fun e : Fin E => (GcnIndex.col f d (ix2 e (0 : Fin 1))).toInt = ((i : ℕ) : ℤ))
  exact ⟨r, hr0, by rw [deg_count, hr, zero_add]⟩

/-- THE GUARDED FACTOR IS A NON-NEGATIVE REAL AT EVERY NODE: 1/√deg where the degree exceeds the entries of `zero`
    (all of them 0), the entries of `fill` (all of them 0) elsewhere. -/
theorem guarded_factor_real (f : GcnIndex.Extents N E) (d : IVec ⟨1, ![E]⟩ 32)
    (zero fill : FVec Ideal ⟨1, ![N]⟩ .f32) (hzero : ∀ j, zero j = 0) (hfill : ∀ j, fill j = 0) (i : Fin N) :
    ∃ c : ℝ, 0 ≤ c ∧
      select (cmpf (F := Ideal) .ogt (GcnIndex.deg f d) zero) (Host.rsqrt (F := Ideal) (GcnIndex.deg f d)) fill (ix1 i)
        = (c : EReal) := by
  obtain ⟨r, hr0, hr⟩ := deg_real f d i
  show ∃ c : ℝ, 0 ≤ c ∧
    (if cmpf (F := Ideal) .ogt (GcnIndex.deg f d) zero (ix1 i) = 1 then Host.rsqrt (F := Ideal) (GcnIndex.deg f d) (ix1 i)
      else fill (ix1 i)) = (c : EReal)
  split
  · rename_i hgt
    have hlt : zero (ix1 i) < GcnIndex.deg f d (ix1 i) := by
      have h' : BitVec.ofBool (decide (zero (ix1 i) < GcnIndex.deg f d (ix1 i))) = 1#1 := hgt
      by_contra hn
      rw [decide_eq_false hn] at h'
      exact absurd h' (by decide)
    rw [hzero, hr] at hlt
    have hpos : 0 < r := by exact_mod_cast hlt
    refine ⟨(Real.sqrt r)⁻¹, inv_nonneg.mpr (Real.sqrt_nonneg r), ?_⟩
    show Ideal.rsqrt (GcnIndex.deg f d (ix1 i)) = _
    rw [hr, Ideal.rsqrt_coe, if_neg (not_lt.mpr hpos.le), if_neg hpos.ne']
  · exact ⟨0, le_refl _, by rw [hfill, EReal.coe_zero]⟩

end NodeFactor

end
-- ==== Proof.LibTileSums.lean ====
/-
  Finite sums over consecutive naturals, regrouped.

  A sum over the first `n * b` naturals can be taken in `n` consecutive blocks of `b` terms each, block `k`
  holding the naturals `b * k, …, b * k + (b - 1)`; and a sum over the first `b + b` naturals is the sum over
  its lower half plus the sum over its upper half. Both hold in any commutative additive monoid, since there a
  finite sum depends neither on the order nor on the grouping of its terms. The summand is a function of the
  natural number itself, so the statements say nothing about how the index types are spelt.
-/
import Mathlib.Algebra.BigOperators.Fin
import Mathlib.Data.Fintype.BigOperators

namespace LibTileSums

open Finset

variable {M : Type*} [AddCommMonoid M]

/-- The sum of `g` over the naturals below `n * b` is the sum, over the `n` blocks `k`, of the sum of `g`
    over the `b` naturals `b * k + j` (`j < b`) of block `k`: by induction on the number of blocks, the last
    block being split off by `Finset.sum_range_add`. -/
theorem sum_range_tiles (n b : ℕ) (g : ℕ → M) :
    ∑ i ∈ range (n * b), g i = ∑ k ∈ range n, ∑ j ∈ range b, g (b * k + j) := by
  induction n with
  | zero => simp
  | succ n ih => rw [Nat.succ_mul, sum_range_add, ih, sum_range_succ, Nat.mul_comm n b]

/-- A sum over `N = n * b` consecutive naturals, written over `Fin N`, taken in `n` blocks of `b`: the block
    index `k` runs over `range n` and the position `j` inside a block over `Fin b`, the term being `g` at the
    natural `b * k + j`. -/
theorem sum_tiles (n b N : ℕ) (hN : N = n * b) (g : ℕ → M) :
    ∑ c : Fin N, g c.val = ∑ k ∈ Finset.range n, ∑ j : Fin b, g (b * k + j.val) := by
  subst hN
  rw [Fin.sum_univ_eq_sum_range g (n * b), sum_range_tiles]
  exact sum_congr rfl fun k _ => (Fin.sum_univ_eq_sum_range (fun j => g (b * k + j)) b).symm

/-- A sum over `b + b` consecutive naturals, written over `Fin (b + b)`, is the sum over the lower half (the
    naturals `d`, `d < b`) plus the sum over the upper half (the naturals `b + d`, `d < b`). -/
theorem sum_halves (b : ℕ) (g : ℕ → M) :
    ∑ j : Fin (b + b), g j.val = ∑ d : Fin b, g d.val + ∑ d : Fin b, g (b + d.val) := by
  rw [Fin.sum_univ_add]
  simp only [Fin.val_castAdd, Fin.val_natAdd]

end LibTileSums
-- ==== Proof.LibBatchMoments.lean ====
/-
  The mean and the variance of a batch at exact arithmetic, and a column sum taken block by block.

  Let h be a finite family of real numbers with n > 0 members, S = ∑ h its sum, Q = ∑ h² the sum of its squares
  and μ = S / n its mean. The mean of the squared deviations is the mean of the squares minus the square of the
  mean:

      (∑ (h − μ)²) / n  =  Q / n − μ² ,

  because ∑ (h − μ)² = Q − 2 μ S + n μ² and S = n μ. Both sides are a non-negative real, so adding a positive
  real to either gives a positive real, which has a positive real reciprocal square root.

  On the extended reals the same holds as long as every member of the family is a real number (neither
  infinity): choose the real numbers, push the inclusion of the reals out through the sums, the products and the
  quotient by n, and the statement is the real one. With an infinite member it fails (∞ − ∞ appears).
  A program's sum along an axis reads "initial value + ∑", the initial value being zero, so every statement is
  given a second time with such a value in front of each sum.

  The second part: an accumulator that starts at zero and receives, block after block, the sum of the block's
  terms ends at the sum of all the terms. This uses only that the addition is commutative and associative, so
  it holds on the extended reals with no finiteness hypothesis.
-/
import Idealize.ShloMosaic.PureOps.Ideal.Laws
import proofs.«180567_j38208029065461_2_alg».proof.Proof.LibERealMatrix
import proofs.«180567_j38208029065461_2_alg».proof.Proof.LibIdealFinite
import proofs.«180567_j38208029065461_2_alg».proof.Proof.LibTileSums

noncomputable section

namespace LibBatchMoments

open Idealize.ShloMosaic LibERealMatrix LibIdealFinite Finset

/-! ### The identity on the reals -/

section Real
variable {ι : Type*}

/-- The sum of the squared deviations from any number m: ∑ (g − m)² = ∑ g² − 2 m ∑ g + n m², n the number
    of terms. -/
theorem real_sum_sq_dev (s : Finset ι) (g : ι → ℝ) {n : ℝ} (hcard : (s.card : ℝ) = n) (m : ℝ) :
    ∑ i ∈ s, (g i - m) * (g i - m) = (∑ i ∈ s, g i * g i) - 2 * m * (∑ i ∈ s, g i) + n * (m * m) := by
  have hexp : ∀ i, (g i - m) * (g i - m) = g i * g i - 2 * m * g i + m * m := fun i => by ring
  simp only [hexp]
  rw [Finset.sum_add_distrib, Finset.sum_sub_distrib, ← Finset.mul_sum, Finset.sum_const, nsmul_eq_mul, hcard]

/-- The mean of the squared deviations from the mean is the mean of the squares minus the square of the mean. -/
theorem real_mean_sq_dev (s : Finset ι) (g : ι → ℝ) {n : ℝ} (hn : n ≠ 0) (hcard : (s.card : ℝ) = n) :
    (∑ i ∈ s, (g i - (∑ i ∈ s, g i) / n) * (g i - (∑ i ∈ s, g i) / n)) / n
      = (∑ i ∈ s, g i * g i) / n - (∑ i ∈ s, g i) / n * ((∑ i ∈ s, g i) / n) := by
  rw [real_sum_sq_dev s g hcard]
  field_simp
  ring

/-- A mean of squares of real numbers is non-negative. -/
theorem real_mean_sq_nonneg (s : Finset ι) (g : ι → ℝ) {n : ℝ} (hn : 0 < n) (m : ℝ) :
    0 ≤ (∑ i ∈ s, (g i - m) * (g i - m)) / n :=
  div_nonneg (Finset.sum_nonneg fun i _ => mul_self_nonneg _) hn.le

end Real

/-! ### The identity on the extended reals, for a family of real numbers -/

section Extended
variable {ι : Type*}

/-- The word of 50000.0 in single precision denotes the real 50000. -/
theorem ofBits_50000 : Ideal.ofBits .f32 0x47435000#32 = ((50000 : ℝ) : EReal) := by
  simp [Ideal.ofBits, Ideal.ieee, -EReal.coe_mul]; norm_num

/-- The mean of finitely many real numbers, the quotient of their sum by a nonzero real, is a real number. -/
theorem fin_mean (s : Finset ι) (h : ι → EReal) (hh : ∀ i, Fin' (h i)) {N : EReal} {n : ℝ} (hN : N = (n : EReal))
    (hn : n ≠ 0) : Fin' (Ideal.div (∑ i ∈ s, h i) N) :=
  fin_div (Fin'.sum s h hh) (by rw [hN]; exact Fin'.coe n) (by rw [hN]; exact_mod_cast hn)

/-- The mean of the squared deviations of real numbers from ANY real number μ, the divisor a positive real:
    a real number, and non-negative. -/
theorem mean_sq_dev_fin_nonneg (s : Finset ι) (h : ι → EReal) (hh : ∀ i, Fin' (h i)) {N : EReal} {n : ℝ}
    (hN : N = (n : EReal)) (hn : 0 < n) {μ : EReal} (hμ : Fin' μ) :
    Fin' (Ideal.div (∑ i ∈ s, (h i - μ) * (h i - μ)) N) ∧ 0 ≤ Ideal.div (∑ i ∈ s, (h i - μ) * (h i - μ)) N := by
  have hd : ∀ i, Fin' ((h i - μ) * (h i - μ)) := fun i => (fin_sub (hh i) hμ).mul (fin_sub (hh i) hμ)
  have hNf : Fin' N := by rw [hN]; exact Fin'.coe n
  have hN0 : 0 < N := by rw [hN]; exact EReal.coe_pos.mpr hn
  exact ⟨fin_div (Fin'.sum s _ hd) hNf hN0.ne',
    div_nonneg_of_fin (Fin'.sum s _ hd) hNf (Finset.sum_nonneg fun i _ => fin_mul_self_nonneg (fin_sub (hh i) hμ)) hN0⟩

/-- THE VARIANCE LAW. For real numbers h i (i in s), n > 0 their number and μ their mean (∑ h) / n:
    the mean of the squared deviations from μ is the mean of the squares minus μ². -/
theorem mean_sq_dev_eq (s : Finset ι) (h : ι → EReal) (hh : ∀ i, Fin' (h i)) {N : EReal} {n : ℝ}
    (hN : N = (n : EReal)) (hn : 0 < n) (hcard : (s.card : ℝ) = n) {μ : EReal}
    (hμ : μ = Ideal.div (∑ i ∈ s, h i) N) :
    Ideal.div (∑ i ∈ s, (h i - μ) * (h i - μ)) N = Ideal.div (∑ i ∈ s, h i * h i) N - μ * μ := by
  obtain ⟨g, hg⟩ := exists_real_family h hh
  have hn0 : n ≠ 0 := hn.ne'
  have hS : ∑ i ∈ s, h i = ((∑ i ∈ s, g i : ℝ) : EReal) := by
    rw [coe_sum]; exact Finset.sum_congr rfl fun i _ => hg i
  have hμ' : μ = (((∑ i ∈ s, g i) / n : ℝ) : EReal) := by
    rw [hμ, hS, hN, div_coe_coe _ hn0]
  have hD : ∑ i ∈ s, (h i - μ) * (h i - μ)
      = ((∑ i ∈ s, (g i - (∑ i ∈ s, g i) / n) * (g i - (∑ i ∈ s, g i) / n) : ℝ) : EReal) := by
    rw [coe_sum]
    refine Finset.sum_congr rfl fun i _ => ?_
    rw [hg i, hμ', ← EReal.coe_sub, ← EReal.coe_mul]
  have hQ : ∑ i ∈ s, h i * h i = ((∑ i ∈ s, g i * g i : ℝ) : EReal) := by
    rw [coe_sum]
    refine Finset.sum_congr rfl fun i _ => ?_
    rw [hg i, ← EReal.coe_mul]
  rw [hD, hQ, hN, div_coe_coe _ hn0, div_coe_coe _ hn0, hμ', ← EReal.coe_mul, ← EReal.coe_sub]
  exact congrArg _ (real_mean_sq_dev s g hn0 hcard)

/-- Mean of the squares minus the square of the mean: a real number, and non-negative (it is a mean of squared
    deviations). -/
theorem mean_sq_sub_sq_mean_fin_nonneg (s : Finset ι) (h : ι → EReal) (hh : ∀ i, Fin' (h i)) {N : EReal} {n : ℝ}
    (hN : N = (n : EReal)) (hn : 0 < n) (hcard : (s.card : ℝ) = n) {μ : EReal}
    (hμ : μ = Ideal.div (∑ i ∈ s, h i) N) :
    Fin' (Ideal.div (∑ i ∈ s, h i * h i) N - μ * μ) ∧ 0 ≤ Ideal.div (∑ i ∈ s, h i * h i) N - μ * μ := by
  rw [← mean_sq_dev_eq s h hh hN hn hcard hμ]
  exact mean_sq_dev_fin_nonneg s h hh hN hn (by rw [hμ]; exact fin_mean s h hh hN hn.ne')

/-- A non-negative real plus a positive real: a positive real, whose reciprocal square root is a positive real.
    (A variance plus the small constant that keeps the normalisation away from zero.) -/
theorem fin_pos_add {v e : EReal} (hv : Fin' v) (hv0 : 0 ≤ v) (he : Fin' e) (he0 : 0 < e) :
    Fin' (v + e) ∧ 0 < v + e :=
  ⟨hv.add he, add_pos_of_nonneg_of_pos' hv0 he0⟩

theorem fin_rsqrt_add {v e : EReal} (hv : Fin' v) (hv0 : 0 ≤ v) (he : Fin' e) (he0 : 0 < e) :
    Fin' (Ideal.rsqrt (v + e)) ∧ 0 < Ideal.rsqrt (v + e) :=
  fin_rsqrt (fin_pos_add hv hv0 he he0).1 (fin_pos_add hv hv0 he he0).2

/-! #### The same with an initial value, which is zero, in front of each sum -/

/-- The variance law with each sum read as "initial value + ∑", the three initial values being zero. -/
theorem mean_sq_dev_eq_init (s : Finset ι) (h : ι → EReal) (hh : ∀ i, Fin' (h i)) {N : EReal} {n : ℝ}
    (hN : N = (n : EReal)) (hn : 0 < n) (hcard : (s.card : ℝ) = n) {z₁ z₂ z₃ : EReal} (h₁ : z₁ = 0) (h₂ : z₂ = 0)
    (h₃ : z₃ = 0) {μ : EReal} (hμ : μ = Ideal.div (z₁ + ∑ i ∈ s, h i) N) :
    Ideal.div (z₂ + ∑ i ∈ s, (h i - μ) * (h i - μ)) N = Ideal.div (z₃ + ∑ i ∈ s, h i * h i) N - μ * μ := by
  rw [h₁, zero_add] at hμ
  rw [h₂, h₃, zero_add, zero_add]
  exact mean_sq_dev_eq s h hh hN hn hcard hμ

/-- The variance law with 0 + in front of each sum. -/
theorem mean_sq_dev_eq_zero_add (s : Finset ι) (h : ι → EReal) (hh : ∀ i, Fin' (h i)) {N : EReal} {n : ℝ}
    (hN : N = (n : EReal)) (hn : 0 < n) (hcard : (s.card : ℝ) = n) {μ : EReal}
    (hμ : μ = Ideal.div (0 + ∑ i ∈ s, h i) N) :
    Ideal.div (0 + ∑ i ∈ s, (h i - μ) * (h i - μ)) N = Ideal.div (0 + ∑ i ∈ s, h i * h i) N - μ * μ :=
  mean_sq_dev_eq_init s h hh hN hn hcard rfl rfl rfl hμ

theorem fin_mean_init (s : Finset ι) (h : ι → EReal) (hh : ∀ i, Fin' (h i)) {N : EReal} {n : ℝ} (hN : N = (n : EReal))
    (hn : n ≠ 0) {z : EReal} (hz : z = 0) : Fin' (Ideal.div (z + ∑ i ∈ s, h i) N) := by
  rw [hz, zero_add]; exact fin_mean s h hh hN hn

theorem mean_sq_dev_fin_nonneg_init (s : Finset ι) (h : ι → EReal) (hh : ∀ i, Fin' (h i)) {N : EReal} {n : ℝ}
    (hN : N = (n : EReal)) (hn : 0 < n) {μ : EReal} (hμ : Fin' μ) {z : EReal} (hz : z = 0) :
    Fin' (Ideal.div (z + ∑ i ∈ s, (h i - μ) * (h i - μ)) N)
      ∧ 0 ≤ Ideal.div (z + ∑ i ∈ s, (h i - μ) * (h i - μ)) N := by
  rw [hz, zero_add]; exact mean_sq_dev_fin_nonneg s h hh hN hn hμ

theorem mean_sq_sub_sq_mean_fin_nonneg_init (s : Finset ι) (h : ι → EReal) (hh : ∀ i, Fin' (h i)) {N : EReal} {n : ℝ}
    (hN : N = (n : EReal)) (hn : 0 < n) (hcard : (s.card : ℝ) = n) {z₁ z₃ : EReal} (h₁ : z₁ = 0) (h₃ : z₃ = 0)
    {μ : EReal} (hμ : μ = Ideal.div (z₁ + ∑ i ∈ s, h i) N) :
    Fin' (Ideal.div (z₃ + ∑ i ∈ s, h i * h i) N - μ * μ) ∧ 0 ≤ Ideal.div (z₃ + ∑ i ∈ s, h i * h i) N - μ * μ := by
  rw [h₁, zero_add] at hμ
  rw [h₃, zero_add]
  exact mean_sq_sub_sq_mean_fin_nonneg s h hh hN hn hcard hμ

end Extended

/-! ### A set of indices listed without repetition

A sum along an axis runs over the indices that reduce to a given place; listed by a one-to-one family e
(the rows of a column, say), it is a sum over the list, and the set has as many members as the list. -/

section Listed
variable {ι κ : Type*} [Fintype κ] [DecidableEq ι]

theorem eq_image_of_listed (s : Finset ι) (e : κ → ι) (hs : ∀ i, i ∈ s ↔ ∃ k, e k = i) :
    s = Finset.univ.image e := by
  ext i
  rw [hs i, Finset.mem_image]
  exact ⟨fun ⟨k, hk⟩ => ⟨k, Finset.mem_univ k, hk⟩, fun ⟨k, _, hk⟩ => ⟨k, hk⟩⟩

theorem sum_eq_sum_listed {M : Type*} [AddCommMonoid M] (s : Finset ι) (e : κ → ι) (he : Function.Injective e)
    (hs : ∀ i, i ∈ s ↔ ∃ k, e k = i) (f : ι → M) : ∑ i ∈ s, f i = ∑ k, f (e k) := by
  rw [eq_image_of_listed s e hs, Finset.sum_image fun a _ b _ hab => he hab]

theorem card_eq_card_listed (s : Finset ι) (e : κ → ι) (he : Function.Injective e)
    (hs : ∀ i, i ∈ s ↔ ∃ k, e k = i) : s.card = Fintype.card κ := by
  rw [eq_image_of_listed s e hs, Finset.card_image_of_injective _ he, Finset.card_univ]

end Listed

/-! ### A program's sum along ONE axis, read as a sum over that axis's coordinates -/

section OneAxis
variable {s t u : Shape} {φ : FTy} {a : Fin s.rank}

/-- An entry of a host sum along one axis: the initial value plus the sum, over the coordinates k of that axis,
    of the operand's entry at the result's index with k inserted on the axis. -/
theorem reduceAdd_single_apply (x : FVec Ideal s φ) (init : u.Idx → Ideal φ) (h' : s.ReducesTo [a] t)
    (h : s.Reduces [a] t) (hu : 0 < u.numel) (j : t.Idx) :
    Host.reduceAdd (F := Ideal) x init h' hu j
      = init (Shape.Idx.first hu) + ∑ k : Fin (s.size a), x (h.lift j k) := by
  rw [reduceAdd_apply, Shape.ReducesTo.drop_eq_drop h' h, h.sum_filter_drop_single x j]

/-- A vector unit's sum along one axis, likewise (it has no initial value). -/
theorem vectorReduceAdd_single_apply (x : FVec Ideal s φ) (h : s.Reduces [a] t) (j : t.Idx) :
    Ideal.reduceAdd h x j = ∑ k : Fin (s.size a), x (h.lift j k) :=
  h.sum_filter_drop_single x j

/-- As many indices reduce to a place as the axis has coordinates. -/
theorem card_filter_drop_single (h : s.Reduces [a] t) (j : t.Idx) :
    (Finset.univ.filter fun i => h.drop i = j).card = s.size a := by
  classical
  rw [h.filter_drop_eq_image_lift j, Finset.card_image_of_injective _ (h.lift_injective j), Finset.card_univ,
    Fintype.card_fin]

end OneAxis

/-- The number of members of Fin m, as a real. -/
theorem card_univ_fin_cast (m : ℕ) : (((Finset.univ : Finset (Fin m)).card : ℕ) : ℝ) = (m : ℝ) := by
  rw [Finset.card_univ, Fintype.card_fin]

/-! ### A sum accumulated block by block -/

section Blocks
variable {M : Type*} [AddCommMonoid M]

/-- An accumulator that starts at zero and receives one term per step holds, after n steps, the sum of the n
    terms. -/
theorem acc_eq_sum_range (n : ℕ) (acc blk : ℕ → M) (h0 : acc 0 = 0)
    (hstep : ∀ k, k < n → acc (k + 1) = acc k + blk k) : acc n = ∑ k ∈ range n, blk k := by
  have key : ∀ m, m ≤ n → acc m = ∑ k ∈ range m, blk k := by
    intro m
    induction m with
    | zero => intro _; rw [h0, Finset.sum_range_zero]
    | succ m ih =>
      intro hm
      rw [hstep m (Nat.lt_of_succ_le hm), ih (Nat.le_of_succ_le hm), Finset.sum_range_succ]
  exact key n le_rfl

/-- A sum over n · b consecutive naturals accumulated in n blocks of b: the accumulator starts at zero and step k
    adds the sum of f over the b naturals b · k + r (r < b) of block k; after the n steps it holds the sum of f
    over all the naturals below n · b. -/
theorem acc_blocks (n b : ℕ) (f : ℕ → M) (acc : ℕ → M) (h0 : acc 0 = 0)
    (hstep : ∀ k, k < n → acc (k + 1) = acc k + ∑ r : Fin b, f (b * k + r.val)) :
    acc n = ∑ i : Fin (n * b), f i.val := by
  rw [LibTileSums.sum_tiles n b (n * b) rfl f]
  exact acc_eq_sum_range n acc (fun k => ∑ r : Fin b, f (b * k + r.val)) h0 hstep

/-- The same as a program writes it: each block's sum is itself taken from zero, the block's naturals are
    written k · b + r, and the whole sum is read from zero as well. -/
theorem acc_blocks_zero_add (n b : ℕ) (f : ℕ → M) (acc : ℕ → M) (h0 : acc 0 = 0)
    (hstep : ∀ k, k < n → acc (k + 1) = acc k + (0 + ∑ r : Fin b, f (k * b + r.val))) :
    acc n = 0 + ∑ i : Fin (n * b), f i.val := by
  rw [zero_add]
  refine acc_blocks n b f acc h0 fun k hk => ?_
  rw [hstep k hk, zero_add, Nat.mul_comm k b]

/-- The same for a family indexed by the n · b positions themselves: position r of block k is the one numbered
    r + b · k (LibERealMatrix.finProdFinEquiv_val). -/
theorem acc_blocks_fin (n b : ℕ) (f : Fin (n * b) → M) (acc : ℕ → M) (h0 : acc 0 = 0)
    (hstep : ∀ k : Fin n, acc (k.val + 1) = acc k.val + ∑ r : Fin b, f (finProdFinEquiv (k, r))) :
    acc n = ∑ i, f i := by
  rw [LibERealMatrix.sum_fin_mul n b f,
    acc_eq_sum_range n acc (fun k => if hk : k < n then ∑ r : Fin b, f (finProdFinEquiv (⟨k, hk⟩, r)) else 0) h0
      (fun k hk => by rw [dif_pos hk]; exact hstep ⟨k, hk⟩),
    ← Fin.sum_univ_eq_sum_range (fun k => if hk : k < n then ∑ r : Fin b, f (finProdFinEquiv (⟨k, hk⟩, r)) else 0) n]
  exact Finset.sum_congr rfl fun k _ => dif_pos k.isLt

end Blocks

end LibBatchMoments

end
-- ==== Proof.LibNormAffine.lean ====
/-
  Normalising by the mean and the variance, in the two ways a program may spell it, on the extended reals with real
  entries.

  Take finitely many real numbers h, their mean μ = (Σ h) / n, and a positive real ε. One spelling subtracts the mean
  first and computes the variance from the deviations:
      ((x − μ) · r') · w + b,      r' = 1 / √((Σ (h − μ)²) / n + ε).
  The other computes the variance from the second moment and folds the mean into a shift:
      x · (r · w) + (b − μ · (r · w)),      r = 1 / √((Σ h²) / n − μ² + ε).
  The two variances are one real number (the mean of the squared deviations is the mean of the squares minus the
  squared mean), it is not negative, so r = r' is a positive real; and for real x, μ, r, w, b the two affine forms are
  one real number by distributivity, which on the extended reals is exactly what the realness of the entries buys.
  Each sum is read as "initial value + Σ", the initial values being zero, as a program's reduction prints it.
-/
import Mathlib.Data.EReal.Operations
import Idealize.ShloMosaic.PureOps.Ideal.Laws
import proofs.«180567_j38208029065461_2_alg».proof.Proof.LibERealMatrix
import proofs.«180567_j38208029065461_2_alg».proof.Proof.LibIdealFinite
import proofs.«180567_j38208029065461_2_alg».proof.Proof.LibBatchMoments

noncomputable section

namespace NormAffine

open Idealize.ShloMosaic LibERealMatrix LibIdealFinite Finset

/-- For real x, μ, r, w, b: scaling by r · w and shifting by b − μ · (r · w) is subtracting μ, scaling by r, then by w,
    and adding b. -/
theorem affine_two_ways {x μ r w b : EReal} (hx : Fin' x) (hμ : Fin' μ) (hr : Fin' r) (hw : Fin' w) (hb : Fin' b) :
    x * (r * w) + (b - μ * (r * w)) = (x - μ) * r * w + b := by
  obtain ⟨x, rfl⟩ := hx.exists_real
  obtain ⟨μ, rfl⟩ := hμ.exists_real
  obtain ⟨r, rfl⟩ := hr.exists_real
  obtain ⟨w, rfl⟩ := hw.exists_real
  obtain ⟨b, rfl⟩ := hb.exists_real
  rw [← EReal.coe_mul, ← EReal.coe_mul, ← EReal.coe_mul, ← EReal.coe_sub, ← EReal.coe_add, ← EReal.coe_sub,
    ← EReal.coe_mul, ← EReal.coe_mul, ← EReal.coe_add]
  exact congrArg _ (by ring)

variable {ι : Type*}

/-- The reciprocal root of "second moment minus squared mean plus ε" is the reciprocal root of "mean squared
    deviation plus ε", and it is a real number. -/
theorem rsqrt_moment_eq (s : Finset ι) (h : ι → EReal) (hh : ∀ i, Fin' (h i)) {N ε : EReal} {n : ℝ}
    (hN : N = (n : EReal)) (hn : 0 < n) (hcard : (s.card : ℝ) = n) (hε : Fin' ε) (hε0 : 0 < ε)
    {z₁ z₂ z₃ : EReal} (h₁ : z₁ = 0) (h₂ : z₂ = 0) (h₃ : z₃ = 0) {μ : EReal}
    (hμ : μ = Ideal.div (z₁ + ∑ i ∈ s, h i) N) :
    Ideal.rsqrt (Ideal.div (z₃ + ∑ i ∈ s, h i * h i) N - μ * μ + ε)
        = Ideal.rsqrt (Ideal.div (z₂ + ∑ i ∈ s, (h i - μ) * (h i - μ)) N + ε)
      ∧ Fin' (Ideal.rsqrt (Ideal.div (z₂ + ∑ i ∈ s, (h i - μ) * (h i - μ)) N + ε)) := by
  have hμf : Fin' μ := by rw [hμ]; exact LibBatchMoments.fin_mean_init s h hh hN hn.ne' h₁
  have hv := LibBatchMoments.mean_sq_dev_fin_nonneg_init s h hh hN hn hμf h₂
  refine ⟨?_, (LibBatchMoments.fin_rsqrt_add hv.1 hv.2 hε hε0).1⟩
  rw [LibBatchMoments.mean_sq_dev_eq_init s h hh hN hn hcard h₁ h₂ h₃ hμ]

/-- THE TWO SPELLINGS OF A NORMALISED ENTRY AGREE, and the entry is a real number. -/
theorem normalise_two_ways (s : Finset ι) (h : ι → EReal) (hh : ∀ i, Fin' (h i)) {N ε : EReal} {n : ℝ}
    (hN : N = (n : EReal)) (hn : 0 < n) (hcard : (s.card : ℝ) = n) (hε : Fin' ε) (hε0 : 0 < ε)
    {z₁ z₂ z₃ : EReal} (h₁ : z₁ = 0) (h₂ : z₂ = 0) (h₃ : z₃ = 0) {μ : EReal}
    (hμ : μ = Ideal.div (z₁ + ∑ i ∈ s, h i) N) {x w b : EReal} (hx : Fin' x) (hw : Fin' w) (hb : Fin' b) :
    x * (Ideal.rsqrt (Ideal.div (z₃ + ∑ i ∈ s, h i * h i) N - μ * μ + ε) * w)
        + (b - μ * (Ideal.rsqrt (Ideal.div (z₃ + ∑ i ∈ s, h i * h i) N - μ * μ + ε) * w))
      = (x - μ) * Ideal.rsqrt (Ideal.div (z₂ + ∑ i ∈ s, (h i - μ) * (h i - μ)) N + ε) * w + b
    ∧ Fin' ((x - μ) * Ideal.rsqrt (Ideal.div (z₂ + ∑ i ∈ s, (h i - μ) * (h i - μ)) N + ε) * w + b) := by
  have hμf : Fin' μ := by rw [hμ]; exact LibBatchMoments.fin_mean_init s h hh hN hn.ne' h₁
  obtain ⟨he, hr⟩ := rsqrt_moment_eq s h hh hN hn hcard hε hε0 h₁ h₂ h₃ hμ
  rw [he]
  exact ⟨affine_two_ways hx hμf hr hw hb, (((fin_sub hx hμf).mul hr).mul hw).add hb⟩

end NormAffine

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.NormEntries.lean ====
/-
  The scale-and-shift rows of the kernel program against the reference's normalised arrays, entry by entry.

  The kernel program folds each normalisation into one row of scales and one row of shifts, computed from the first
  and second moments: scale = w / √(E[h²] − E[h]² + ε), shift = b − E[h] · scale, and applies "entry · scale + shift".
  The reference subtracts the mean, divides by √(E[(h − E[h])²] + ε), multiplies by w and adds b. On real entries the
  two are one real number (the variance law and distributivity). Here each side is read at an entry down to the
  entries of the input array, and the two readings are the two members of that law: the first normalisation takes its
  moments down each column of the [50000, 128] input, the second over all entries of the [50000, 96] layer output.
-/
import proofs.«180567_j38208029065461_2_alg».proof.Proof.HostValues
import proofs.«180567_j38208029065461_2_alg».proof.Proof.RefRead
import proofs.«180567_j38208029065461_2_alg».proof.Proof.LibNormAffine
import proofs.«180567_j38208029065461_2_alg».proof.Proof.LibBatchMoments
import proofs.«180567_j38208029065461_2_alg».proof.Proof.LibIdealFinite
import proofs.«180567_j38208029065461_2_alg».proof.Proof.LibRowOps
import proofs.«180567_j38208029065461_2_alg».proof.Proof.LibGcnLayer

set_option maxRecDepth 16384

noncomputable section

namespace Cert.NormEntries

open Idealize.ShloMosaic Idealize.ShloMosaic.ValueIdx
open LibIdealFinite (AllFin)
open LibERealMatrix (Fin')
open Cert.KernelIdeal (HostValue.bnScaleRow HostValue.bnShiftRow HostValue.lnScaleRow HostValue.lnShiftRow)
open Cert.ReferenceIdeal (ReadP.val_main_v24 ReadP.val_main_v72 ReadP.val_main_v91)
open Cert.ReferenceIdeal (S50000x128 S2x800000 S128 S128x96 S96 S50000x96 S1x128 S1x96 S_)

open Cert.ReferenceIdeal.ReadP in
/-- A column sum from zero, read at column k: the initial value plus the sum down the column. -/
theorem colSum_apply (y : FVec Ideal S50000x128 .f32) (k : Fin 128) :
    Cert.ReferenceIdeal.ReadP.val_main_v0 (F := Ideal) y (ix1 k)
      = Ideal.ofBits .f32 0x00000000#32 + ∑ j : Fin 50000, y (ix2 j k) := by
  rw [val_main_v0_apply]
  refine congrArg (Ideal.ofBits .f32 0x00000000#32 + ·) (Finset.sum_congr rfl fun j _ => congrArg y (funext fun a => ?_))
  match a with
  | ⟨0, _⟩ => rfl
  | ⟨1, _⟩ => rfl

/-- The mean of column k: the column sum over the word of 50000. -/
abbrev colMean (x : FVec Ideal S50000x128 .f32) (k : Fin 128) : EReal :=
  Ideal.div (Ideal.ofBits .f32 0x00000000#32 + ∑ j : Fin 50000, x (ix2 j k)) (Ideal.ofBits .f32 0x47435000#32)

open Cert.ReferenceIdeal.ReadP in
/-- The reference's normalised entry (i, k): the deviation from the column mean, times the reciprocal root of the
    mean squared deviation plus ε, times the weight, plus the bias. -/
theorem ref_bn_apply (x : FVec Ideal S50000x128 .f32) (w b : FVec Ideal S128 .f32) (i : Fin 50000) (k : Fin 128) :
    val_main_v24 (F := Ideal) x w b (ix2 i k)
      = (x (ix2 i k) - colMean x k)
          * Ideal.rsqrt (Ideal.div (Ideal.ofBits .f32 0x00000000#32
              + ∑ j : Fin 50000, (x (ix2 j k) - colMean x k) * (x (ix2 j k) - colMean x k)) (Ideal.ofBits .f32 0x47435000#32)
            + Ideal.ofBits .f32 0x3727C5AC#32)
          * w (ix1 k) + b (ix1 k) := by
  -- the mean row, stretched over the rows, reads the column's mean
  have hmean : ∀ j : Fin 50000, val_main_v4 (F := Ideal) x (ix2 j k) = colMean x k := fun j => by
    rw [val_main_v4_apply, val_main_v3_apply]
    show Ideal.div (val_main_v0 (F := Ideal) x _) (Ideal.ofBits .f32 0x47435000#32) = _
    rw [show idx_main_v3 (idx_main_v4 (ix2 j k)) = ix1 k from funext fun a => by match a with | ⟨0, _⟩ => rfl, colSum_apply]
  have hmean' : val_main_v11 (F := Ideal) x (ix2 i k) = colMean x k := by
    rw [val_main_v11_apply, val_main_v10_apply]
    show Ideal.div (val_main_v0 (F := Ideal) x _) (Ideal.ofBits .f32 0x47435000#32) = _
    rw [show idx_main_v10 (idx_main_v11 (ix2 i k)) = ix1 k from funext fun a => by match a with | ⟨0, _⟩ => rfl, colSum_apply]
  have hvar : val_main_v17 (F := Ideal) x (ix2 i k)
      = Ideal.rsqrt (Ideal.div (Ideal.ofBits .f32 0x00000000#32
              + ∑ j : Fin 50000, (x (ix2 j k) - colMean x k) * (x (ix2 j k) - colMean x k)) (Ideal.ofBits .f32 0x47435000#32)
            + Ideal.ofBits .f32 0x3727C5AC#32) := by
    rw [val_main_v17_apply, val_main_v16_apply]
    rw [show idx_main_v16 (idx_main_v17 (ix2 i k)) = ix1 k from funext fun a => by match a with | ⟨0, _⟩ => rfl]
    show Ideal.rsqrt (Ideal.div (val_main_v0 (F := Ideal) (val_main_v6 (F := Ideal) x) (ix1 k)) (Ideal.ofBits .f32 0x47435000#32)
      + Ideal.ofBits .f32 0x3727C5AC#32) = _
    rw [colSum_apply]
    refine congrArg (fun s => Ideal.rsqrt (Ideal.div (Ideal.ofBits .f32 0x00000000#32 + s) (Ideal.ofBits .f32 0x47435000#32)
      + Ideal.ofBits .f32 0x3727C5AC#32)) (Finset.sum_congr rfl fun j _ => ?_)
    show (x (ix2 j k) - val_main_v4 (F := Ideal) x (ix2 j k)) * (x (ix2 j k) - val_main_v4 (F := Ideal) x (ix2 j k)) = _
    rw [hmean j]
  have hw : val_main_v20 (F := Ideal) w (ix2 i k) = w (ix1 k) := by
    rw [val_main_v20_apply, val_main_v19_apply]
    exact congrArg w (funext fun a => by match a with | ⟨0, _⟩ => rfl)
  have hb : val_main_v23 (F := Ideal) b (ix2 i k) = b (ix1 k) := by
    rw [val_main_v23_apply, val_main_v22_apply]
    exact congrArg b (funext fun a => by match a with | ⟨0, _⟩ => rfl)
  show (x (ix2 i k) - val_main_v11 (F := Ideal) x (ix2 i k)) * val_main_v17 (F := Ideal) x (ix2 i k)
    * val_main_v20 (F := Ideal) w (ix2 i k) + val_main_v23 (F := Ideal) b (ix2 i k) = _
  rw [hmean', hvar, hw, hb]

open Cert.ReferenceIdeal.ReadP in
/-- The kernel program's scale and shift rows at column k: the reciprocal root of (second moment − squared mean + ε)
    times the weight, and the bias minus the mean times that scale. -/
theorem bn_rows_apply (x : FVec Ideal S50000x128 .f32) (w b : FVec Ideal S128 .f32) (k : Fin 128) :
    HostValue.bnScaleRow x w (ix2 (0 : Fin 1) k)
        = Ideal.rsqrt (Ideal.div (Ideal.ofBits .f32 0x00000000#32 + ∑ j : Fin 50000, x (ix2 j k) * x (ix2 j k))
            (Ideal.ofBits .f32 0x47435000#32) - colMean x k * colMean x k + Ideal.ofBits .f32 0x3727C5AC#32) * w (ix1 k)
      ∧ HostValue.bnShiftRow x w b (ix2 (0 : Fin 1) k)
        = b (ix1 k) - colMean x k * (Ideal.rsqrt (Ideal.div (Ideal.ofBits .f32 0x00000000#32
            + ∑ j : Fin 50000, x (ix2 j k) * x (ix2 j k)) (Ideal.ofBits .f32 0x47435000#32) - colMean x k * colMean x k
            + Ideal.ofBits .f32 0x3727C5AC#32) * w (ix1 k)) := by
  constructor
  · unfold Cert.KernelIdeal.HostValue.bnScaleRow
    rw [LibRowOps.shapeCast_row_apply]
    show Ideal.rsqrt (Ideal.div (val_main_v0 (F := Ideal) (mulf x x) (ix1 k)) (Ideal.ofBits .f32 0x47435000#32)
        - Ideal.div (val_main_v0 (F := Ideal) x (ix1 k)) (Ideal.ofBits .f32 0x47435000#32)
          * Ideal.div (val_main_v0 (F := Ideal) x (ix1 k)) (Ideal.ofBits .f32 0x47435000#32)
        + Ideal.ofBits .f32 0x3727C5AC#32) * w (ix1 k) = _
    rw [colSum_apply, colSum_apply]
    rfl
  · unfold Cert.KernelIdeal.HostValue.bnShiftRow
    rw [LibRowOps.shapeCast_row_apply]
    show b (ix1 k) - Ideal.div (val_main_v0 (F := Ideal) x (ix1 k)) (Ideal.ofBits .f32 0x47435000#32)
        * (Ideal.rsqrt (Ideal.div (val_main_v0 (F := Ideal) (mulf x x) (ix1 k)) (Ideal.ofBits .f32 0x47435000#32)
        - Ideal.div (val_main_v0 (F := Ideal) x (ix1 k)) (Ideal.ofBits .f32 0x47435000#32)
          * Ideal.div (val_main_v0 (F := Ideal) x (ix1 k)) (Ideal.ofBits .f32 0x47435000#32)
        + Ideal.ofBits .f32 0x3727C5AC#32) * w (ix1 k)) = _
    rw [colSum_apply, colSum_apply]
    rfl

/-- The word of ε is a positive real. -/
theorem eps_fin_pos : Fin' (Ideal.ofBits .f32 0x3727C5AC#32) ∧ (0 : EReal) < Ideal.ofBits .f32 0x3727C5AC#32 := by
  obtain ⟨e, he0, heq⟩ := LibIdealFinite.ofBits_1em5_pos
  rw [heq]
  exact ⟨LibERealMatrix.Fin'.coe e, EReal.coe_pos.mpr he0⟩

/-- ENTRY (i, k) OF THE FIRST NORMALISATION: the kernel program's "entry times scale row plus shift row" is the reference's
    "deviation from the column mean, over the root of the variance plus ε, times the weight, plus the bias", and it is a
    real number, once the input, the weight and the bias have real entries. -/
theorem bn_entry (x : FVec Ideal S50000x128 .f32) (w b : FVec Ideal S128 .f32) (hx : AllFin x) (hw : AllFin w)
    (hb : AllFin b) (i : Fin 50000) (k : Fin 128) :
    x (ix2 i k) * HostValue.bnScaleRow x w (ix2 (0 : Fin 1) k) + HostValue.bnShiftRow x w b (ix2 (0 : Fin 1) k)
        = ReadP.val_main_v24 (F := Ideal) x w b (ix2 i k)
      ∧ Fin' (ReadP.val_main_v24 (F := Ideal) x w b (ix2 i k)) := by
  obtain ⟨hs, ht⟩ := bn_rows_apply x w b k
  rw [hs, ht, ref_bn_apply]
  exact NormAffine.normalise_two_ways (Finset.univ : Finset (Fin 50000)) (fun j => x (ix2 j k)) (fun j => hx _)
    (n := 50000) LibBatchMoments.ofBits_50000 (by norm_num)
    (by rw [LibBatchMoments.card_univ_fin_cast]; norm_num) eps_fin_pos.1 eps_fin_pos.2
    LibIdealFinite.ofBits_zero LibIdealFinite.ofBits_zero LibIdealFinite.ofBits_zero rfl (hx _) (hw _) (hb _)

/-! ## The second normalisation: the moments over all entries of the layer output -/

/-- The word of 4800000.0 in single precision denotes the real 4800000. -/
theorem ofBits_4800000 : Ideal.ofBits .f32 0x4A927C00#32 = ((4800000 : ℝ) : EReal) := by
  simp [Ideal.ofBits, Ideal.ieee, -EReal.coe_mul]; norm_num

/-- The [50000, 96] index set has 4800000 members. -/
theorem card_entries : (((Finset.univ : Finset S50000x96.Idx).card : ℕ) : ℝ) = 4800000 := by
  have hn : S50000x96.numel = 4800000 := by
    show (∏ a : Fin 2, (![50000, 96] : Fin 2 → ℕ) a) = 4800000
    rw [Fin.prod_univ_two]; rfl
  rw [Finset.card_univ, Shape.card_idx, hn]
  norm_num

/-- The sum of every entry of a [50000, 96] array, from the word of zero. -/
def total (h : FVec Ideal S50000x96 .f32) : EReal := Ideal.ofBits .f32 0x00000000#32 + ∑ idx : S50000x96.Idx, h idx

theorem total_eq (h : FVec Ideal S50000x96 .f32) :
    total h = Ideal.ofBits .f32 0x00000000#32 + ∑ idx : S50000x96.Idx, h idx := rfl

/-- A program's sum over all entries from zero, into the scalar shape, is that total. -/
theorem allSum_apply (h : FVec Ideal S50000x96 .f32) (h' : S50000x96.ReducesTo [0, 1] S_) (hu : 0 < S_.numel) (j : S_.Idx) :
    Host.reduceAdd (F := Ideal) h (constant (F := Ideal) S_ .f32 0x00000000#32) h' hu j = total h := by
  simp only [Host.reduceAdd, Ideal.hostReduceAdd_def]
  exact Ideal.hostReduceAdd_total h' (fun b => b.elim0) h _ j

attribute [irreducible] total

/-- The mean over all entries: their total over the word of 4800000. -/
abbrev allMean (h : FVec Ideal S50000x96 .f32) : EReal := Ideal.div (total h) (Ideal.ofBits .f32 0x4A927C00#32)

section Mirror
open Cert.ReferenceIdeal.Gen

/-- The mean over all entries, as the scalar array a program computes: the sum from zero over the word of 4800000. -/
def lnMeanS (h : FVec Ideal S50000x96 .f32) : FVec Ideal S_ .f32 :=
  Host.divf (Host.reduceAdd h (constant S_ .f32 0x00000000#32) reducesTo_S50000x96_S_d0_1 h_S_) (constant S_ .f32 0x4A927C00#32)

/-- The squared deviations from that mean. -/
def lnDevSq (h : FVec Ideal S50000x96 .f32) : FVec Ideal S50000x96 .f32 :=
  mulf (subf h (broadcastInDim S50000x96 ![] bcast_S_S50000x96 (lnMeanS h)))
    (subf h (broadcastInDim S50000x96 ![] bcast_S_S50000x96 (lnMeanS h)))

/-- The reciprocal root of the mean squared deviation plus ε, as a scalar array. -/
def lnRstdS (h : FVec Ideal S50000x96 .f32) : FVec Ideal S_ .f32 :=
  Host.rsqrt (addf (Host.divf (Host.reduceAdd (lnDevSq h) (constant S_ .f32 0x00000000#32) reducesTo_S50000x96_S_d0_1 h_S_)
    (constant S_ .f32 0x4A927C00#32)) (constant S_ .f32 0x3727C5AC#32))

/-- The normalisation of h over all its entries with weight w and bias b, operation by operation as the reference
    prints it, as a function of ANY array h. -/
def lnRef (h : FVec Ideal S50000x96 .f32) (w b : FVec Ideal S96 .f32) : FVec Ideal S50000x96 .f32 :=
  addf (mulf (mulf (subf h (broadcastInDim S50000x96 ![] bcast_S_S50000x96 (lnMeanS h)))
        (broadcastInDim S50000x96 ![] bcast_S_S50000x96 (lnRstdS h)))
      (broadcastInDim S50000x96 ![0, 1] bcast_S1x96_S50000x96_0_1 (broadcastInDim S1x96 ![1] bcast_S96_S1x96_1 w)))
    (broadcastInDim S50000x96 ![0, 1] bcast_S1x96_S50000x96_0_1 (broadcastInDim S1x96 ![1] bcast_S96_S1x96_1 b))

open Cert.ReferenceIdeal.ReadP in
/-- The reference's normalised array IS that function of its layer output: the definitions unfolded, nothing computed. -/
theorem ref_ln_eq (x0 : FVec Ideal S50000x128 .f32) (x1 : IVec S2x800000 32) (x2 x3 : FVec Ideal S128 .f32)
    (x4 : FVec Ideal S128x96 .f32) (x5 x6 x7 : FVec Ideal S96 .f32) :
    val_main_v91 (F := Ideal) x0 x1 x2 x3 x4 x5 x6 x7
      = lnRef (val_main_v72 (F := Ideal) x0 x1 x2 x3 x4 x5) x6 x7 := by
  unfold val_main_v91 val_main_v90 val_main_v89 val_main_v88 val_main_v87 val_main_v86 val_main_v85 val_main_v84
    val_main_v83 val_main_v82 val_main_v81 val_main_v80 val_main_v79 val_main_v78 val_main_v77 val_main_v76 val_main_v75
    val_main_v74 val_main_v73 val_main_cst_14 val_main_cst_15 val_main_cst_16 val_main_cst_17 val_main_cst_18
    lnRef lnRstdS lnDevSq lnMeanS
  rfl

/-- The normalised entry (i, k) of a [50000, 96] array h in the "subtract the mean first" spelling: the deviation from
    the mean over all entries, times the reciprocal root of the mean squared deviation plus ε, times the weight, plus
    the bias. -/
def lnRefEntry (h : FVec Ideal S50000x96 .f32) (w b : FVec Ideal S96 .f32) (i : Fin 50000) (k : Fin 96) : EReal :=
  (h (ix2 i k) - allMean h)
    * Ideal.rsqrt (Ideal.div (total fun j => (h j - allMean h) * (h j - allMean h)) (Ideal.ofBits .f32 0x4A927C00#32) + (Ideal.ofBits .f32 0x3727C5AC#32))
    * w (ix1 k) + b (ix1 k)

/-- That function of an array h, read at the entry (i, k). -/
theorem lnRef_apply (h : FVec Ideal S50000x96 .f32) (w b : FVec Ideal S96 .f32) (i : Fin 50000) (k : Fin 96) :
    lnRef h w b (ix2 i k) = lnRefEntry h w b i k := by
  have hμ : ∀ j : S_.Idx, lnMeanS h j = allMean h := fun j =>
    congrArg (fun s => Ideal.div s (Ideal.ofBits .f32 0x4A927C00#32)) (allSum_apply h _ _ j)
  have hd : lnDevSq h = fun j => (h j - allMean h) * (h j - allMean h) := funext fun idx => by
    show (h idx - broadcastInDim S50000x96 ![] bcast_S_S50000x96 (lnMeanS h) idx)
      * (h idx - broadcastInDim S50000x96 ![] bcast_S_S50000x96 (lnMeanS h) idx) = _
    rw [GcnLayer.splat_apply, hμ]
  have hr : ∀ j : S_.Idx, lnRstdS h j = Ideal.rsqrt (Ideal.div (total (lnDevSq h)) (Ideal.ofBits .f32 0x4A927C00#32) + (Ideal.ofBits .f32 0x3727C5AC#32)) := fun j =>
    congrArg (fun s => Ideal.rsqrt (Ideal.div s (Ideal.ofBits .f32 0x4A927C00#32) + (Ideal.ofBits .f32 0x3727C5AC#32))) (allSum_apply (lnDevSq h) _ _ j)
  show (h (ix2 i k) - broadcastInDim S50000x96 ![] bcast_S_S50000x96 (lnMeanS h) (ix2 i k))
      * broadcastInDim S50000x96 ![] bcast_S_S50000x96 (lnRstdS h) (ix2 i k)
      * broadcastInDim S50000x96 ![0, 1] bcast_S1x96_S50000x96_0_1 (broadcastInDim S1x96 ![1] bcast_S96_S1x96_1 w) (ix2 i k)
      + broadcastInDim S50000x96 ![0, 1] bcast_S1x96_S50000x96_0_1 (broadcastInDim S1x96 ![1] bcast_S96_S1x96_1 b) (ix2 i k) = _
  rw [GcnLayer.splat_apply, GcnLayer.splat_apply, GcnLayer.mat_of_row_apply, GcnLayer.mat_of_row_apply,
    GcnLayer.row_of_vec_apply, GcnLayer.row_of_vec_apply, hμ, hr, hd]
  rfl

end Mirror

/-- The kernel program's scale and shift rows of the second normalisation at column k: the reciprocal root of
    (second moment − squared mean + ε) over all entries, times the weight, and the bias minus the mean times that scale. -/
theorem ln_rows_apply (h : FVec Ideal S50000x96 .f32) (w b : FVec Ideal S96 .f32) (k : Fin 96) :
    HostValue.lnScaleRow h w (ix2 (0 : Fin 1) k) = Ideal.rsqrt (Ideal.div (total fun j => h j * h j) (Ideal.ofBits .f32 0x4A927C00#32) - allMean h * allMean h + (Ideal.ofBits .f32 0x3727C5AC#32)) * w (ix1 k)
      ∧ HostValue.lnShiftRow h w b (ix2 (0 : Fin 1) k) = b (ix1 k) - allMean h * (Ideal.rsqrt (Ideal.div (total fun j => h j * h j) (Ideal.ofBits .f32 0x4A927C00#32) - allMean h * allMean h + (Ideal.ofBits .f32 0x3727C5AC#32)) * w (ix1 k)) := by
  constructor
  · unfold Cert.KernelIdeal.HostValue.lnScaleRow
    rw [LibRowOps.shapeCast_row_apply, mulf_apply, GcnLayer.splat_apply]
    show Ideal.rsqrt (Ideal.div (Host.reduceAdd (F := Ideal) (mulf h h) (constant (F := Ideal) S_ .f32 0x00000000#32)
            Cert.KernelIdeal.Gen.reducesTo_S50000x96_S_d0_1 Cert.KernelIdeal.Gen.h_S_ (fun a => a.elim0)) (Ideal.ofBits .f32 0x4A927C00#32)
        - Ideal.div (Host.reduceAdd (F := Ideal) h (constant (F := Ideal) S_ .f32 0x00000000#32)
            Cert.KernelIdeal.Gen.reducesTo_S50000x96_S_d0_1 Cert.KernelIdeal.Gen.h_S_ (fun a => a.elim0)) (Ideal.ofBits .f32 0x4A927C00#32) * Ideal.div (Host.reduceAdd (F := Ideal) h (constant (F := Ideal) S_ .f32 0x00000000#32)
            Cert.KernelIdeal.Gen.reducesTo_S50000x96_S_d0_1 Cert.KernelIdeal.Gen.h_S_ (fun a => a.elim0)) (Ideal.ofBits .f32 0x4A927C00#32) + (Ideal.ofBits .f32 0x3727C5AC#32)) * w (ix1 k) = _
    rw [allSum_apply, allSum_apply]
    rfl
  · unfold Cert.KernelIdeal.HostValue.lnShiftRow
    rw [LibRowOps.shapeCast_row_apply, subf_apply, mulf_apply, mulf_apply, GcnLayer.splat_apply, GcnLayer.splat_apply]
    show b (ix1 k) - Ideal.div (Host.reduceAdd (F := Ideal) h (constant (F := Ideal) S_ .f32 0x00000000#32)
            Cert.KernelIdeal.Gen.reducesTo_S50000x96_S_d0_1 Cert.KernelIdeal.Gen.h_S_ (fun a => a.elim0)) (Ideal.ofBits .f32 0x4A927C00#32) * (Ideal.rsqrt (Ideal.div (Host.reduceAdd (F := Ideal) (mulf h h) (constant (F := Ideal) S_ .f32 0x00000000#32)
            Cert.KernelIdeal.Gen.reducesTo_S50000x96_S_d0_1 Cert.KernelIdeal.Gen.h_S_ (fun a => a.elim0)) (Ideal.ofBits .f32 0x4A927C00#32)
        - Ideal.div (Host.reduceAdd (F := Ideal) h (constant (F := Ideal) S_ .f32 0x00000000#32)
            Cert.KernelIdeal.Gen.reducesTo_S50000x96_S_d0_1 Cert.KernelIdeal.Gen.h_S_ (fun a => a.elim0)) (Ideal.ofBits .f32 0x4A927C00#32) * Ideal.div (Host.reduceAdd (F := Ideal) h (constant (F := Ideal) S_ .f32 0x00000000#32)
            Cert.KernelIdeal.Gen.reducesTo_S50000x96_S_d0_1 Cert.KernelIdeal.Gen.h_S_ (fun a => a.elim0)) (Ideal.ofBits .f32 0x4A927C00#32) + (Ideal.ofBits .f32 0x3727C5AC#32)) * w (ix1 k)) = _
    rw [allSum_apply, allSum_apply]
    rfl

/-- ENTRY (i, k) OF THE SECOND NORMALISATION, for ANY array h with real entries: the kernel program's "entry times scale
    row plus shift row" is the "subtract the mean first" normalisation of h, and it is a real number. -/
theorem ln_entry_abs (h : FVec Ideal S50000x96 .f32) (w b : FVec Ideal S96 .f32) (hh : AllFin h) (hw : AllFin w)
    (hb : AllFin b) (i : Fin 50000) (k : Fin 96) :
    h (ix2 i k) * HostValue.lnScaleRow h w (ix2 (0 : Fin 1) k) + HostValue.lnShiftRow h w b (ix2 (0 : Fin 1) k)
        = lnRef h w b (ix2 i k) ∧ Fin' (lnRef h w b (ix2 i k)) := by
  obtain ⟨hs, ht⟩ := ln_rows_apply h w b k
  rw [hs, ht, lnRef_apply]
  simp only [lnRefEntry, allMean, total_eq]
  exact NormAffine.normalise_two_ways (Finset.univ : Finset S50000x96.Idx) h hh
    (n := 4800000) ofBits_4800000 (by norm_num) card_entries eps_fin_pos.1 eps_fin_pos.2
    LibIdealFinite.ofBits_zero LibIdealFinite.ofBits_zero LibIdealFinite.ofBits_zero rfl (hh _) (hw _) (hb _)

/-- ENTRY (i, k) OF THE SECOND NORMALISATION: the kernel program's "entry times scale row plus shift row" of the layer
    output is the reference's normalised entry, and it is a real number, once the layer output, the weight and the bias
    have real entries. -/
theorem ln_entry (x0 : FVec Ideal S50000x128 .f32) (x1 : IVec S2x800000 32) (x2 x3 : FVec Ideal S128 .f32)
    (x4 : FVec Ideal S128x96 .f32) (x5 x6 x7 : FVec Ideal S96 .f32)
    (hh : AllFin (ReadP.val_main_v72 (F := Ideal) x0 x1 x2 x3 x4 x5)) (hw : AllFin x6) (hb : AllFin x7)
    (i : Fin 50000) (k : Fin 96) :
    ReadP.val_main_v72 (F := Ideal) x0 x1 x2 x3 x4 x5 (ix2 i k)
          * HostValue.lnScaleRow (ReadP.val_main_v72 (F := Ideal) x0 x1 x2 x3 x4 x5) x6 (ix2 (0 : Fin 1) k)
        + HostValue.lnShiftRow (ReadP.val_main_v72 (F := Ideal) x0 x1 x2 x3 x4 x5) x6 x7 (ix2 (0 : Fin 1) k)
        = ReadP.val_main_v91 (F := Ideal) x0 x1 x2 x3 x4 x5 x6 x7 (ix2 i k)
      ∧ Fin' (ReadP.val_main_v91 (F := Ideal) x0 x1 x2 x3 x4 x5 x6 x7 (ix2 i k)) := by
  rw [ref_ln_eq]
  generalize Cert.ReferenceIdeal.ReadP.val_main_v72 (F := Ideal) x0 x1 x2 x3 x4 x5 = h at hh ⊢
  exact ln_entry_abs h x6 x7 hh hw hb i k

end Cert.NormEntries

end
-- ==== Proof.LibGatherScatterFinite.lean ====
/-
  A gather and an accumulating scatter keep entries real, at exact arithmetic, whatever the indices are.

  A gather only moves entries: each entry of the result is the operand's entry at a position computed from the
  start indices (read as signed integers and clamped so that the slice fits the operand), so an out-of-range
  start index still reads an entry of the operand. Any property of single entries therefore passes from the
  operand to the result, being a real number in particular.

  An accumulating scatter gives each position of the operand the operand's entry there plus the sum of the
  updates that land on it; an update whose position falls outside the operand lands nowhere and contributes
  nothing. Each entry of the result is thus a finite sum of entries of the operand and of the updates, a real
  number when all of those are. No value other than the operand's and the updates' entries ever enters, so the
  indices play no part in the argument.
-/
import Idealize.ShloMosaic.PureOps.Ideal.Laws
import proofs.«180567_j38208029065461_2_alg».proof.Proof.LibERealMatrix
import proofs.«180567_j38208029065461_2_alg».proof.Proof.LibIdealFinite

noncomputable section

namespace LibGatherScatterFinite

open Idealize.ShloMosaic LibERealMatrix LibIdealFinite

/-! ### Gather -/

section Gather
variable {s si t : Shape} {w : Nat}

/-- An entry of a gather is the operand's entry at the position the dimension numbers compute. -/
theorem gather_apply {α : Type} (d : GatherDims s si t) (x : s.Idx → α) (idx : IVec si w) (j : t.Idx) :
    Host.gather d x idx j = x (d.operandIdx j idx) := rfl

/-- Every entry of a gather is an entry of the operand. -/
theorem entriesOf_gather {α : Type} (d : GatherDims s si t) (x : s.Idx → α) (idx : IVec si w) :
    EntriesOf (Host.gather d x idx) x := fun _ => ⟨_, rfl⟩

/-- A gather of real entries has real entries, for any indices. -/
theorem allFin_gather (d : GatherDims s si t) {x : s.Idx → EReal} (idx : IVec si w) (hx : AllFin x) :
    AllFin (Host.gather d x idx) := fun _ => hx _

/-- Non-negativity and positivity pass through a gather as well. -/
theorem gather_nonneg (d : GatherDims s si t) {x : s.Idx → EReal} (idx : IVec si w) (hx : ∀ i, 0 ≤ x i) (j : t.Idx) :
    0 ≤ Host.gather d x idx j := hx _

theorem gather_pos (d : GatherDims s si t) {x : s.Idx → EReal} (idx : IVec si w) (hx : ∀ i, 0 < x i) (j : t.Idx) :
    0 < Host.gather d x idx j := hx _

end Gather

/-! ### Accumulating scatter -/

section Scatter
variable {s si u : Shape} {φ : FTy} {w : Nat}

/-- An entry of an accumulating scatter: the operand's entry plus the sum of the updates landing there. -/
theorem scatterAdd_apply (d : ScatterDims s si u) (x : FVec Ideal s φ) (idx : IVec si w) (upd : FVec Ideal u φ)
    (i : s.Idx) :
    Host.scatterAdd (F := Ideal) d x idx upd i
      = x i + ∑ j ∈ Finset.univ.filter (fun j => d.resultIdx? j idx = some i), upd j := rfl

/-- An accumulating scatter of real updates onto real entries has real entries, for any indices. -/
theorem allFin_scatterAdd (d : ScatterDims s si u) {x : FVec Ideal s φ} (idx : IVec si w) {upd : FVec Ideal u φ}
    (hx : AllFin x) (hupd : AllFin upd) : AllFin (Host.scatterAdd (F := Ideal) d x idx upd) := by
  intro i
  rw [scatterAdd_apply]
  exact (hx i).add (Fin'.sum _ _ fun j => hupd j)

/-- The same at any schedule key: at exact arithmetic the key plays no part. -/
theorem scatterAddAt_eq (sched : HostSchedule) (d : ScatterDims s si u) (x : FVec Ideal s φ) (idx : IVec si w)
    (upd : FVec Ideal u φ) :
    Host.scatterAddAt (F := Ideal) sched d x idx upd = Host.scatterAdd (F := Ideal) d x idx upd := rfl

theorem allFin_scatterAddAt (sched : HostSchedule) (d : ScatterDims s si u) {x : FVec Ideal s φ} (idx : IVec si w)
    {upd : FVec Ideal u φ} (hx : AllFin x) (hupd : AllFin upd) :
    AllFin (Host.scatterAddAt (F := Ideal) sched d x idx upd) := by
  rw [scatterAddAt_eq]; exact allFin_scatterAdd d idx hx hupd

/-- An accumulating scatter of non-negative updates onto non-negative entries is non-negative. -/
theorem scatterAdd_nonneg (d : ScatterDims s si u) {x : FVec Ideal s φ} (idx : IVec si w) {upd : FVec Ideal u φ}
    (hx : ∀ i, 0 ≤ x i) (hupd : ∀ j, 0 ≤ upd j) (i : s.Idx) : 0 ≤ Host.scatterAdd (F := Ideal) d x idx upd i := by
  rw [scatterAdd_apply]
  exact add_nonneg (hx i) (Finset.sum_nonneg fun j _ => hupd j)

end Scatter

end LibGatherScatterFinite

end
-- ==== Proof.Bridge.lean ====
/-
  The kernel's network and the reference's network are one function of finite argument arrays.

  Both programs compute two graph layers over the same edge list. Each layer normalises its input (the first over the
  nodes per feature, the second over all entries at once), projects it, gathers the projected rows by source, sums them
  by destination with the symmetric degree factors, adds a bias and clips at zero. The reference normalises by
  subtracting the mean and dividing by the root of the mean squared deviation, and multiplies every gathered row by its
  edge's factor inside the sum. The kernel normalises by a scale and a shift computed from the first and second
  moments, multiplies the projected rows by the source's factor before the gather and the summed rows by the
  destination's factor after it. Layer by layer: the normalised inputs agree entry by entry for real entries (the
  variance identity and distributivity), the two arrangements of the edge sum agree because the destination's factor
  is common to all the edges summed into a row and is a non-negative real, and the layer's output has real entries
  again, which the second layer's normalisation needs.
-/
import proofs.«180567_j38208029065461_2_alg».proof.Proof.KernelFold
import proofs.«180567_j38208029065461_2_alg».proof.Proof.RefRead
import proofs.«180567_j38208029065461_2_alg».proof.Proof.LibScaledLayer
import proofs.«180567_j38208029065461_2_alg».proof.Proof.LibGcnIndex
import proofs.«180567_j38208029065461_2_alg».proof.Proof.LibNodeFactor
import proofs.«180567_j38208029065461_2_alg».proof.Proof.NormEntries
import proofs.«180567_j38208029065461_2_alg».proof.Proof.LibGatherScatterFinite
import proofs.«180567_j38208029065461_2_alg».proof.Proof.LibIdealFinite
import proofs.«180567_j38208029065461_2_alg».proof.Proof.LibRowOps

set_option maxRecDepth 65536

noncomputable section

namespace Cert.Bridge

open Idealize.ShloMosaic Idealize.ShloMosaic.ValueIdx LibERealMatrix LibIdealFinite LibGatherScatterFinite
open Cert.KernelIdeal.HostValue Cert.KernelIdeal.FoldValue
open Cert.ReferenceIdeal.ReadP
open Cert.ReferenceIdeal.Facts₀
open Cert.ReferenceIdeal (S50000x128 S2x800000 S128 S128x96 S96 S96x64 S64 S50000 S850000 S850000x1 S50000x96 S50000x64 S_)

/-! ## The extents -/

theorem extV : GcnIndex.Extents 50000 850000 :=
  ⟨by norm_num, bcast_S_S850000, bcast_S_S50000, bcast_S850000_S850000x1_0, scatter_S50000_S850000x1_S850000_n_0_0_1_wf⟩

theorem ext96 : GcnLayer.Extents 50000 96 850000 :=
  ⟨by norm_num, gather_S50000x96_S850000x1_S850000x96_1_0_n_n_0_1_196_wf, scatter_S50000x96_S850000x1_S850000x96_1_0_0_1_wf,
    gather_S50000_S850000x1_S850000_n_0_n_n_0_1_1_wf, bcast_S_S50000x96, by decide, by decide, bcast_S850000_S850000x1_0,
    bcast_S850000x1_S850000x96_0_1, bcast_S96_S1x96_1, bcast_S1x96_S50000x96_0_1⟩

theorem ext64 : GcnLayer.Extents 50000 64 850000 :=
  ⟨by norm_num, gather_S50000x64_S850000x1_S850000x64_1_0_n_n_0_1_164_wf, scatter_S50000x64_S850000x1_S850000x64_1_0_0_1_wf,
    gather_S50000_S850000x1_S850000_n_0_n_n_0_1_1_wf, bcast_S_S50000x64, by decide, by decide, bcast_S850000_S850000x1_0,
    bcast_S850000x1_S850000x64_0_1, bcast_S64_S1x64_1, bcast_S1x64_S50000x64_0_1⟩

/-! ## The node factor and the index columns -/

/-- Both programs read the destination column off the edge list by the same operations. -/
theorem dst_eq (a1 : IVec S2x800000 32) : dstOf a1 = val_main_v32 (F := Ideal) a1 := rfl

/-- Both programs read the source column off the edge list by the same operations. -/
theorem src_eq (a1 : IVec S2x800000 32) : srcOf a1 = val_main_v29 (F := Ideal) a1 := rfl

/-- The degrees of a destination column, in the two programs' spelling. -/
theorem deg_eq (d : IVec S850000 32) : degOf d = GcnIndex.deg extV d := rfl

/-- Both programs compute the node factors by the same operations on the edge list. -/
theorem factor_eq (a1 : IVec S2x800000 32) : nodeFactor a1 = val_main_v40 (F := Ideal) a1 := by
  unfold nodeFactor
  rw [dst_eq]
  rfl

/-- The factor column the dense stages read, at (i, 0), is the factor of node i. -/
theorem nodeCol_apply (a1 : IVec S2x800000 32) (i : Fin 50000) :
    nodeCol a1 (ix2 i (0 : Fin 1)) = val_main_v40 (F := Ideal) a1 (ix1 i) := by
  unfold nodeCol colOf
  rw [NodeFactor.shapeCast_col_apply, factor_eq]

/-- The factor is a non-negative real at every node. -/
theorem factor_real (a1 : IVec S2x800000 32) (i : Fin 50000) :
    ∃ c : ℝ, 0 ≤ c ∧ val_main_v40 (F := Ideal) a1 (ix1 i) = (c : EReal) :=
  NodeFactor.guarded_factor_real extV (val_main_v32 (F := Ideal) a1) (val_main_v37 (F := Ideal)) (val_main_call0_v1 (F := Ideal))
    (fun j => by
      unfold val_main_v37 val_main_cst_6
      rw [GcnLayer.splat_apply, ValueIdx.constant_apply, Ideal.ofBits_zero_f32])
    (fun j => by
      unfold val_main_call0_v1 val_main_call0_v0 val_main_cst_7
      rw [GcnLayer.splat_apply]
      show Ideal.ofBits .f32 0x00000000#32 = 0
      exact Ideal.ofBits_zero_f32) i

theorem factor_fin (a1 : IVec S2x800000 32) : AllFin (val_main_v40 (F := Ideal) a1) := fun idx => by
  obtain ⟨i, rfl⟩ : ∃ i : Fin 50000, idx = ix1 i := ⟨idx 0, eq_ix1 idx⟩
  obtain ⟨c, _, hc⟩ := factor_real a1 i
  rw [hc]; exact Fin'.coe c

/-- An edge summed into row i gathers its destination's factor at row i. -/
theorem dest_row (a1 : IVec S2x800000 32) (e : Fin 850000) (i : Fin 50000)
    (h : (val_main_v67 (F := Ideal) a1 (ix2 e (0 : Fin 1))).toInt = ((i : ℕ) : ℤ)) :
    LibRowGather.clampRow 50000 ext96.hN (val_main_v53 (F := Ideal) a1 (ix2 e (0 : Fin 1))) = i :=
  GcnIndex.wrap_clamp extV 50000#32 (val_main_v32 (F := Ideal) a1) e i h

/-! ## The small reads -/

theorem biasRow96_apply (b : FVec Ideal S96 .f32) (j : Fin 96) : biasRow96 b (ix2 (0 : Fin 1) j) = b (ix1 j) := by
  unfold biasRow96
  rw [LibRowOps.shapeCast_row_apply]

theorem biasRow64_apply (b : FVec Ideal S64 .f32) (j : Fin 64) : biasRow64 b (ix2 (0 : Fin 1) j) = b (ix1 j) := by
  unfold biasRow64
  rw [LibRowOps.shapeCast_row_apply]

theorem clipZero96 (idx : S50000x96.Idx) : val_main_call1_v0 (F := Ideal) idx = 0 := by
  unfold val_main_call1_v0 val_main_call1_cst
  rw [GcnLayer.splat_apply, ValueIdx.constant_apply, Ideal.ofBits_zero_f32]

theorem clipZero64 (idx : S50000x64.Idx) : val_main_call3_v0 (F := Ideal) idx = 0 := by
  unfold val_main_call3_v0 val_main_call3_cst
  rw [GcnLayer.splat_apply, ValueIdx.constant_apply, Ideal.ofBits_zero_f32]

/-! ## The first layer -/

/-- The reference's first layer is the edge-scaled arrangement of the projected, normalised features, clipped. -/
theorem ref_layer1 (x0 : FVec Ideal S50000x128 .f32) (x1 : IVec S2x800000 32) (x2 x3 : FVec Ideal S128 .f32)
    (x4 : FVec Ideal S128x96 .f32) (x5 : FVec Ideal S96 .f32) :
    val_main_v72 (F := Ideal) x0 x1 x2 x3 x4 x5
      = maximumf (F := Ideal)
          (GcnLayer.edgeScaled ext96 (val_main_v25 (F := Ideal) x0 x2 x3 x4) (val_main_v40 (F := Ideal) x1)
            (val_main_v61 (F := Ideal) x1) (val_main_v67 (F := Ideal) x1) (val_main_v53 (F := Ideal) x1) x5)
          (val_main_call1_v0 (F := Ideal)) := rfl

/-- THE HIDDEN LAYERS AGREE. -/
theorem hidden_eq (a0 : FVec Ideal S50000x128 .f32) (a1 : IVec S2x800000 32) (a2 a3 : FVec Ideal S128 .f32)
    (a4 : FVec Ideal S128x96 .f32) (a5 : FVec Ideal S96 .f32) (h0 : AllFin a0) (h2 : AllFin a2) (h3 : AllFin a3) :
    Cert.KernelIdeal.FoldValue.hidden a0 a1 a2 a3 a4 a5 = val_main_v72 (F := Ideal) a0 a1 a2 a3 a4 a5 := by
  rw [ref_layer1]
  unfold Cert.KernelIdeal.FoldValue.hidden
  rw [src_eq, dst_eq]
  exact ScaledLayer.clip_prescaled_eq_clip_edgeScaled ext96
    Cert.ReferenceIdeal.dot_S50000x128_S128x96_S50000x96_1_0_0_1_n_n rfl rfl lhs_main_v25_0 lhs_main_v25_1
    rhs_main_v25_0 rhs_main_v25_1
    a0 (val_main_v24 (F := Ideal) a0 a2 a3) (bnScaleRow a0 a2) (bnShiftRow a0 a2 a3) a4
    (val_main_v40 (F := Ideal) a1) (nodeCol a1) a5 (biasRow96 a5)
    (val_main_v61 (F := Ideal) a1) (val_main_v67 (F := Ideal) a1) (val_main_v53 (F := Ideal) a1)
    (val_main_call1_v0 (F := Ideal))
    (fun i k => (Cert.NormEntries.bn_entry a0 a2 a3 h0 h2 h3 i k).1)
    (nodeCol_apply a1) (biasRow96_apply a5) clipZero96 (dest_row a1) (fun i _ => factor_real a1 i)

/-- The hidden layer has real entries. -/
theorem hidden_fin (a0 : FVec Ideal S50000x128 .f32) (a1 : IVec S2x800000 32) (a2 a3 : FVec Ideal S128 .f32)
    (a4 : FVec Ideal S128x96 .f32) (a5 : FVec Ideal S96 .f32) (h0 : AllFin a0) (h2 : AllFin a2) (h3 : AllFin a3)
    (h4 : AllFin a4) (h5 : AllFin a5) : AllFin (val_main_v72 (F := Ideal) a0 a1 a2 a3 a4 a5) := by
  rw [ref_layer1]
  have hv24 : AllFin (val_main_v24 (F := Ideal) a0 a2 a3) := fun idx => by
    obtain ⟨i, k, rfl⟩ : ∃ (i : Fin 50000) (k : Fin 128), idx = ix2 i k := ⟨idx 0, idx 1, eq_ix2 idx⟩
    exact (Cert.NormEntries.bn_entry a0 a2 a3 h0 h2 h3 i k).2
  refine allFin_maximumf ?_ (fun idx => by rw [clipZero96]; exact fin_zero)
  unfold GcnLayer.edgeScaled GcnLayer.biasMat GcnLayer.zeroMat
  exact allFin_addf
    (allFin_scatterAdd _ _ (allFin_broadcastInDim _ _ _ (allFin_constant _ ofBits_zero_coe))
      (allFin_mulf (allFin_gather _ _ (allFin_dotGeneral _ _ hv24 h4))
        (allFin_broadcastInDim _ _ _ (allFin_broadcastInDim _ _ _
          (allFin_mulf (allFin_gather _ _ (factor_fin a1)) (allFin_gather _ _ (factor_fin a1)))))))
    (allFin_broadcastInDim _ _ _ (allFin_broadcastInDim _ _ _ h5))

/-! ## The second layer -/

/-- The reference's second layer is the edge-scaled arrangement of the projected, normalised hidden layer, clipped; its
    index columns and node factors are the first layer's, computed again by the same operations. -/
theorem ref_layer2 (x0 : FVec Ideal S50000x128 .f32) (x1 : IVec S2x800000 32) (x2 x3 : FVec Ideal S128 .f32)
    (x4 : FVec Ideal S128x96 .f32) (x5 x6 x7 : FVec Ideal S96 .f32) (x8 : FVec Ideal S96x64 .f32)
    (x9 : FVec Ideal S64 .f32) :
    val_main_v139 (F := Ideal) x0 x1 x2 x3 x4 x5 x6 x7 x8 x9
      = maximumf (F := Ideal)
          (GcnLayer.edgeScaled ext64 (val_main_v92 (F := Ideal) x0 x1 x2 x3 x4 x5 x6 x7 x8) (val_main_v40 (F := Ideal) x1)
            (val_main_v61 (F := Ideal) x1) (val_main_v67 (F := Ideal) x1) (val_main_v53 (F := Ideal) x1) x9)
          (val_main_call3_v0 (F := Ideal)) := rfl

/-- THE NETWORKS AGREE on argument arrays of real numbers. -/
theorem output_eq (a0 : FVec Ideal S50000x128 .f32) (a1 : IVec S2x800000 32) (a2 a3 : FVec Ideal S128 .f32)
    (a4 : FVec Ideal S128x96 .f32) (a5 a6 a7 : FVec Ideal S96 .f32) (a8 : FVec Ideal S96x64 .f32)
    (a9 : FVec Ideal S64 .f32) (h0 : AllFin a0) (h2 : AllFin a2) (h3 : AllFin a3) (h4 : AllFin a4) (h5 : AllFin a5)
    (h6 : AllFin a6) (h7 : AllFin a7) (h8 : AllFin a8) (h9 : AllFin a9) :
    output a0 a1 a2 a3 a4 a5 a6 a7 a8 a9 = val_main_v139 (F := Ideal) a0 a1 a2 a3 a4 a5 a6 a7 a8 a9 := by
  have hh := hidden_fin a0 a1 a2 a3 a4 a5 h0 h2 h3 h4 h5
  rw [ref_layer2]
  unfold output proj2
  rw [hidden_eq a0 a1 a2 a3 a4 a5 h0 h2 h3, src_eq, dst_eq]
  exact ScaledLayer.clip_prescaled_eq_clip_edgeScaled ext64
    Cert.ReferenceIdeal.dot_S50000x96_S96x64_S50000x64_1_0_0_1_n_n rfl rfl lhs_main_v92_0 lhs_main_v92_1
    rhs_main_v92_0 rhs_main_v92_1
    (val_main_v72 (F := Ideal) a0 a1 a2 a3 a4 a5) (val_main_v91 (F := Ideal) a0 a1 a2 a3 a4 a5 a6 a7)
    (lnScaleRow (val_main_v72 (F := Ideal) a0 a1 a2 a3 a4 a5) a6)
    (lnShiftRow (val_main_v72 (F := Ideal) a0 a1 a2 a3 a4 a5) a6 a7) a8
    (val_main_v40 (F := Ideal) a1) (nodeCol a1) a9 (biasRow64 a9)
    (val_main_v61 (F := Ideal) a1) (val_main_v67 (F := Ideal) a1) (val_main_v53 (F := Ideal) a1)
    (val_main_call3_v0 (F := Ideal))
    (fun i k => (Cert.NormEntries.ln_entry a0 a1 a2 a3 a4 a5 a6 a7 hh h6 h7 i k).1)
    (nodeCol_apply a1) (biasRow64_apply a9) clipZero64 (dest_row a1) (fun i _ => factor_real a1 i)

end Cert.Bridge

end
-- ==== Proof.lean ====
/-
  The certificate of a two-layer normalised graph network: a kernel of four dense regions among host operations against
  its plain array reference, equal at exact arithmetic for finite inputs.

  The three frames: the two kernel programs' frames are the generated ones; the reference has no kernel, and its frame is
  its run with the result dropped. The idealization rewrote nothing, so `preserves` is trivial. For `algebraic`: the
  kernel's run ends with its result buffer at the last stage of the fold of buffer contents through the program
  (KernelRun), which is the network `FoldValue.output` of the argument arrays (KernelFold, over the four regions' arrays
  and the host stretches' values); the reference's run ends with its result at its composed term, read stage by stage
  (RefRun, RefRead); the precondition makes every float argument an array of real numbers (FiniteArgs); and for such
  arguments the two networks are one function (Bridge: the two spellings of each normalisation agree entry by entry,
  the two arrangements of each edge sum agree by the layer law, and the hidden layer is real again).
-/
import proofs.«180567_j38208029065461_2_alg».proof.Defs
import proofs.«180567_j38208029065461_2_alg».proof.Proof.Gen.Kernel
import proofs.«180567_j38208029065461_2_alg».proof.Proof.Gen.Kernel.Skeleton
import proofs.«180567_j38208029065461_2_alg».proof.Proof.Gen.Kernel.Launch
import proofs.«180567_j38208029065461_2_alg».proof.Proof.Gen.Kernel.Points
import proofs.«180567_j38208029065461_2_alg».proof.Proof.Gen.Kernel.Frame
import proofs.«180567_j38208029065461_2_alg».proof.Proof.Gen.KernelIdeal
import proofs.«180567_j38208029065461_2_alg».proof.Proof.Gen.KernelIdeal.Skeleton
import proofs.«180567_j38208029065461_2_alg».proof.Proof.Gen.KernelIdeal.Launch
import proofs.«180567_j38208029065461_2_alg».proof.Proof.Gen.KernelIdeal.Points
import proofs.«180567_j38208029065461_2_alg».proof.Proof.Gen.KernelIdeal.Frame
import proofs.«180567_j38208029065461_2_alg».proof.Proof.Gen.ReferenceIdeal
import proofs.«180567_j38208029065461_2_alg».proof.Proof.Gen.Pre_finite_inputs
import proofs.«180567_j38208029065461_2_alg».proof.Proof.KernelRun
import proofs.«180567_j38208029065461_2_alg».proof.Proof.KernelFold
import proofs.«180567_j38208029065461_2_alg».proof.Proof.RefRun
import proofs.«180567_j38208029065461_2_alg».proof.Proof.RefRead
import proofs.«180567_j38208029065461_2_alg».proof.Proof.FiniteArgs
import proofs.«180567_j38208029065461_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments, of which the precondition holds, both runs end with the same result array:
    the kernel's network of the arguments, which is the reference's. -/
theorem algebraic : Cert.algebraic_KernelIdeal_ReferenceIdeal := by
  intro m ρ m' ρ' hpre hagree
  refine ⟨fun c => Cert.KernelIdeal.Gen.W10 m ρ c (Proc.devRef .tc Cert.KernelIdeal.main_v74),
    Cert.KernelIdeal.RunValue.run_result m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v139 m' c
    = Cert.KernelIdeal.Gen.W10 m ρ c (Proc.devRef .tc Cert.KernelIdeal.main_v74)
  obtain ⟨e0, e1, e2, e3, e4, e5, e6, e7, e8, e9⟩ := hagree c
  obtain ⟨f0, f2, f3, f4, f5, f6, f7, f8, f9⟩ := Cert.FiniteArgs.real_entries _ _ _ _ _ _ _ _ _ _ (hpre c)
  rw [Cert.ReferenceIdeal.ReadP.val_main_v139_eq, e0, e1, e2, e3, e4, e5, e6, e7, e8, e9,
    Cert.KernelIdeal.FoldValue.result_eq m ρ c]
  exact (Cert.Bridge.output_eq _ _ _ _ _ _ _ _ _ _ f0 f2 f3 f4 f5 f6 f7 f8 f9).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
